-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S524288 : Shape := ⟨1, ![524288]⟩
abbrev S1024x512 : Shape := ⟨2, ![1024, 512]⟩
abbrev S512x128 : Shape := ⟨2, ![512, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_

variable [Facts]

def fn {F : FTy → Type} [FloatOps F] (main_arg0 : FVec F S16384x1024 .f32) (main_arg1 : IVec S524288 32) (main_arg2 : IVec S524288 32) (main_arg3 : FVec F S1024x512 .f32) (main_arg4 : FVec F S512x128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x512 .f32 := Host.absf main_arg3
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  main_v13
-- ==== Kernel.lean ====
abbrev S16384x1024 : Shape := ⟨2, ![16384, 1024]⟩
abbrev S524288 : Shape := ⟨1, ![524288]⟩
abbrev S1024x512 : Shape := ⟨2, ![1024, 512]⟩
abbrev S512x128 : Shape := ⟨2, ![512, 128]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x512 : Shape := ⟨2, ![16384, 512]⟩
abbrev S1024x1024 : Shape := ⟨2, ![1024, 1024]⟩
abbrev S1024x1 : Shape := ⟨2, ![1024, 1]⟩
abbrev S524288x512 : Shape := ⟨2, ![524288, 512]⟩
abbrev S2048x512 : Shape := ⟨2, ![2048, 512]⟩
abbrev S2048x1 : Shape := ⟨2, ![2048, 1]⟩
abbrev S16384x128 : Shape := ⟨2, ![16384, 128]⟩
abbrev S2048x128 : Shape := ⟨2, ![2048, 128]⟩
abbrev S524288x128 : Shape := ⟨2, ![524288, 128]⟩
abbrev S16384x16384 : Shape := ⟨2, ![16384, 16384]⟩
abbrev S2048x2048 : Shape := ⟨2, ![2048, 2048]⟩

abbrev nBuf : Space → Nat
  | .hbm => 53
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S524288, .i32⟩
  | .hbm, ⟨2, _⟩ => ⟨S524288, .i32⟩
  | .hbm, ⟨3, _⟩ => ⟨S1024x512, .f32⟩
  | .hbm, ⟨4, _⟩ => ⟨S512x128, .f32⟩
  | .hbm, ⟨5, _⟩ => ⟨S_, .f32⟩
  | .hbm, ⟨6, _⟩ => ⟨S524288, .f32⟩
  | .hbm, ⟨7, _⟩ => ⟨S_, .f32⟩
  | .hbm, ⟨8, _⟩ => ⟨S16384, .f32⟩
  | .hbm, ⟨9, _⟩ => ⟨S524288x1, .i32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .i1⟩
  | .hbm, ⟨14, _⟩ => ⟨S_, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x512, .f32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288x512, .f32⟩
  | .hbm, ⟨32, _⟩ => ⟨S_, .f32⟩
  | .hbm, ⟨33, _⟩ => ⟨S16384x512, .f32⟩
  | .hbm, ⟨34, _⟩ => ⟨S524288x1, .i32⟩
  | .hbm, ⟨35, _⟩ => ⟨S16384x512, .f32⟩
  | .hbm, ⟨36, _⟩ => ⟨S16384x512, .f32⟩
  | .hbm, ⟨37, _⟩ => ⟨S16384x128, .f32⟩
  | .hbm, ⟨38, _⟩ => ⟨S_, .i32⟩
  | .hbm, ⟨39, _⟩ => ⟨S524288, .i32⟩
  | .hbm, ⟨40, _⟩ => ⟨S524288, .i1⟩
  | .hbm, ⟨41, _⟩ => ⟨S_, .i32⟩
  | .hbm, ⟨42, _⟩ => ⟨S524288, .i32⟩
  | .hbm, ⟨43, _⟩ => ⟨S524288, .i32⟩
  | .hbm, ⟨44, _⟩ => ⟨S524288, .i32⟩
  | .hbm, ⟨45, _⟩ => ⟨S524288x1, .i32⟩
  | .hbm, ⟨46, _⟩ => ⟨S524288x128, .f32⟩
  | .hbm, ⟨47, _⟩ => ⟨S_, .f32⟩
  | .hbm, ⟨48, _⟩ => ⟨S16384x128, .f32⟩
  | .hbm, ⟨49, _⟩ => ⟨S524288x1, .i32⟩
  | .hbm, ⟨50, _⟩ => ⟨S16384x128, .f32⟩
  | .hbm, ⟨51, _⟩ => ⟨S16384x128, .f32⟩
  | .hbm, ⟨52, _⟩ => ⟨S16384x16384, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x1, .f32⟩
  | .local _ .vmem, ⟨4, _⟩ => ⟨S1024x1, .f32⟩
  | .local _ .vmem, ⟨5, _⟩ => ⟨S1024x512, .f32⟩
  | .local _ .vmem, ⟨6, _⟩ => ⟨S1024x512, .f32⟩
  | .local _ .vmem, ⟨7, _⟩ => ⟨S2048x512, .f32⟩
  | .local _ .vmem, ⟨8, _⟩ => ⟨S2048x512, .f32⟩
  | .local _ .vmem, ⟨9, _⟩ => ⟨S2048x1, .f32⟩
  | .local _ .vmem, ⟨10, _⟩ => ⟨S2048x1, .f32⟩
  | .local _ .vmem, ⟨11, _⟩ => ⟨S2048x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S512x128, .f32⟩
  | .local _ .vmem, ⟨16, _⟩ => ⟨S2048x1, .f32⟩
  | .local _ .vmem, ⟨17, _⟩ => ⟨S2048x1, .f32⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x1, .f32⟩
  | .local _ .vmem, ⟨23, _⟩ => ⟨S2048x1, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x2048, .f32⟩
  | .local _ .vmem, ⟨31, _⟩ => ⟨S2048x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![8, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  bcast_S_S16384x512 : S_.BroadcastsInDim S16384x512 (![] : Fin 0 → Fin S16384x512.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  bcast_S_S16384x128 : S_.BroadcastsInDim S16384x128 (![] : Fin 0 → Fin S16384x128.rank)
  shapeCasts_S2048x128_S2048x128 : S2048x128.ShapeCasts S2048x128
  broadcasts_S2048x1_S2048x128 : S2048x1.Broadcasts S2048x128
  inb_S2048x2048_S2048x2048_0_0 : ∀ a, (![0, 0] : Fin 2 → Nat) a + S2048x2048.size a ≤ S2048x2048.size a
  h_S2048x2048 : 0 < S2048x2048.numel
  scatter_S16384_S524288x1_S524288_n_0_0_1_wf : ScatterDims.WF S16384 S524288x1 S524288 [] [0] [0] 1
  dot_S1024x1024_S1024x512_S1024x512_1_0_0_1_n_n_wf : DotDims.WF S1024x1024 S1024x512 S1024x512 [1] [0] [0] [1] [] []
  gather_S16384x512_S524288x1_S524288x512_1_0_n_n_0_1_1512_wf : GatherDims.WF S16384x512 S524288x1 S524288x512 [1] [0] [] [0] [] 1 ![1, 512]
  scatter_S16384x512_S524288x1_S524288x512_1_0_0_1_wf : ScatterDims.WF S16384x512 S524288x1 S524288x512 [1] [0] [0] 1
  dot_S2048x512_S512x128_S2048x128_1_0_0_1_n_n_wf : DotDims.WF S2048x512 S512x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S16384x512.size a
  hwx1_0 : ∀ i : grid1.Coords, EltTy.bits .f32 = 32 ∨ (Rect.block (s := S16384x512) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x512.size a ≤ S16384x512.size a
  hwx1_2 : ∀ i : grid1.Coords, EltTy.bits .f32 = 32 ∨ (Rect.block (s := S16384x512) S2048x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S16384x512.size a
  hwx2_0 : ∀ i : grid2.Coords, EltTy.bits .f32 = 32 ∨ (Rect.block (s := S16384x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S16384x1.size a
  hwx2_2 : ∀ i : grid2.Coords, EltTy.bits .f32 = 32 ∨ (Rect.block (s := S16384x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S16384x128.size a
  hwx2_3 : ∀ i : grid2.Coords, EltTy.bits .f32 = 32 ∨ (Rect.block (s := S16384x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S16384x128.size a
  hwx3_0 : ∀ i : grid3.Coords, EltTy.bits .f32 = 32 ∨ (Rect.block (s := S16384x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S16384x1.size a
  hwx3_1 : ∀ i : grid3.Coords, EltTy.bits .f32 = 32 ∨ (Rect.block (s := S16384x1) S2048x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S16384x128.size a
  hwx3_2 : ∀ i : grid3.Coords, EltTy.bits .f32 = 32 ∨ (Rect.block (s := S16384x128) S2048x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S16384x128.size a
  hwx4_1 : ∀ i : grid4.Coords, EltTy.bits .f32 = 32 ∨ (Rect.block (s := S16384x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S16384x16384.size a
  hwx4_2 : ∀ i : grid4.Coords, EltTy.bits .f32 = 32 ∨ (Rect.block (s := S16384x16384) S2048x2048.size (cc4_transform_2 i) (hinb4_2 i)).WholeWords (EltTy.packing .f32)

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def gather_S16384x512_S524288x1_S524288x512_1_0_n_n_0_1_1512 : GatherDims S16384x512 S524288x1 S524288x512 where
  offsetDims := [1]
  collapsedSliceDims := [0]
  operandBatchingDims := []
  startIndicesBatchingDims := []
  startIndexMap := [0]
  indexVectorDim := 1
  sliceSizes := ![1, 512]
  wf := gather_S16384x512_S524288x1_S524288x512_1_0_n_n_0_1_1512_wf
def scatter_S16384x512_S524288x1_S524288x512_1_0_0_1 : ScatterDims S16384x512 S524288x1 S524288x512 where
  updateWindowDims := [1]
  insertedWindowDims := [0]
  scatterDimsToOperandDims := [0]
  indexVectorDim := 1
  wf := scatter_S16384x512_S524288x1_S524288x512_1_0_0_1_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v32) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S2048x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v33) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v34) S2048x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S16384x1024 : Shape := ⟨2, ![16384, 1024]⟩
abbrev S524288 : Shape := ⟨1, ![524288]⟩
abbrev S1024x512 : Shape := ⟨2, ![1024, 512]⟩
abbrev S512x128 : Shape := ⟨2, ![512, 128]⟩
abbrev S_ : Shape := ⟨0, ![]⟩
abbrev S16384 : Shape := ⟨1, ![16384]⟩
abbrev S524288x1 : Shape := ⟨2, ![524288, 1]⟩
abbrev S16384x1 : Shape := ⟨2, ![16384, 1]⟩
abbrev S16384x512 : Shape := ⟨2, ![16384, 512]⟩
abbrev S524288x512 : Shape := ⟨2, ![524288, 512]⟩
abbrev S16384x128 : Shape := ⟨2, ![16384, 128]⟩
abbrev S524288x128 : Shape := ⟨2, ![524288, 128]⟩
abbrev S128x16384 : Shape := ⟨2, ![128, 16384]⟩
abbrev S16384x16384 : Shape := ⟨2, ![16384, 16384]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S524288, .i32⟩
  | .hbm, ⟨2, _⟩ => ⟨S524288, .i32⟩
  | .hbm, ⟨3, _⟩ => ⟨S1024x512, .f32⟩
  | .hbm, ⟨4, _⟩ => ⟨S512x128, .f32⟩
  | .hbm, ⟨5, _⟩ => ⟨S_, .f32⟩
  | .hbm, ⟨6, _⟩ => ⟨S524288, .f32⟩
  | .hbm, ⟨7, _⟩ => ⟨S_, .f32⟩
  | .hbm, ⟨8, _⟩ => ⟨S16384, .f32⟩
  | .hbm, ⟨9, _⟩ => ⟨S524288x1, .i32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .i1⟩
  | .hbm, ⟨14, _⟩ => ⟨S_, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x512, .f32⟩
  | .hbm, ⟨25, _⟩ => ⟨S_, .i32⟩
  | .hbm, ⟨26, _⟩ => ⟨S524288, .i32⟩
  | .hbm, ⟨27, _⟩ => ⟨S524288, .i1⟩
  | .hbm, ⟨28, _⟩ => ⟨S_, .i32⟩
  | .hbm, ⟨29, _⟩ => ⟨S524288, .i32⟩
  | .hbm, ⟨30, _⟩ => ⟨S524288, .i32⟩
  | .hbm, ⟨31, _⟩ => ⟨S524288, .i32⟩
  | .hbm, ⟨32, _⟩ => ⟨S524288x1, .i32⟩
  | .hbm, ⟨33, _⟩ => ⟨S524288x512, .f32⟩
  | .hbm, ⟨34, _⟩ => ⟨S_, .f32⟩
  | .hbm, ⟨35, _⟩ => ⟨S16384x512, .f32⟩
  | .hbm, ⟨36, _⟩ => ⟨S524288x1, .i32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x128, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x128, .f32⟩
  | .hbm, ⟨55, _⟩ => ⟨S_, .f32⟩
  | .hbm, ⟨56, _⟩ => ⟨S16384x128, .f32⟩
  | .hbm, ⟨57, _⟩ => ⟨S524288x1, .i32⟩
  | .hbm, ⟨58, _⟩ => ⟨S16384x128, .f32⟩
  | .hbm, ⟨59, _⟩ => ⟨S16384x128, .f32⟩
  | .hbm, ⟨60, _⟩ => ⟨S16384x128, .f32⟩
  | .hbm, ⟨61, _⟩ => ⟨S128x16384, .f32⟩
  | .hbm, ⟨62, _⟩ => ⟨S16384x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call1_cst : Ref sig .tc := ⟨.hbm, 40, rfl⟩
abbrev main_call1_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S16384 : S_.BroadcastsInDim S16384 (![] : Fin 0 → Fin S16384.rank)
  bcast_S524288_S524288x1_0 : S524288.BroadcastsInDim S524288x1 (![0] : Fin 1 → Fin S524288x1.rank)
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  bcast_S_S16384x512 : S_.BroadcastsInDim S16384x512 (![] : Fin 0 → Fin S16384x512.rank)
  bcast_S16384x1_S16384x512_0_1 : S16384x1.BroadcastsInDim S16384x512 (![0, 1] : Fin 2 → Fin S16384x512.rank)
  bcast_S_S16384x128 : S_.BroadcastsInDim S16384x128 (![] : Fin 0 → Fin S16384x128.rank)
  bcast_S16384x1_S16384x128_0_1 : S16384x1.BroadcastsInDim S16384x128 (![0, 1] : Fin 2 → Fin S16384x128.rank)
  transposes_S16384x128_S128x16384_1_0 : S16384x128.Transposes [1, 0] S128x16384
  scatter_S16384_S524288x1_S524288_n_0_0_1_wf : ScatterDims.WF S16384 S524288x1 S524288 [] [0] [0] 1
  dot_S16384x1024_S1024x512_S16384x512_1_0_0_1_n_n_wf : DotDims.WF S16384x1024 S1024x512 S16384x512 [1] [0] [0] [1] [] []
  gather_S16384x512_S524288x1_S524288x512_1_0_n_n_0_1_1512_wf : GatherDims.WF S16384x512 S524288x1 S524288x512 [1] [0] [] [0] [] 1 ![1, 512]
  scatter_S16384x512_S524288x1_S524288x512_1_0_0_1_wf : ScatterDims.WF S16384x512 S524288x1 S524288x512 [1] [0] [0] 1
  dot_S16384x512_S512x128_S16384x128_1_0_0_1_n_n_wf : DotDims.WF S16384x512 S512x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x16384_S16384x16384_1_0_0_1_n_n_wf : DotDims.WF S16384x128 S128x16384 S16384x16384 [1] [0] [0] [1] [] []

variable [Facts₀]

def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def gather_S16384x512_S524288x1_S524288x512_1_0_n_n_0_1_1512 : GatherDims S16384x512 S524288x1 S524288x512 where
  offsetDims := [1]
  collapsedSliceDims := [0]
  operandBatchingDims := []
  startIndicesBatchingDims := []
  startIndexMap := [0]
  indexVectorDim := 1
  sliceSizes := ![1, 512]
  wf := gather_S16384x512_S524288x1_S524288x512_1_0_n_n_0_1_1512_wf
def scatter_S16384x512_S524288x1_S524288x512_1_0_0_1 : ScatterDims S16384x512 S524288x1 S524288x512 where
  updateWindowDims := [1]
  insertedWindowDims := [0]
  scatterDimsToOperandDims := [0]
  indexVectorDim := 1
  wf := scatter_S16384x512_S524288x1_S524288x512_1_0_0_1_wf
def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x16384_S16384x16384_1_0_0_1_n_n : DotDims S16384x128 S128x16384 S16384x16384 where
  lhsContracting := [1]
  rhsContracting := [0]
  lhsNonContracting := [0]
  rhsNonContracting := [1]
  lhsBatch := []
  rhsBatch := []
  wf := dot_S16384x128_S128x16384_S16384x16384_1_0_0_1_n_n_wf

class Facts : Prop extends Facts₀ where

variable [Facts]
-- ==== Proof.Reg0.lean ====
/-
  The first projection kernel's half of the frame proof, at any contents `V` of the core's buffers when the region is
  entered: the block each window reads, what the body leaves in the result's staging buffer, the body's triple, the
  pipeline's proof data, and the body obligation at every grid point.
-/
import proofs.«161926_j66597762892108_2_alg».proof.Proof.Gen.KernelIdeal.Launch
import proofs.«161926_j66597762892108_2_alg».proof.Proof.Gen.KernelIdeal.Skeleton
import proofs.«161926_j66597762892108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first projection kernel (pipeline 0): one grid point per block of 1024 rows

Its windows: 0 the rows' block of `x`, 1 the whole weight matrix (fetched once), 2 the rows' block of the
normalisation column, 3 the rows' block of the result. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window that is not
    fetched has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1024x1024 := Rect.unit (s := S1024x1024) ![0, 0] S1024x1024.size inb_S1024x1024_S1024x1024_0_0
abbrev r0_w : Rect S1024x512 := Rect.unit (s := S1024x512) ![0, 0] S1024x512.size inb_S1024x512_S1024x512_0_0
abbrev r0_n : Rect S1024x1 := Rect.unit (s := S1024x1) ![0, 0] S1024x1.size inb_S1024x1_S1024x1_0_0
abbrev r0_o : Rect S1024x512 := Rect.unit (s := S1024x512) ![0, 0] S1024x512.size inb_S1024x512_S1024x512_0_0

/-- What the body leaves in the result's buffer: its one store, of the product of the scaled rows and the weights. -/
def out0_3 (x0 : Vec F S1024x1024 .f32) (x1 : Vec F S1024x512 .f32) (x2 : Vec F S1024x1 .f32) : Vec F S1024x512 .f32 :=
  View.canon [⟨r0_o, k0_pay1 (View.ld x0 r0_x) (View.ld x2 r0_n) (View.ld x1 r0_w)⟩]

/-- The store covers the buffer. -/
theorem cover0_3 (p0 : Vec F S1024x512 .f32) (y : S1024x512.Idx) :
    ∃ pc ∈ ([⟨r0_o, p0⟩] : List (View.Piece (Elt F) S1024x512 .f32)), y ∈ pc.1.set :=
  View.cover_of_tiled [⟨r0_o, p0⟩] S1024x512.size (by rfl) y

set_option maxHeartbeats 1000000 in
/-- The body on whole staging buffers, the inputs' at contents `x0 x1 x2` and the result's at anything: it ends with
    the inputs' as they were and the result's at `out0_3` of them. -/
theorem sound_kernel0 (c : Dev nD) (E : Set ℕ) (i : grid0.Coords)
    (arg1 : Memref sig .tc .vmem S1024x1024 .f32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S1024x512 .f32) (harg4 : arg4.IsWhole)
    (x0 : Vec F S1024x1024 .f32) (x1 : Vec F S1024x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_proj_kernel i arg1 harg1 arg2 harg2 arg3 harg3 arg4 harg4) K := by
  simp only [cc0__dense_proj_kernel_eq_skeleton]; unfold cc0__dense_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Pipeline 0's proof data on core `c`: the arrays as the region finds them; after the body each input's buffer at its
    block and the result's at `out0_3` of the input blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.Reg1.lean ====
/-
  The first row-scaling kernel's half of the frame proof, at any contents `V` of the core's buffers when the region is
  entered: the block each window reads, what the body leaves in the result's staging buffer, the body's triple, the
  pipeline's proof data, and the body obligation at every grid point.
-/
import proofs.«161926_j66597762892108_2_alg».proof.Proof.Gen.KernelIdeal.Launch
import proofs.«161926_j66597762892108_2_alg».proof.Proof.Gen.KernelIdeal.Skeleton
import proofs.«161926_j66597762892108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first layer's closing kernel (pipeline 1): rows scaled, then `max · 0`; one grid point per block of 2048 rows

Its windows: 0 the rows' block of the aggregate, 1 the rows' block of the normalisation column, 2 the rows' block of the
result. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over `V` whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S2048x512 := Rect.unit (s := S2048x512) ![0, 0] S2048x512.size inb_S2048x512_S2048x512_0_0
abbrev r1_n : Rect S2048x1 := Rect.unit (s := S2048x1) ![0, 0] S2048x1.size inb_S2048x1_S2048x1_0_0

/-- What the body leaves in the result's buffer: its one store, of the rows scaled by the column. -/
def out1_2 (x0 : Vec F S2048x512 .f32) (x1 : Vec F S2048x1 .f32) : Vec F S2048x512 .f32 :=
  View.canon [⟨r1_a, k1_pay1 (View.ld x0 r1_a) (View.ld x1 r1_n)⟩]

/-- The store covers the buffer. -/
theorem cover1_2 (p0 : Vec F S2048x512 .f32) (y : S2048x512.Idx) :
    ∃ pc ∈ ([⟨r1_a, p0⟩] : List (View.Piece (Elt F) S2048x512 .f32)), y ∈ pc.1.set :=
  View.cover_of_tiled [⟨r1_a, p0⟩] S2048x512.size (by rfl) y

set_option maxHeartbeats 1000000 in
/-- The body on whole staging buffers, the inputs' at contents `x0 x1` and the result's at anything: it ends with the
    inputs' as they were and the result's at `out1_2` of them. -/
theorem sound_kernel1 (c : Dev nD) (E : Set ℕ) (i : grid1.Coords)
    (arg1 : Memref sig .tc .vmem S2048x512 .f32) (harg1 : arg1.IsWhole) (arg2 : Memref sig .tc .vmem S2048x1 .f32) (harg2 : arg2.IsWhole)
    (arg3 : Memref sig .tc .vmem S2048x512 .f32) (harg3 : arg3.IsWhole)
    (x0 : Vec F S2048x512 .f32) (x1 : Vec F S2048x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__post_agg_kernel i arg1 harg1 arg2 harg2 arg3 harg3) K := by
  simp only [cc1__post_agg_kernel_eq_skeleton]; unfold cc1__post_agg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Pipeline 1's proof data on core `c`: the arrays as the region finds them; after the body each input's buffer at its
    block and the result's at `out1_2` of the input blocks; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.Reg2.lean ====
/-
  The second projection kernel's half of the frame proof, at any contents `V` of the core's buffers when the region is
  entered: the block each window reads, what the body leaves in the result's staging buffer, the body's triple, the
  pipeline's proof data, and the body obligation at every grid point.
-/
import proofs.«161926_j66597762892108_2_alg».proof.Proof.Gen.KernelIdeal.Launch
import proofs.«161926_j66597762892108_2_alg».proof.Proof.Gen.KernelIdeal.Skeleton
import proofs.«161926_j66597762892108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second projection kernel (pipeline 2): one grid point per block of 2048 rows

Its windows: 0 the rows' block of `x`, 1 the whole weight matrix (fetched once), 2 the rows' block of the
normalisation column, 3 the rows' block of the result. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window that is not
    fetched has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S2048x512 := Rect.unit (s := S2048x512) ![0, 0] S2048x512.size inb_S2048x512_S2048x512_0_0
abbrev r2_w : Rect S512x128 := Rect.unit (s := S512x128) ![0, 0] S512x128.size inb_S512x128_S512x128_0_0
abbrev r2_n : Rect S2048x1 := Rect.unit (s := S2048x1) ![0, 0] S2048x1.size inb_S2048x1_S2048x1_0_0
abbrev r2_o : Rect S2048x128 := Rect.unit (s := S2048x128) ![0, 0] S2048x128.size inb_S2048x128_S2048x128_0_0

/-- What the body leaves in the result's buffer: its one store, of the product of the scaled rows and the weights. -/
def out2_3 (x0 : Vec F S2048x512 .f32) (x1 : Vec F S512x128 .f32) (x2 : Vec F S2048x1 .f32) : Vec F S2048x128 .f32 :=
  View.canon [⟨r2_o, k2_pay1 (View.ld x0 r2_x) (View.ld x2 r2_n) (View.ld x1 r2_w)⟩]

/-- The store covers the buffer. -/
theorem cover2_3 (p0 : Vec F S2048x128 .f32) (y : S2048x128.Idx) :
    ∃ pc ∈ ([⟨r2_o, p0⟩] : List (View.Piece (Elt F) S2048x128 .f32)), y ∈ pc.1.set :=
  View.cover_of_tiled [⟨r2_o, p0⟩] S2048x128.size (by rfl) y

set_option maxHeartbeats 1000000 in
/-- The body on whole staging buffers, the inputs' at contents `x0 x1 x2` and the result's at anything: it ends with
    the inputs' as they were and the result's at `out2_3` of them. -/
theorem sound_kernel2 (c : Dev nD) (E : Set ℕ) (i : grid2.Coords)
    (arg1 : Memref sig .tc .vmem S2048x512 .f32) (harg1 : arg1.IsWhole) (arg2 : Memref sig .tc .vmem S512x128 .f32) (harg2 : arg2.IsWhole)
    (arg3 : Memref sig .tc .vmem S2048x1 .f32) (harg3 : arg3.IsWhole) (arg4 : Memref sig .tc .vmem S2048x128 .f32) (harg4 : arg4.IsWhole)
    (x0 : Vec F S2048x512 .f32) (x1 : Vec F S512x128 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_proj_kernel i arg1 harg1 arg2 harg2 arg3 harg3 arg4 harg4) K := by
  simp only [cc2__dense_proj_kernel_eq_skeleton]; unfold cc2__dense_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- Pipeline 2's proof data on core `c`: the arrays as the region finds them; after the body each input's buffer at its
    block and the result's at `out2_3` of the input blocks; the scoped rest and the generator register untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Gen

end
-- ==== Proof.Reg3.lean ====
/-
  The second row-scaling kernel's half of the frame proof, at any contents `V` of the core's buffers when the region is
  entered: the block each window reads, what the body leaves in the result's staging buffer, the body's triple, the
  pipeline's proof data, and the body obligation at every grid point.
-/
import proofs.«161926_j66597762892108_2_alg».proof.Proof.Gen.KernelIdeal.Launch
import proofs.«161926_j66597762892108_2_alg».proof.Proof.Gen.KernelIdeal.Skeleton
import proofs.«161926_j66597762892108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's closing kernel (pipeline 3): rows scaled; one grid point per block of 2048 rows

Its windows: 0 the rows' block of the aggregate, 1 the rows' block of the normalisation column, 2 the rows' block of the
result. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, for any proof data over `V` whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S2048x128 := Rect.unit (s := S2048x128) ![0, 0] S2048x128.size inb_S2048x128_S2048x128_0_0
abbrev r3_n : Rect S2048x1 := Rect.unit (s := S2048x1) ![0, 0] S2048x1.size inb_S2048x1_S2048x1_0_0

/-- What the body leaves in the result's buffer: its one store, of the rows scaled by the column. -/
def out3_2 (x0 : Vec F S2048x128 .f32) (x1 : Vec F S2048x1 .f32) : Vec F S2048x128 .f32 :=
  View.canon [⟨r3_a, k3_pay1 (View.ld x0 r3_a) (View.ld x1 r3_n)⟩]

/-- The store covers the buffer. -/
theorem cover3_2 (p0 : Vec F S2048x128 .f32) (y : S2048x128.Idx) :
    ∃ pc ∈ ([⟨r3_a, p0⟩] : List (View.Piece (Elt F) S2048x128 .f32)), y ∈ pc.1.set :=
  View.cover_of_tiled [⟨r3_a, p0⟩] S2048x128.size (by rfl) y

set_option maxHeartbeats 1000000 in
/-- The body on whole staging buffers, the inputs' at contents `x0 x1` and the result's at anything: it ends with the
    inputs' as they were and the result's at `out3_2` of them. -/
theorem sound_kernel3 (c : Dev nD) (E : Set ℕ) (i : grid3.Coords)
    (arg1 : Memref sig .tc .vmem S2048x128 .f32) (harg1 : arg1.IsWhole) (arg2 : Memref sig .tc .vmem S2048x1 .f32) (harg2 : arg2.IsWhole)
    (arg3 : Memref sig .tc .vmem S2048x128 .f32) (harg3 : arg3.IsWhole)
    (x0 : Vec F S2048x128 .f32) (x1 : Vec F S2048x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__post_agg_kernel i arg1 harg1 arg2 harg2 arg3 harg3) K := by
  simp only [cc3__post_agg_kernel_eq_skeleton]; unfold cc3__post_agg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- Pipeline 3's proof data on core `c`: the arrays as the region finds them; after the body each input's buffer at its
    block and the result's at `out3_2` of the input blocks; the scoped rest and the generator register untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.Reg4.lean ====
/-
  The decoder kernel's half of the frame proof, at any contents `V` of the core's buffers when the region is entered:
  the block each window reads, what the body leaves in the result's staging buffer, the body's triple, the pipeline's
  proof data — its two input windows read one array, each at a share of it — and the body obligation at every grid point.
-/
import proofs.«161926_j66597762892108_2_alg».proof.Proof.Gen.KernelIdeal.Launch
import proofs.«161926_j66597762892108_2_alg».proof.Proof.Gen.KernelIdeal.Skeleton
import proofs.«161926_j66597762892108_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The decoder kernel (pipeline 4): all inner products of rows, one grid point per 2048 × 2048 block of the result

Its windows: 0 the block of rows (fetched when the row block changes), 1 the block of rows that supplies the columns,
2 the block of the result. Windows 0 and 1 read ONE array; each holds a share of it, `qa` and `qb`. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (a window that is not
    fetched has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_z : Rect S2048x128 := Rect.unit (s := S2048x128) ![0, 0] S2048x128.size inb_S2048x128_S2048x128_0_0
abbrev r4_o : Rect S2048x2048 := Rect.unit (s := S2048x2048) ![0, 0] S2048x2048.size inb_S2048x2048_S2048x2048_0_0

/-- What the body leaves in the result's buffer: its one store, of the inner products of the two blocks' rows. -/
def out4_2 (x0 : Vec F S2048x128 .f32) (x1 : Vec F S2048x128 .f32) : Vec F S2048x2048 .f32 :=
  View.canon [⟨r4_o, k4_pay1 (View.ld x0 r4_z) (View.ld x1 r4_z)⟩]

/-- The store covers the buffer. -/
theorem cover4_2 (p0 : Vec F S2048x2048 .f32) (y : S2048x2048.Idx) :
    ∃ pc ∈ ([⟨r4_o, p0⟩] : List (View.Piece (Elt F) S2048x2048 .f32)), y ∈ pc.1.set :=
  View.cover_of_tiled [⟨r4_o, p0⟩] S2048x2048.size (by rfl) y

set_option maxHeartbeats 1000000 in
/-- The body on whole staging buffers, the inputs' at contents `x0 x1` and the result's at anything: it ends with the
    inputs' as they were and the result's at `out4_2` of them. -/
theorem sound_kernel4 (c : Dev nD) (E : Set ℕ) (i : grid4.Coords)
    (arg2 : Memref sig .tc .vmem S2048x128 .f32) (harg2 : arg2.IsWhole) (arg3 : Memref sig .tc .vmem S2048x128 .f32) (harg3 : arg3.IsWhole)
    (arg4 : Memref sig .tc .vmem S2048x2048 .f32) (harg4 : arg4.IsWhole)
    (x0 : Vec F S2048x128 .f32) (x1 : Vec F S2048x128 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__zzt_kernel i arg2 harg2 arg3 harg3 arg4 harg4) K := by
  simp only [cc4__zzt_kernel_eq_skeleton]; unfold cc4__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The proof data -/

/-- Pipeline 4's proof data on core `c`: the arrays as the region finds them, the one input array held by window 0 at
    the share `qa` and by window 1 at `qb`; after the body each input's buffer at its block and the result's at
    `out4_2` of the input blocks; the scoped rest and the generator register untouched. -/
def dat4 (qa qb : PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => qa
    | ⟨1, _⟩ => qb
    | ⟨2, _⟩ => fullShare
  owed _ := 0

variable (qa qb : PosShare TreeShare)

theorem A_eq4 (c : Dev nD) (w : Fin cfg4.W) : (dat4 V qa qb c).A w = V c (Pipeline.arrRef spec4 w) := by
  dsimp only [dat4]
theorem q4_0 (c : Dev nD) : (dat4 V qa qb c).q 0 = qa := by dsimp only [dat4]
theorem q4_1 (c : Dev nD) : (dat4 V qa qb c).q 1 = qb := by dsimp only [dat4]

theorem after4_0 (c : Dev nD) (t : Fin cfg4.N) : (dat4 V qa qb c).after 0 t = iblk4 V c 0 t := by dsimp only [dat4]
theorem after4_1 (c : Dev nD) (t : Fin cfg4.N) : (dat4 V qa qb c).after 1 t = iblk4 V c 1 t := by dsimp only [dat4]
theorem after4_2 (c : Dev nD) (t : Fin cfg4.N) :
    (dat4 V qa qb c).after 2 t = out4_2 (iblk4 V c 0 t) (iblk4 V c 1 t) := by dsimp only [dat4]

theorem before4_0 (c : Dev nD) (t : Fin cfg4.N) (d) : (dat4 V qa qb c).before 0 t d = iblk4 V c 0 t :=
  before4_0_of V (dat4 V qa qb c) (A_eq4 V qa qb c 0) (after4_0 V qa qb c) t d
theorem before4_1 (c : Dev nD) (t : Fin cfg4.N) (d) : (dat4 V qa qb c).before 1 t d = iblk4 V c 1 t :=
  before4_1_of V (dat4 V qa qb c) (A_eq4 V qa qb c 1) (after4_1 V qa qb c) t d

/-! ## The body obligation -/

def bodyPre4 (c : Dev nD) (t : Fin cfg4.N) : sProp 𝕄 :=
  iprop((dat4 V qa qb c).Φ t.castSucc ∗ (dat4 V qa qb c).owesAt () t.castSucc
    ∗ (∃ d, owns (c : Thread nD τ) (st4_0 t) fullShare ((dat4 V qa qb c).before 0 t d))
    ∗ (∃ d, owns (c : Thread nD τ) (st4_1 t) fullShare ((dat4 V qa qb c).before 1 t d))
    ∗ (∃ d, owns (c : Thread nD τ) (st4_2 t) fullShare ((dat4 V qa qb c).before 2 t d)))

def bodyPost4 (c : Dev nD) (t : Fin cfg4.N) : sProp 𝕄 :=
  iprop((dat4 V qa qb c).Φ t.succ ∗ (dat4 V qa qb c).owesAt () t.succ
    ∗ owns (c : Thread nD τ) (st4_0 t) fullShare ((dat4 V qa qb c).after 0 t)
    ∗ owns (c : Thread nD τ) (st4_1 t) fullShare ((dat4 V qa qb c).after 1 t)
    ∗ owns (c : Thread nD τ) (st4_2 t) fullShare ((dat4 V qa qb c).after 2 t))

/-- The body at any point: the inputs' buffers hold their blocks, so the body's triple applies; the invariant and the
    core's dues pass through unread. -/
theorem sound_body4 (c : Dev nD) (t : Fin cfg4.N) :
    bodyPre4 V qa qb c t ⊢ wp frame (wpE (defs₀ (F := F)) Variants.none c none) Set.univ (bodyAt4 t) (fun _ => bodyPost4 V qa qb c t) := by
  unfold bodyPre4 bodyPost4 bodyAt4
  simp only [before4_0, before4_1]
  rw [show (dat4 V qa qb c).Φ t.succ = (dat4 V qa qb c).Φ t.castSucc from rfl,
    show (dat4 V qa qb c).owesAt () t.succ = (dat4 V qa qb c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V qa qb c) (defs₀ (F := F)) Variants.none () Set.univ := fun t => by
  rw [bigSep_W4, bigSep_W4]
  exact sound_body4 V qa qb c t

end Cert.KernelIdeal.Gen

end
-- ==== Proof.Chain.lean ====
/-
  The contents of the core's buffers from one item of the host program to the next, with each region's result named:
  after a region the valuation is the one before it with the region's result array holding what the pipeline's
  write-backs leave (`Dat.arrAt … N`); after a stretch of host operations it is their fold. The generated conditional
  frame is stated over unknown results `outs`; here they are chosen, and its valuations are these.
-/
import proofs.«161926_j66597762892108_2_alg».proof.Proof.Reg0
import proofs.«161926_j66597762892108_2_alg».proof.Proof.Reg1
import proofs.«161926_j66597762892108_2_alg».proof.Proof.Reg2
import proofs.«161926_j66597762892108_2_alg».proof.Proof.Reg3
import proofs.«161926_j66597762892108_2_alg».proof.Proof.Reg4
import proofs.«161926_j66597762892108_2_alg».proof.Proof.Gen.KernelIdeal.Regions

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ) (qa qb : PosShare TreeShare)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- What the first projection leaves in its result. -/
def o4 (c : Dev nD) : Buf (Elt F) ((c : Thread nD τ).loc main_v10) := (dat0 (atTc (V3 m)) c).arrAt 3 cfg0.N
/-- After region 0. -/
abbrev U4 (c : Dev nD) : Valuation τ sig (Elt F) := Function.update (V3 m c) main_v10 (o4 m c)
/-- After the first aggregation (host). -/
abbrev U5 (c : Dev nD) : Valuation τ sig (Elt F) := StableHlo.after hostOps1 (U4 m c)
/-- What the first layer's closing kernel leaves in its result. -/
def o6 (c : Dev nD) : Buf (Elt F) ((c : Thread nD τ).loc main_v21) := (dat1 (atTc (U5 m)) c).arrAt 2 cfg1.N
/-- After region 1. -/
abbrev U6 (c : Dev nD) : Valuation τ sig (Elt F) := Function.update (U5 m c) main_v21 (o6 m c)
/-- What the second projection leaves in its result. -/
def o7 (c : Dev nD) : Buf (Elt F) ((c : Thread nD τ).loc main_v22) := (dat2 (atTc (U6 m)) c).arrAt 3 cfg2.N
/-- After region 2. -/
abbrev U7 (c : Dev nD) : Valuation τ sig (Elt F) := Function.update (U6 m c) main_v22 (o7 m c)
/-- After the second aggregation (host). -/
abbrev U8 (c : Dev nD) : Valuation τ sig (Elt F) := StableHlo.after hostOps3 (U7 m c)
/-- What the second layer's closing kernel leaves in its result. -/
def o9 (c : Dev nD) : Buf (Elt F) ((c : Thread nD τ).loc main_v33) := (dat3 (atTc (U8 m)) c).arrAt 2 cfg3.N
/-- After region 3. -/
abbrev U9 (c : Dev nD) : Valuation τ sig (Elt F) := Function.update (U8 m c) main_v33 (o9 m c)
/-- What the decoder leaves in its result. -/
def o10 (c : Dev nD) : Buf (Elt F) ((c : Thread nD τ).loc main_v34) := (dat4 (atTc (U9 m)) qa qb c).arrAt 2 cfg4.N
/-- After region 4: the end. -/
abbrev U10 (c : Dev nD) : Valuation τ sig (Elt F) := Function.update (U9 m c) main_v34 (o10 m qa qb c)

/-- The regions' results, as the unknowns of the generated conditional frame: the result array's contents at each
    result's reference (whatever the item number), the launch contents elsewhere. -/
def outs : Outs (F := F) := fun _ r c =>
  if h : r = main_v10 then h ▸ o4 m c
  else if h : r = main_v21 then h ▸ o6 m c
  else if h : r = main_v22 then h ▸ o7 m c
  else if h : r = main_v33 then h ▸ o9 m c
  else if h : r = main_v34 then h ▸ o10 m qa qb c
  else V0 m c r

theorem outs_v10 (J : ℕ) (c : Dev nD) : outs m qa qb J main_v10 c = o4 m c := by
  unfold outs; rw [dif_pos rfl]
theorem outs_v21 (J : ℕ) (c : Dev nD) : outs m qa qb J main_v21 c = o6 m c := by
  unfold outs; rw [dif_neg (by decide), dif_pos rfl]
theorem outs_v22 (J : ℕ) (c : Dev nD) : outs m qa qb J main_v22 c = o7 m c := by
  unfold outs; rw [dif_neg (by decide), dif_neg (by decide), dif_pos rfl]
theorem outs_v33 (J : ℕ) (c : Dev nD) : outs m qa qb J main_v33 c = o9 m c := by
  unfold outs; rw [dif_neg (by decide), dif_neg (by decide), dif_neg (by decide), dif_pos rfl]
theorem outs_v34 (J : ℕ) (c : Dev nD) : outs m qa qb J main_v34 c = o10 m qa qb c := by
  unfold outs; rw [dif_neg (by decide), dif_neg (by decide), dif_neg (by decide), dif_neg (by decide), dif_pos rfl]

/-- The generated valuations at these results are the chain above. -/
theorem V4_eq (c : Dev nD) : V4 m (outs m qa qb) c = U4 m c := by
  show Function.update (V3 m c) main_v10 (outs m qa qb 4 main_v10 c) = _; rw [outs_v10]
theorem V5_eq (c : Dev nD) : V5 m (outs m qa qb) c = U5 m c := by
  show StableHlo.after hostOps1 (V4 m (outs m qa qb) c) = _; rw [V4_eq]
theorem V6_eq (c : Dev nD) : V6 m (outs m qa qb) c = U6 m c := by
  show Function.update (V5 m (outs m qa qb) c) main_v21 (outs m qa qb 6 main_v21 c) = _; rw [outs_v21, V5_eq]
theorem V7_eq (c : Dev nD) : V7 m (outs m qa qb) c = U7 m c := by
  show Function.update (V6 m (outs m qa qb) c) main_v22 (outs m qa qb 7 main_v22 c) = _; rw [outs_v22, V6_eq]
theorem V8_eq (c : Dev nD) : V8 m (outs m qa qb) c = U8 m c := by
  show StableHlo.after hostOps3 (V7 m (outs m qa qb) c) = _; rw [V7_eq]
theorem V9_eq (c : Dev nD) : V9 m (outs m qa qb) c = U9 m c := by
  show Function.update (V8 m (outs m qa qb) c) main_v33 (outs m qa qb 9 main_v33 c) = _; rw [outs_v33, V8_eq]
theorem V10_eq (c : Dev nD) : V10 m (outs m qa qb) c = U10 m qa qb c := by
  show Function.update (V9 m (outs m qa qb) c) main_v34 (outs m qa qb 10 main_v34 c) = _; rw [outs_v34, V9_eq]

/-- Every pipeline's proof data, each at its region's entry contents (a literal match on the pipeline). -/
def pdats : (p : Fin 5) → (c : Dev nD) → Dat τ (Elt F) Unit ℕ (UR sig nD τ) ℕ (cfgs p) c
  | ⟨0, _⟩ => fun c => dat0 (atTc (V3 m)) c
  | ⟨1, _⟩ => fun c => dat1 (atTc (U5 m)) c
  | ⟨2, _⟩ => fun c => dat2 (atTc (U6 m)) c
  | ⟨3, _⟩ => fun c => dat3 (atTc (U8 m)) c
  | ⟨4, _⟩ => fun c => dat4 (atTc (U9 m)) qa qb c

/-! ## A region's result array updated, its other arrays and every other buffer as entered -/

/-- The valuation updated at a reference holds the new contents there. -/
theorem upd_self (W : Valuation τ sig (Elt F)) (r : Ref sig .tc) (x) :
    Function.update W (Proc.devRef .tc r) x (Proc.devRef .tc r) = x := Function.update_self ..
/-- and the old ones elsewhere. -/
theorem upd_ne (W : Valuation τ sig (Elt F)) {r b : Ref sig .tc} (h : b ≠ r) (x) :
    Function.update W (Proc.devRef .tc r) x (Proc.devRef .tc b) = W (Proc.devRef .tc b) :=
  Function.update_of_ne (StableHlo.devRef_ne_of_ne h) ..

end Cert.KernelIdeal.Gen

end
-- ==== Proof.Rest.lean ====
/-
  What rides beside the buffers through every item of the host program: the core's generator register at some state and
  its dues, at nothing. (No core owes another anything: no level is assigned.)
-/
import proofs.«161926_j66597762892108_2_alg».proof.Proof.Chain
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

abbrev 𝒱n : Variants := Variants.none
abbrev Lz : GSem nD τ sig → Finset Unit := fun _ => ∅
abbrev lvz : GSem nD τ sig → Unit → ℕ := fun _ _ => 0
/-- The generator register at some state, and nothing owed. -/
abbrev Rst (c : Dev nD) : sProp 𝕄 := iprop((∃ r, prngReg c r) ∗ ∃ W, owes (c : Thread nD τ) (0 : CellTallies nD τ sig Unit) W)

end Cert.KernelIdeal.Gen

end
-- ==== Proof.Seg0.lean ====
/-
  The first projection's region as a segment of the host program: its arrays taken out of the core's unscoped buffers at entry and
  put back at exit with the result array at what the pipeline's write-backs leave.
-/
import proofs.«161926_j66597762892108_2_alg».proof.Proof.Rest
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF0 (c : Dev nD) : ∀ w : Fin 4, (pdats m qa qb 0 c).arrAt w cfg0.N = atTc (U4 m) c (Pipeline.arrRef spec0 w)
  | ⟨0, _⟩ => (((pdats m qa qb 0 c).arrAt_in 0 rfl _).trans (A_eq0 _ c 0)).trans (upd_ne (V3 m c) (r := main_v10) (b := main_arg0) (by decide) _).symm
  | ⟨1, _⟩ => (((pdats m qa qb 0 c).arrAt_in 1 rfl _).trans (A_eq0 _ c 1)).trans (upd_ne (V3 m c) (r := main_v10) (b := main_arg3) (by decide) _).symm
  | ⟨2, _⟩ => (((pdats m qa qb 0 c).arrAt_in 2 rfl _).trans (A_eq0 _ c 2)).trans (upd_ne (V3 m c) (r := main_v10) (b := main_v9) (by decide) _).symm
  | ⟨3, _⟩ => (upd_self (V3 m c) main_v10 _).symm
/-- and every other buffer what it held at entry. -/
theorem hrest0 (c : Dev nD) : ∀ b, b ∉ Finset.univ.image (Pipeline.arrRef spec0) → atTc (U4 m) c b = atTc (V3 m) c b :=
  fun b hb => upd_ne (V3 m c) (r := main_v10) (b := b) (fun e => hb (Finset.mem_image.mpr ⟨3, Finset.mem_univ _, e.symm⟩)) _

set_option backward.isDefEq.respectTransparency.types false in
/-- The first projection's region: entered with every unscoped buffer at the contents before it, left with the result array
    updated. Its arrays are split out of the unscoped buffers and put back at the exit contents; the generator register
    goes into the pipeline's invariant and comes out; nothing is owed; the kernel has no semaphore of its own. -/
def reg0 : Pipeline.RegionSeg (pcfgs (F := F)) adm (pdats m qa qb) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ Lz lvz 0 fun _ _ => rfl
  pre c := iprop(StableHlo.held (c : Thread nD τ) (Pipeline.ucRefs τ sig) (V3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m qa qb) launch0.win launch0.arr_whole c
      ((pdats m qa qb 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m qa qb 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m qa qb) ((pdats m qa qb 0 c).share_full fun _ => rfl)
      (atTc (V3 m) c) (atTc (U4 m) c) ((pdats m qa qb 0 c).arrAt · cfg0.N) (hF0 m qa qb c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Seg1.lean ====
/-
  The first layer's closing region as a segment of the host program: its arrays taken out of the core's unscoped buffers at entry and
  put back at exit with the result array at what the pipeline's write-backs leave.
-/
import proofs.«161926_j66597762892108_2_alg».proof.Proof.Rest
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF1 (c : Dev nD) : ∀ w : Fin 3, (pdats m qa qb 1 c).arrAt w cfg1.N = atTc (U6 m) c (Pipeline.arrRef spec1 w)
  | ⟨0, _⟩ => (((pdats m qa qb 1 c).arrAt_in 0 rfl _).trans (A_eq1 _ c 0)).trans (upd_ne (U5 m c) (r := main_v21) (b := main_v20) (by decide) _).symm
  | ⟨1, _⟩ => (((pdats m qa qb 1 c).arrAt_in 1 rfl _).trans (A_eq1 _ c 1)).trans (upd_ne (U5 m c) (r := main_v21) (b := main_v9) (by decide) _).symm
  | ⟨2, _⟩ => (upd_self (U5 m c) main_v21 _).symm
/-- and every other buffer what it held at entry. -/
theorem hrest1 (c : Dev nD) : ∀ b, b ∉ Finset.univ.image (Pipeline.arrRef spec1) → atTc (U6 m) c b = atTc (U5 m) c b :=
  fun b hb => upd_ne (U5 m c) (r := main_v21) (b := b) (fun e => hb (Finset.mem_image.mpr ⟨2, Finset.mem_univ _, e.symm⟩)) _

set_option backward.isDefEq.respectTransparency.types false in
/-- The first layer's closing region: entered with every unscoped buffer at the contents before it, left with the result array
    updated. Its arrays are split out of the unscoped buffers and put back at the exit contents; the generator register
    goes into the pipeline's invariant and comes out; nothing is owed; the kernel has no semaphore of its own. -/
def reg1 : Pipeline.RegionSeg (pcfgs (F := F)) adm (pdats m qa qb) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ Lz lvz 1 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (U5 m) c)
  hentry c := by
    rw [Pipeline.ownSems0_none]
    have hsplit := Pipeline.arrays_of_unscopedBufs (p := 1) (pcfgs (F := F)) adm (pdats m qa qb) launch1.win launch1.arr_whole c
      ((pdats m qa qb 1 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m qa qb 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m qa qb) ((pdats m qa qb 1 c).share_full fun _ => rfl)
      (atTc (U5 m) c) (atTc (U6 m) c) ((pdats m qa qb 1 c).arrAt · cfg1.N) (hF1 m qa qb c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Seg2.lean ====
/-
  The second projection's region as a segment of the host program: its arrays taken out of the core's unscoped buffers at entry and
  put back at exit with the result array at what the pipeline's write-backs leave.
-/
import proofs.«161926_j66597762892108_2_alg».proof.Proof.Rest
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF2 (c : Dev nD) : ∀ w : Fin 4, (pdats m qa qb 2 c).arrAt w cfg2.N = atTc (U7 m) c (Pipeline.arrRef spec2 w)
  | ⟨0, _⟩ => (((pdats m qa qb 2 c).arrAt_in 0 rfl _).trans (A_eq2 _ c 0)).trans (upd_ne (U6 m c) (r := main_v22) (b := main_v21) (by decide) _).symm
  | ⟨1, _⟩ => (((pdats m qa qb 2 c).arrAt_in 1 rfl _).trans (A_eq2 _ c 1)).trans (upd_ne (U6 m c) (r := main_v22) (b := main_arg4) (by decide) _).symm
  | ⟨2, _⟩ => (((pdats m qa qb 2 c).arrAt_in 2 rfl _).trans (A_eq2 _ c 2)).trans (upd_ne (U6 m c) (r := main_v22) (b := main_v9) (by decide) _).symm
  | ⟨3, _⟩ => (upd_self (U6 m c) main_v22 _).symm
/-- and every other buffer what it held at entry. -/
theorem hrest2 (c : Dev nD) : ∀ b, b ∉ Finset.univ.image (Pipeline.arrRef spec2) → atTc (U7 m) c b = atTc (U6 m) c b :=
  fun b hb => upd_ne (U6 m c) (r := main_v22) (b := b) (fun e => hb (Finset.mem_image.mpr ⟨3, Finset.mem_univ _, e.symm⟩)) _

set_option backward.isDefEq.respectTransparency.types false in
/-- The second projection's region: entered with every unscoped buffer at the contents before it, left with the result array
    updated. Its arrays are split out of the unscoped buffers and put back at the exit contents; the generator register
    goes into the pipeline's invariant and comes out; nothing is owed; the kernel has no semaphore of its own. -/
def reg2 : Pipeline.RegionSeg (pcfgs (F := F)) adm (pdats m qa qb) () defs₀ 𝒱n Lz lvz 2 where
  win := launch2.win.to₀
  block_pos := launch2.block_pos
  stage_whole := launch2.stage_whole
  K := PEmpty
  osem k := k.elim
  ho := Pipeline.OwnSemFacts.none _
  hbody c := (body_obligation2 (atTc (U6 m)) c).loose
  hwaits := Pipeline.hwaits_of_owed_zero _ _ _ _ Lz lvz 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (U6 m) c)
  hentry c := by
    rw [Pipeline.ownSems0_none]
    have hsplit := Pipeline.arrays_of_unscopedBufs (p := 2) (pcfgs (F := F)) adm (pdats m qa qb) launch2.win launch2.arr_whole c
      ((pdats m qa qb 2 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m qa qb 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m qa qb) ((pdats m qa qb 2 c).share_full fun _ => rfl)
      (atTc (U6 m) c) (atTc (U7 m) c) ((pdats m qa qb 2 c).arrAt · cfg2.N) (hF2 m qa qb c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Seg3.lean ====
/-
  The second layer's closing region as a segment of the host program: its arrays taken out of the core's unscoped buffers at entry and
  put back at exit with the result array at what the pipeline's write-backs leave.
-/
import proofs.«161926_j66597762892108_2_alg».proof.Proof.Rest
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF3 (c : Dev nD) : ∀ w : Fin 3, (pdats m qa qb 3 c).arrAt w cfg3.N = atTc (U9 m) c (Pipeline.arrRef spec3 w)
  | ⟨0, _⟩ => (((pdats m qa qb 3 c).arrAt_in 0 rfl _).trans (A_eq3 _ c 0)).trans (upd_ne (U8 m c) (r := main_v33) (b := main_v32) (by decide) _).symm
  | ⟨1, _⟩ => (((pdats m qa qb 3 c).arrAt_in 1 rfl _).trans (A_eq3 _ c 1)).trans (upd_ne (U8 m c) (r := main_v33) (b := main_v9) (by decide) _).symm
  | ⟨2, _⟩ => (upd_self (U8 m c) main_v33 _).symm
/-- and every other buffer what it held at entry. -/
theorem hrest3 (c : Dev nD) : ∀ b, b ∉ Finset.univ.image (Pipeline.arrRef spec3) → atTc (U9 m) c b = atTc (U8 m) c b :=
  fun b hb => upd_ne (U8 m c) (r := main_v33) (b := b) (fun e => hb (Finset.mem_image.mpr ⟨2, Finset.mem_univ _, e.symm⟩)) _

set_option backward.isDefEq.respectTransparency.types false in
/-- The second layer's closing region: entered with every unscoped buffer at the contents before it, left with the result array
    updated. Its arrays are split out of the unscoped buffers and put back at the exit contents; the generator register
    goes into the pipeline's invariant and comes out; nothing is owed; the kernel has no semaphore of its own. -/
def reg3 : Pipeline.RegionSeg (pcfgs (F := F)) adm (pdats m qa qb) () defs₀ 𝒱n Lz lvz 3 where
  win := launch3.win.to₀
  block_pos := launch3.block_pos
  stage_whole := launch3.stage_whole
  K := PEmpty
  osem k := k.elim
  ho := Pipeline.OwnSemFacts.none _
  hbody c := (body_obligation3 (atTc (U8 m)) c).loose
  hwaits := Pipeline.hwaits_of_owed_zero _ _ _ _ Lz lvz 3 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (U8 m) c)
  hentry c := by
    rw [Pipeline.ownSems0_none]
    have hsplit := Pipeline.arrays_of_unscopedBufs (p := 3) (pcfgs (F := F)) adm (pdats m qa qb) launch3.win launch3.arr_whole c
      ((pdats m qa qb 3 c).share_full fun _ => rfl) (atTc (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m qa qb 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m qa qb) ((pdats m qa qb 3 c).share_full fun _ => rfl)
      (atTc (U8 m) c) (atTc (U9 m) c) ((pdats m qa qb 3 c).arrAt · cfg3.N) (hF3 m qa qb c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.RunCond.lean ====
/-
  The whole host program's run with the RESULT in the post: the items of the host program as segments — the stretches of
  host operations over the unscoped buffers, the five regions by their records — composed in order from the launch to the
  return, and the last valuation read back at the result's and the arguments' buffers.
-/
import proofs.«161926_j66597762892108_2_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of the whole host program, given the regions' records: as the generated conditional frame, with the result
    array's final contents in the post beside the arguments' — every weakly fair execution from memory `m` with zero
    counters terminates, the result's buffer holds what the last valuation has there, and each argument is as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V6 m outs c) ∗ E 2 c) ⊢ R2.pre c)
    (hpost2 : ∀ c : Dev nD, R2.post c ⊢ iprop(StableHlo.held (c : Thread nD τ) (Pipeline.ucRefs τ sig) (V7 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V9 m outs c) ∗ E 4 c) ⊢ R4.pre c)
    (hpost4 : ∀ c : Dev nD, R4.post c ⊢ iprop(StableHlo.held (c : Thread nD τ) (Pipeline.ucRefs τ sig) (V10 m outs c) ∗ E 5 c)) :
    θ_run defs (onTc (τ := τ) (main (F := F))) ⟨m, fun _ => 0, ρ⟩ (fun r => ∀ c : Dev nD,
      r.2.mem ((c.tc : Thread nD τ).loc main_v34) = V10 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, (hpost1 c).trans (hpre2 c), hpost2 c, hpre3 c, (hpost3 c).trans (hpre4 c), (hpost4 c).trans (sep_mono .rfl (hE5 c))⟩)
    (hinit := ?_) (QY := fun c s => s.mem ((c.tc : Thread nD τ).loc main_v34) = V10 m outs c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's and each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c)⟩
    · iexact HSI

end Cert.KernelIdeal.Gen

end
-- ==== Proof.RunMain.lean ====
/-
  The host program's run assembled: the conditional run over the chosen results, the four regions whose arrays are distinct by
  their records, the decoder region's record a parameter (its two input windows share an array: its record is built
  apart), the launch's resources and the rest that rides along.
-/
import proofs.«161926_j66597762892108_2_alg».proof.Proof.Seg0
import proofs.«161926_j66597762892108_2_alg».proof.Proof.Seg1
import proofs.«161926_j66597762892108_2_alg».proof.Proof.Seg2
import proofs.«161926_j66597762892108_2_alg».proof.Proof.Seg3
import proofs.«161926_j66597762892108_2_alg».proof.Proof.RunCond
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (qa qb : PosShare TreeShare)

set_option backward.isDefEq.respectTransparency.types false in
/-- The run, given the decoder region's record entered from the contents after region 3 and left at the final ones. -/
theorem run_with (R4 : Pipeline.RegionSeg (pcfgs (F := F)) adm (pdats m qa qb) () defs₀ 𝒱n Lz lvz 4)
    (hpre4 : ∀ c : Dev nD, iprop(StableHlo.held (c : Thread nD τ) (Pipeline.ucRefs τ sig) (U9 m c) ∗ Rst (F := F) c) ⊢ R4.pre c)
    (hpost4 : ∀ c : Dev nD, R4.post c ⊢ iprop(StableHlo.held (c : Thread nD τ) (Pipeline.ucRefs τ sig) (U10 m qa qb c) ∗ Rst (F := F) c)) :
    θ_run defs (onTc (τ := τ) (main (F := F))) ⟨m, fun _ => 0, ρ⟩ (fun r => ∀ c : Dev nD,
      r.2.mem ((c.tc : Thread nD τ).loc main_v34) = U10 m qa qb c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := run_cond (F := F) m (Ix := Unit) (U := UR sig nD τ) (Lvl := ℕ) emb₁ () 𝒱n Lz lvz (fun _ _ => rfl) ρ (outs m qa qb) (pdats m qa qb)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m qa qb) (fun c => .rfl) (fun c => by rw [V4_eq]; exact .rfl)
    (reg1 m qa qb) (fun c => by rw [V5_eq]; exact .rfl) (fun c => by rw [V6_eq]; exact .rfl)
    (reg2 m qa qb) (fun c => by rw [V6_eq]; exact .rfl) (fun c => by rw [V7_eq]; exact .rfl)
    (reg3 m qa qb) (fun c => by rw [V8_eq]; exact .rfl) (fun c => by rw [V9_eq]; exact .rfl)
    R4 (fun c => by rw [V9_eq]; exact hpre4 c) (fun c => by rw [V10_eq]; exact hpost4 c)
  exact (θ_run defs _ _).mono (fun r hr c => ⟨(hr c).1.trans (congrFun (V10_eq m qa qb c) _), (hr c).2⟩) h

end Cert.KernelIdeal.Gen

end
-- ==== Proof.SharedArr.lean ====
/-
  Resource accounting for the last kernel region, whose two input windows read ONE array.

  The region has three windows. Windows 0 and 1 (inputs) are both on the array `main_v33`; window 2 (the output)
  is on `main_v34`. Among a core's unscoped buffers each of the two arrays is held once, whole, at the full share.
  The pipeline's proof data wants one points-to per WINDOW: an input window's array at the share `dat.q w`, an
  output's at the full share. So the full share of `main_v33` is halved, the left half to window 0 and the right
  half to window 1 (both see the same contents, and neither may write), while `main_v34` goes whole to window 2.
  At the region's exit the two halves are joined back into the full share of `main_v33`.
-/
import proofs.«161926_j66597762892108_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open PCS

variable {F : FTy → Type} [FloatOps F]

local notation "𝕄" => MT nD τ sig Unit (Elt F) ℕ (UR sig nD τ) ℕ

/-- The share of the common input array that window 0 holds: the left half of the full share. -/
def qL : PosShare TreeShare := (fullShare : PosShare TreeShare).left
/-- The share of the common input array that window 1 holds: the right half of the full share. -/
def qR : PosShare TreeShare := (fullShare : PosShare TreeShare).right
/-- The two halves compose to the full share. -/
theorem full_mem_qL_qR : (fullShare : PosShare TreeShare) ∈ qL ·? qR := PosShare.mem_left_op_right fullShare

/-- Windows 0 and 1 read the same array; window 2 writes another. -/
theorem arrRef4_0 : Pipeline.arrRef spec4 0 = main_v33 := rfl
theorem arrRef4_1 : Pipeline.arrRef spec4 1 = main_v33 := rfl
theorem arrRef4_2 : Pipeline.arrRef spec4 2 = main_v34 := rfl

/-- The buffers behind the region's three windows are two, so a conjunction over them has two conjuncts. -/
theorem bigSep_arrRef4 {M : Type} [URA M] (Φ : Ref sig .tc → sProp M) :
    bigSep (Finset.univ.image (Pipeline.arrRef spec4)) Φ = iprop(Φ main_v33 ∗ Φ main_v34) :=
  bigSep_eq_bigSepL_of_eq [main_v33, main_v34] (by decide) (by decide) Φ

section

variable (c : Dev nD) (dat : Pipeline.Dat τ (Elt F) Unit ℕ (UR sig nD τ) ℕ cfg4 c)

/-- The share each window holds of its array: the two inputs a half each of the common array, the output all of its own. -/
theorem share4_0 (hq0 : dat.q 0 = qL) : dat.share 0 = qL := (if_neg (by decide)).trans hq0
theorem share4_1 (hq1 : dat.q 1 = qR) : dat.share 1 = qR := (if_neg (by decide)).trans hq1
theorem share4_2 : dat.share 2 = fullShare := if_pos (by decide)

/-- The pipeline's `arrays` written out window by window: each array is a whole buffer, so every window's view is
    all of its buffer; the input array appears twice, at the left and at the right half share, the output once at
    the full share. -/
theorem arrays4_eq (hq0 : dat.q 0 = qL) (hq1 : dat.q 1 = qR)
    (Vc : (b : Ref sig .tc) → Buf (Elt F) ((c.tc : Thread nD τ).loc b))
    (Fw : (w : Fin cfg4.W) → Buf (Elt F) ((cfg4.win w).arr.view.loc (c.tc : Thread nD τ))) (hF : ∀ w, Fw w = Vc (Pipeline.arrRef spec4 w)) :
    (dat.arrays Fw : sProp 𝕄)
      = iprop((((c.tc : Thread nD τ).loc main_v33) ↦{qL} Vc main_v33) ∗ (((c.tc : Thread nD τ).loc main_v33) ↦{qR} Vc main_v33)
          ∗ (((c.tc : Thread nD τ).loc main_v34) ↦{fullShare} Vc main_v34)) := by
  unfold Pipeline.Dat.arrays
  rw [bigSep_W4, share4_0 c dat hq0, share4_1 c dat hq1, share4_2 c dat,
    (arr_whole4 0).set_eq_univ, (arr_whole4 2).set_eq_univ, hF 0, hF 1, hF 2]

/-- ENTRY: the two buffers behind the windows, each whole at the full share, give the pipeline its `arrays`. The
    full share of the common input array is split into its halves, one per input window (a split keeps the
    contents, so both windows read what the buffer held); the output array passes to window 2 unchanged. -/
theorem arrays_of_arrBufs4 (hq0 : dat.q 0 = qL) (hq1 : dat.q 1 = qR)
    (Vc : (b : Ref sig .tc) → Buf (Elt F) ((c.tc : Thread nD τ).loc b))
    (Fw : (w : Fin cfg4.W) → Buf (Elt F) ((cfg4.win w).arr.view.loc (c.tc : Thread nD τ))) (hF : ∀ w, Fw w = Vc (Pipeline.arrRef spec4 w)) :
    (Pipeline.arrBufs spec4 c Vc : sProp 𝕄) ⊢ dat.arrays Fw := by
  rw [arrays4_eq c dat hq0 hq1 Vc Fw hF]
  unfold Pipeline.arrBufs
  rw [bigSep_arrRef4]
  iintro ⟨H33, H34⟩
  ihave H := (pointsTo_share full_mem_qL_qR).1 $$ H33
  icases H with ⟨HL, HR⟩
  isplitl [HL]; · iexact HL
  isplitl [HR]; · iexact HR
  iexact H34

/-- EXIT: the converse. The two half shares of the common input array, at one and the same contents, join to its
    full share; with the output array at the full share these are the two buffers behind the windows, whole. -/
theorem arrBufs_of_arrays4 (hq0 : dat.q 0 = qL) (hq1 : dat.q 1 = qR)
    (Vc : (b : Ref sig .tc) → Buf (Elt F) ((c.tc : Thread nD τ).loc b))
    (Fw : (w : Fin cfg4.W) → Buf (Elt F) ((cfg4.win w).arr.view.loc (c.tc : Thread nD τ))) (hF : ∀ w, Fw w = Vc (Pipeline.arrRef spec4 w)) :
    dat.arrays Fw ⊢ (Pipeline.arrBufs spec4 c Vc : sProp 𝕄) := by
  rw [arrays4_eq c dat hq0 hq1 Vc Fw hF]
  unfold Pipeline.arrBufs
  rw [bigSep_arrRef4]
  iintro ⟨HL, HR, H34⟩
  isplitl [HL HR]
  · iapply (pointsTo_share full_mem_qL_qR).2
    isplitl [HL]; · iexact HL
    iexact HR
  iexact H34

/-- ENTRY, among all of the core's unscoped buffers at contents `Vc`: they are the two buffers behind the windows
    and the rest; the former give the pipeline's arrays at the proof data's entry contents (read off `Vc`), the rest
    is left as it is. -/
theorem arrays_of_unscopedBufs4 (hq0 : dat.q 0 = qL) (hq1 : dat.q 1 = qR)
    (Vc : (b : Ref sig .tc) → Buf (Elt F) ((c.tc : Thread nD τ).loc b))
    (hA : ∀ w, dat.A w = Vc (Pipeline.arrRef spec4 w)) :
    (unscopedBufs c Vc : sProp 𝕄) ⊢ iprop(dat.arrays (dat.arrAt · 0) ∗ Pipeline.unscopedRest spec4 c Vc) := by
  refine (Entails.of_eq (Pipeline.unscopedBufs_split₀ (fun _ : Unit => cfg4) () winFacts₀4.arr_unscoped c Vc)).trans ?_
  exact sep_mono (arrays_of_arrBufs4 c dat hq0 hq1 Vc (dat.arrAt · 0) hA) .rfl

/-- EXIT, among all of the core's unscoped buffers: the pipeline's arrays at contents `Fw` and the unscoped rest at
    `Vc` are the core's unscoped buffers at any contents `Vc'` that has the two arrays at `Fw` and agrees with
    `Vc` off them. -/
theorem unscopedBufs_of_arrays4 (hq0 : dat.q 0 = qL) (hq1 : dat.q 1 = qR)
    (Vc Vc' : (b : Ref sig .tc) → Buf (Elt F) ((c.tc : Thread nD τ).loc b))
    (Fw : (w : Fin cfg4.W) → Buf (Elt F) ((cfg4.win w).arr.view.loc (c.tc : Thread nD τ))) (hF : ∀ w, Fw w = Vc' (Pipeline.arrRef spec4 w))
    (hrest : ∀ b, b ∉ Finset.univ.image (Pipeline.arrRef spec4) → Vc' b = Vc b) :
    iprop(dat.arrays Fw ∗ Pipeline.unscopedRest spec4 c Vc) ⊢ (unscopedBufs c Vc' : sProp 𝕄) := by
  refine (sep_mono (arrBufs_of_arrays4 c dat hq0 hq1 Vc' Fw hF) (Entails.of_eq ?_)).trans
    (Entails.of_eq (Pipeline.unscopedBufs_split₀ (fun _ : Unit => cfg4) () winFacts₀4.arr_unscoped c Vc').symm)
  unfold Pipeline.unscopedRest
  exact bigSep_congr fun b hb => by rw [hrest b (Finset.mem_sdiff.mp hb).2]

end

end Cert.KernelIdeal.Gen

end
-- ==== Proof.Seg4.lean ====
/-
  The decoder's region as a segment of the host program. Its two input windows read ONE array: at entry that array's
  buffer, held whole, is split into the two windows' shares (the left and the right half of the full share), the result's
  array is held whole; at exit the two halves, still at the entry contents, are joined again and the result array holds
  what the pipeline's write-backs leave.
-/
import proofs.«161926_j66597762892108_2_alg».proof.Proof.Rest
import proofs.«161926_j66597762892108_2_alg».proof.Proof.SharedArr
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each window's array holds what the pipeline leaves: the shared input what it held, the result
    the write-backs' fold. -/
theorem hF4 (c : Dev nD) : ∀ w : Fin 3, (pdats m qL qR 4 c).arrAt w cfg4.N = atTc (U10 m qL qR) c (Pipeline.arrRef spec4 w)
  | ⟨0, _⟩ => (((pdats m qL qR 4 c).arrAt_in 0 rfl _).trans (A_eq4 _ qL qR c 0)).trans (upd_ne (U9 m c) (r := main_v34) (b := main_v33) (by decide) _).symm
  | ⟨1, _⟩ => (((pdats m qL qR 4 c).arrAt_in 1 rfl _).trans (A_eq4 _ qL qR c 1)).trans (upd_ne (U9 m c) (r := main_v34) (b := main_v33) (by decide) _).symm
  | ⟨2, _⟩ => (upd_self (U9 m c) main_v34 _).symm
/-- and every other buffer what it held at entry. -/
theorem hrest4 (c : Dev nD) : ∀ b, b ∉ Finset.univ.image (Pipeline.arrRef spec4) → atTc (U10 m qL qR) c b = atTc (U9 m) c b :=
  fun b hb => upd_ne (U9 m c) (r := main_v34) (b := b) (fun e => hb (Finset.mem_image.mpr ⟨2, Finset.mem_univ _, e.symm⟩)) _

set_option backward.isDefEq.respectTransparency.types false in
/-- The decoder's region: entered with every unscoped buffer at the contents after region 3, left with the result array
    updated. The generator register goes into the pipeline's invariant and comes out; nothing is owed; the kernel has no
    semaphore of its own. -/
def reg4 : Pipeline.RegionSeg (pcfgs (F := F)) adm (pdats m qL qR) () defs₀ 𝒱n Lz lvz 4 where
  win := winFacts₀4
  block_pos := block_pos4
  stage_whole := stage_whole4
  K := PEmpty
  osem k := k.elim
  ho := Pipeline.OwnSemFacts.none _
  hbody c := (body_obligation4 (atTc (U9 m)) qL qR c).loose
  hwaits := Pipeline.hwaits_of_owed_zero _ _ _ _ Lz lvz 4 fun _ _ => rfl
  pre c := iprop(StableHlo.held (c : Thread nD τ) (Pipeline.ucRefs τ sig) (U9 m c) ∗ Rst c)
  post c := iprop(StableHlo.held (c : Thread nD τ) (Pipeline.ucRefs τ sig) (U10 m qL qR c) ∗ Rst c)
  X c := iprop(∃ r, prngReg c r)
  Y c := iprop(∃ r, prngReg c r)
  Z c := Pipeline.unscopedRest (Ix := Unit) (Name := ℕ) (U := UR sig nD τ) (Lvl := ℕ) spec4 c (atTc (U9 m) c)
  hentry c := by
    rw [Pipeline.ownSems0_none]
    have hsplit := arrays_of_unscopedBufs4 (F := F) c (pdats m qL qR 4 c) (q4_0 _ qL qR c) (q4_1 _ qL qR c) (atTc (U9 m) c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qL qR 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m qL qR 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 (F := F) c (pdats m qL qR 4 c) (q4_0 _ qL qR c) (q4_1 _ qL qR c)
      (atTc (U9 m) c) (atTc (U10 m qL qR) c) ((pdats m qL qR 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Top.lean ====
/-
  The host program's run, closed: the decoder region's record put in, its two input windows at the two halves of the full
  share of the array they read.
-/
import proofs.«161926_j66597762892108_2_alg».proof.Proof.RunMain
import proofs.«161926_j66597762892108_2_alg».proof.Proof.Seg4

noncomputable section

namespace Cert.KernelIdeal.Gen

open Idealize.ShloMosaic Idealize.ShloMosaic.TcCoe
open Idealize.SL Idealize.SL.Sem

variable {F : FTy → Type} [FloatOps F]

/-- From any memory with zero counters every weakly fair execution of the host program terminates, nothing faulting,
    the result's buffer holds the last region's result array
    and each argument's buffer is as launched. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v34) = U10 m qL qR c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_with m ρ qL qR (reg4 m) (fun _ => .rfl) (fun _ => .rfl)

end Cert.KernelIdeal.Gen

end
-- ==== Proof.Reg0K.lean ====
/-
  The first projection kernel's half of the frame proof, at any contents `V` of the core's buffers when the region is
  entered: the block each window reads, what the body leaves in the result's staging buffer, the body's triple, the
  pipeline's proof data, and the body obligation at every grid point.
-/
import proofs.«161926_j66597762892108_2_alg».proof.Proof.Gen.Kernel.Launch
import proofs.«161926_j66597762892108_2_alg».proof.Proof.Gen.Kernel.Skeleton
import proofs.«161926_j66597762892108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first projection kernel (pipeline 0): one grid point per block of 1024 rows

Its windows: 0 the rows' block of `x`, 1 the whole weight matrix (fetched once), 2 the rows' block of the
normalisation column, 3 the rows' block of the result. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window that is not
    fetched has not moved), for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S1024x1024 := Rect.unit (s := S1024x1024) ![0, 0] S1024x1024.size inb_S1024x1024_S1024x1024_0_0
abbrev r0_w : Rect S1024x512 := Rect.unit (s := S1024x512) ![0, 0] S1024x512.size inb_S1024x512_S1024x512_0_0
abbrev r0_n : Rect S1024x1 := Rect.unit (s := S1024x1) ![0, 0] S1024x1.size inb_S1024x1_S1024x1_0_0
abbrev r0_o : Rect S1024x512 := Rect.unit (s := S1024x512) ![0, 0] S1024x512.size inb_S1024x512_S1024x512_0_0

/-- What the body leaves in the result's buffer: its one store, of the product of the scaled rows and the weights. -/
def out0_3 (x0 : Vec F S1024x1024 .f32) (x1 : Vec F S1024x512 .f32) (x2 : Vec F S1024x1 .f32) : Vec F S1024x512 .f32 :=
  View.canon [⟨r0_o, k0_pay1 (View.ld x0 r0_x) (View.ld x2 r0_n) (View.ld x1 r0_w)⟩]

/-- The store covers the buffer. -/
theorem cover0_3 (p0 : Vec F S1024x512 .f32) (y : S1024x512.Idx) :
    ∃ pc ∈ ([⟨r0_o, p0⟩] : List (View.Piece (Elt F) S1024x512 .f32)), y ∈ pc.1.set :=
  View.cover_of_tiled [⟨r0_o, p0⟩] S1024x512.size (by rfl) y

set_option maxHeartbeats 1000000 in
/-- The body on whole staging buffers, the inputs' at contents `x0 x1 x2` and the result's at anything: it ends with
    the inputs' as they were and the result's at `out0_3` of them. -/
theorem sound_kernel0 (c : Dev nD) (E : Set ℕ) (i : grid0.Coords)
    (arg1 : Memref sig .tc .vmem S1024x1024 .f32) (harg1 : arg1.IsWhole) (arg2 : Memref sig .tc .vmem S1024x512 .f32) (harg2 : arg2.IsWhole)
    (arg3 : Memref sig .tc .vmem S1024x1 .f32) (harg3 : arg3.IsWhole) (arg4 : Memref sig .tc .vmem S1024x512 .f32) (harg4 : arg4.IsWhole)
    (x0 : Vec F S1024x1024 .f32) (x1 : Vec F S1024x512 .f32) (x2 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_proj_kernel i arg1 harg1 arg2 harg2 arg3 harg3 arg4 harg4) K := by
  simp only [cc0__dense_proj_kernel_eq_skeleton]; unfold cc0__dense_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Pipeline 0's proof data on core `c`: the arrays as the region finds them; after the body each input's buffer at its
    block and the result's at `out0_3` of the input blocks; the scoped rest and the generator register untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.Reg1K.lean ====
/-
  The first row-scaling kernel's half of the frame proof, at any contents `V` of the core's buffers when the region is
  entered: the block each window reads, what the body leaves in the result's staging buffer, the body's triple, the
  pipeline's proof data, and the body obligation at every grid point.
-/
import proofs.«161926_j66597762892108_2_alg».proof.Proof.Gen.Kernel.Launch
import proofs.«161926_j66597762892108_2_alg».proof.Proof.Gen.Kernel.Skeleton
import proofs.«161926_j66597762892108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first layer's closing kernel (pipeline 1): rows scaled, then `max · 0`; one grid point per block of 2048 rows

Its windows: 0 the rows' block of the aggregate, 1 the rows' block of the normalisation column, 2 the rows' block of the
result. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over `V` whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_a : Rect S2048x512 := Rect.unit (s := S2048x512) ![0, 0] S2048x512.size inb_S2048x512_S2048x512_0_0
abbrev r1_n : Rect S2048x1 := Rect.unit (s := S2048x1) ![0, 0] S2048x1.size inb_S2048x1_S2048x1_0_0

/-- What the body leaves in the result's buffer: its one store, of the rows scaled by the column. -/
def out1_2 (x0 : Vec F S2048x512 .f32) (x1 : Vec F S2048x1 .f32) : Vec F S2048x512 .f32 :=
  View.canon [⟨r1_a, k1_pay1 (View.ld x0 r1_a) (View.ld x1 r1_n)⟩]

/-- The store covers the buffer. -/
theorem cover1_2 (p0 : Vec F S2048x512 .f32) (y : S2048x512.Idx) :
    ∃ pc ∈ ([⟨r1_a, p0⟩] : List (View.Piece (Elt F) S2048x512 .f32)), y ∈ pc.1.set :=
  View.cover_of_tiled [⟨r1_a, p0⟩] S2048x512.size (by rfl) y

set_option maxHeartbeats 1000000 in
/-- The body on whole staging buffers, the inputs' at contents `x0 x1` and the result's at anything: it ends with the
    inputs' as they were and the result's at `out1_2` of them. -/
theorem sound_kernel1 (c : Dev nD) (E : Set ℕ) (i : grid1.Coords)
    (arg1 : Memref sig .tc .vmem S2048x512 .f32) (harg1 : arg1.IsWhole) (arg2 : Memref sig .tc .vmem S2048x1 .f32) (harg2 : arg2.IsWhole)
    (arg3 : Memref sig .tc .vmem S2048x512 .f32) (harg3 : arg3.IsWhole)
    (x0 : Vec F S2048x512 .f32) (x1 : Vec F S2048x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__post_agg_kernel i arg1 harg1 arg2 harg2 arg3 harg3) K := by
  simp only [cc1__post_agg_kernel_eq_skeleton]; unfold cc1__post_agg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- Pipeline 1's proof data on core `c`: the arrays as the region finds them; after the body each input's buffer at its
    block and the result's at `out1_2` of the input blocks; the scoped rest and the generator register untouched. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.Reg2K.lean ====
/-
  The second projection kernel's half of the frame proof, at any contents `V` of the core's buffers when the region is
  entered: the block each window reads, what the body leaves in the result's staging buffer, the body's triple, the
  pipeline's proof data, and the body obligation at every grid point.
-/
import proofs.«161926_j66597762892108_2_alg».proof.Proof.Gen.Kernel.Launch
import proofs.«161926_j66597762892108_2_alg».proof.Proof.Gen.Kernel.Skeleton
import proofs.«161926_j66597762892108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second projection kernel (pipeline 2): one grid point per block of 2048 rows

Its windows: 0 the rows' block of `x`, 1 the whole weight matrix (fetched once), 2 the rows' block of the
normalisation column, 3 the rows' block of the result. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window that is not
    fetched has not moved), for any proof data over `V` whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev r2_x : Rect S2048x512 := Rect.unit (s := S2048x512) ![0, 0] S2048x512.size inb_S2048x512_S2048x512_0_0
abbrev r2_w : Rect S512x128 := Rect.unit (s := S512x128) ![0, 0] S512x128.size inb_S512x128_S512x128_0_0
abbrev r2_n : Rect S2048x1 := Rect.unit (s := S2048x1) ![0, 0] S2048x1.size inb_S2048x1_S2048x1_0_0
abbrev r2_o : Rect S2048x128 := Rect.unit (s := S2048x128) ![0, 0] S2048x128.size inb_S2048x128_S2048x128_0_0

/-- What the body leaves in the result's buffer: its one store, of the product of the scaled rows and the weights. -/
def out2_3 (x0 : Vec F S2048x512 .f32) (x1 : Vec F S512x128 .f32) (x2 : Vec F S2048x1 .f32) : Vec F S2048x128 .f32 :=
  View.canon [⟨r2_o, k2_pay1 (View.ld x0 r2_x) (View.ld x2 r2_n) (View.ld x1 r2_w)⟩]

/-- The store covers the buffer. -/
theorem cover2_3 (p0 : Vec F S2048x128 .f32) (y : S2048x128.Idx) :
    ∃ pc ∈ ([⟨r2_o, p0⟩] : List (View.Piece (Elt F) S2048x128 .f32)), y ∈ pc.1.set :=
  View.cover_of_tiled [⟨r2_o, p0⟩] S2048x128.size (by rfl) y

set_option maxHeartbeats 1000000 in
/-- The body on whole staging buffers, the inputs' at contents `x0 x1 x2` and the result's at anything: it ends with
    the inputs' as they were and the result's at `out2_3` of them. -/
theorem sound_kernel2 (c : Dev nD) (E : Set ℕ) (i : grid2.Coords)
    (arg1 : Memref sig .tc .vmem S2048x512 .f32) (harg1 : arg1.IsWhole) (arg2 : Memref sig .tc .vmem S512x128 .f32) (harg2 : arg2.IsWhole)
    (arg3 : Memref sig .tc .vmem S2048x1 .f32) (harg3 : arg3.IsWhole) (arg4 : Memref sig .tc .vmem S2048x128 .f32) (harg4 : arg4.IsWhole)
    (x0 : Vec F S2048x512 .f32) (x1 : Vec F S512x128 .f32) (x2 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__dense_proj_kernel i arg1 harg1 arg2 harg2 arg3 harg3 arg4 harg4) K := by
  simp only [cc2__dense_proj_kernel_eq_skeleton]; unfold cc2__dense_proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- Pipeline 2's proof data on core `c`: the arrays as the region finds them; after the body each input's buffer at its
    block and the result's at `out2_3` of the input blocks; the scoped rest and the generator register untouched. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Gen

end
-- ==== Proof.Reg3K.lean ====
/-
  The second row-scaling kernel's half of the frame proof, at any contents `V` of the core's buffers when the region is
  entered: the block each window reads, what the body leaves in the result's staging buffer, the body's triple, the
  pipeline's proof data, and the body obligation at every grid point.
-/
import proofs.«161926_j66597762892108_2_alg».proof.Proof.Gen.Kernel.Launch
import proofs.«161926_j66597762892108_2_alg».proof.Proof.Gen.Kernel.Skeleton
import proofs.«161926_j66597762892108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's closing kernel (pipeline 3): rows scaled; one grid point per block of 2048 rows

Its windows: 0 the rows' block of the aggregate, 1 the rows' block of the normalisation column, 2 the rows' block of the
result. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, for any proof data over `V` whose body leaves the
    block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_a : Rect S2048x128 := Rect.unit (s := S2048x128) ![0, 0] S2048x128.size inb_S2048x128_S2048x128_0_0
abbrev r3_n : Rect S2048x1 := Rect.unit (s := S2048x1) ![0, 0] S2048x1.size inb_S2048x1_S2048x1_0_0

/-- What the body leaves in the result's buffer: its one store, of the rows scaled by the column. -/
def out3_2 (x0 : Vec F S2048x128 .f32) (x1 : Vec F S2048x1 .f32) : Vec F S2048x128 .f32 :=
  View.canon [⟨r3_a, k3_pay1 (View.ld x0 r3_a) (View.ld x1 r3_n)⟩]

/-- The store covers the buffer. -/
theorem cover3_2 (p0 : Vec F S2048x128 .f32) (y : S2048x128.Idx) :
    ∃ pc ∈ ([⟨r3_a, p0⟩] : List (View.Piece (Elt F) S2048x128 .f32)), y ∈ pc.1.set :=
  View.cover_of_tiled [⟨r3_a, p0⟩] S2048x128.size (by rfl) y

set_option maxHeartbeats 1000000 in
/-- The body on whole staging buffers, the inputs' at contents `x0 x1` and the result's at anything: it ends with the
    inputs' as they were and the result's at `out3_2` of them. -/
theorem sound_kernel3 (c : Dev nD) (E : Set ℕ) (i : grid3.Coords)
    (arg1 : Memref sig .tc .vmem S2048x128 .f32) (harg1 : arg1.IsWhole) (arg2 : Memref sig .tc .vmem S2048x1 .f32) (harg2 : arg2.IsWhole)
    (arg3 : Memref sig .tc .vmem S2048x128 .f32) (harg3 : arg3.IsWhole)
    (x0 : Vec F S2048x128 .f32) (x1 : Vec F S2048x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__post_agg_kernel i arg1 harg1 arg2 harg2 arg3 harg3) K := by
  simp only [cc3__post_agg_kernel_eq_skeleton]; unfold cc3__post_agg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The proof data -/

/-- Pipeline 3's proof data on core `c`: the arrays as the region finds them; after the body each input's buffer at its
    block and the result's at `out3_2` of the input blocks; the scoped rest and the generator register untouched. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.Reg4K.lean ====
/-
  The decoder kernel's half of the frame proof, at any contents `V` of the core's buffers when the region is entered:
  the block each window reads, what the body leaves in the result's staging buffer, the body's triple, the pipeline's
  proof data — its two input windows read one array, each at a share of it — and the body obligation at every grid point.
-/
import proofs.«161926_j66597762892108_2_alg».proof.Proof.Gen.Kernel.Launch
import proofs.«161926_j66597762892108_2_alg».proof.Proof.Gen.Kernel.Skeleton
import proofs.«161926_j66597762892108_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The decoder kernel (pipeline 4): all inner products of rows, one grid point per 2048 × 2048 block of the result

Its windows: 0 the block of rows (fetched when the row block changes), 1 the block of rows that supplies the columns,
2 the block of the result. Windows 0 and 1 read ONE array; each holds a share of it, `qa` and `qb`. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not (a window that is not
    fetched has not moved), for any proof data over `V` whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_z : Rect S2048x128 := Rect.unit (s := S2048x128) ![0, 0] S2048x128.size inb_S2048x128_S2048x128_0_0
abbrev r4_o : Rect S2048x2048 := Rect.unit (s := S2048x2048) ![0, 0] S2048x2048.size inb_S2048x2048_S2048x2048_0_0

/-- What the body leaves in the result's buffer: its one store, of the inner products of the two blocks' rows. -/
def out4_2 (x0 : Vec F S2048x128 .f32) (x1 : Vec F S2048x128 .f32) : Vec F S2048x2048 .f32 :=
  View.canon [⟨r4_o, k4_pay1 (View.ld x0 r4_z) (View.ld x1 r4_z)⟩]

/-- The store covers the buffer. -/
theorem cover4_2 (p0 : Vec F S2048x2048 .f32) (y : S2048x2048.Idx) :
    ∃ pc ∈ ([⟨r4_o, p0⟩] : List (View.Piece (Elt F) S2048x2048 .f32)), y ∈ pc.1.set :=
  View.cover_of_tiled [⟨r4_o, p0⟩] S2048x2048.size (by rfl) y

set_option maxHeartbeats 1000000 in
/-- The body on whole staging buffers, the inputs' at contents `x0 x1` and the result's at anything: it ends with the
    inputs' as they were and the result's at `out4_2` of them. -/
theorem sound_kernel4 (c : Dev nD) (E : Set ℕ) (i : grid4.Coords)
    (arg2 : Memref sig .tc .vmem S2048x128 .f32) (harg2 : arg2.IsWhole) (arg3 : Memref sig .tc .vmem S2048x128 .f32) (harg3 : arg3.IsWhole)
    (arg4 : Memref sig .tc .vmem S2048x2048 .f32) (harg4 : arg4.IsWhole)
    (x0 : Vec F S2048x128 .f32) (x1 : Vec F S2048x128 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__zzt_kernel i arg2 harg2 arg3 harg3 arg4 harg4) K := by
  simp only [cc4__zzt_kernel_eq_skeleton]; unfold cc4__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The proof data -/

/-- Pipeline 4's proof data on core `c`: the arrays as the region finds them, the one input array held by window 0 at
    the share `qa` and by window 1 at `qb`; after the body each input's buffer at its block and the result's at
    `out4_2` of the input blocks; the scoped rest and the generator register untouched. -/
def dat4 (qa qb : PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => qa
    | ⟨1, _⟩ => qb
    | ⟨2, _⟩ => fullShare
  owed _ := 0

variable (qa qb : PosShare TreeShare)

theorem A_eq4 (c : Dev nD) (w : Fin cfg4.W) : (dat4 V qa qb c).A w = V c (Pipeline.arrRef spec4 w) := by
  dsimp only [dat4]
theorem q4_0 (c : Dev nD) : (dat4 V qa qb c).q 0 = qa := by dsimp only [dat4]
theorem q4_1 (c : Dev nD) : (dat4 V qa qb c).q 1 = qb := by dsimp only [dat4]

theorem after4_0 (c : Dev nD) (t : Fin cfg4.N) : (dat4 V qa qb c).after 0 t = iblk4 V c 0 t := by dsimp only [dat4]
theorem after4_1 (c : Dev nD) (t : Fin cfg4.N) : (dat4 V qa qb c).after 1 t = iblk4 V c 1 t := by dsimp only [dat4]
theorem after4_2 (c : Dev nD) (t : Fin cfg4.N) :
    (dat4 V qa qb c).after 2 t = out4_2 (iblk4 V c 0 t) (iblk4 V c 1 t) := by dsimp only [dat4]

theorem before4_0 (c : Dev nD) (t : Fin cfg4.N) (d) : (dat4 V qa qb c).before 0 t d = iblk4 V c 0 t :=
  before4_0_of V (dat4 V qa qb c) (A_eq4 V qa qb c 0) (after4_0 V qa qb c) t d
theorem before4_1 (c : Dev nD) (t : Fin cfg4.N) (d) : (dat4 V qa qb c).before 1 t d = iblk4 V c 1 t :=
  before4_1_of V (dat4 V qa qb c) (A_eq4 V qa qb c 1) (after4_1 V qa qb c) t d

/-! ## The body obligation -/

def bodyPre4 (c : Dev nD) (t : Fin cfg4.N) : sProp 𝕄 :=
  iprop((dat4 V qa qb c).Φ t.castSucc ∗ (dat4 V qa qb c).owesAt () t.castSucc
    ∗ (∃ d, owns (c : Thread nD τ) (st4_0 t) fullShare ((dat4 V qa qb c).before 0 t d))
    ∗ (∃ d, owns (c : Thread nD τ) (st4_1 t) fullShare ((dat4 V qa qb c).before 1 t d))
    ∗ (∃ d, owns (c : Thread nD τ) (st4_2 t) fullShare ((dat4 V qa qb c).before 2 t d)))

def bodyPost4 (c : Dev nD) (t : Fin cfg4.N) : sProp 𝕄 :=
  iprop((dat4 V qa qb c).Φ t.succ ∗ (dat4 V qa qb c).owesAt () t.succ
    ∗ owns (c : Thread nD τ) (st4_0 t) fullShare ((dat4 V qa qb c).after 0 t)
    ∗ owns (c : Thread nD τ) (st4_1 t) fullShare ((dat4 V qa qb c).after 1 t)
    ∗ owns (c : Thread nD τ) (st4_2 t) fullShare ((dat4 V qa qb c).after 2 t))

/-- The body at any point: the inputs' buffers hold their blocks, so the body's triple applies; the invariant and the
    core's dues pass through unread. -/
theorem sound_body4 (c : Dev nD) (t : Fin cfg4.N) :
    bodyPre4 V qa qb c t ⊢ wp frame (wpE (defs₀ (F := F)) Variants.none c none) Set.univ (bodyAt4 t) (fun _ => bodyPost4 V qa qb c t) := by
  unfold bodyPre4 bodyPost4 bodyAt4
  simp only [before4_0, before4_1]
  rw [show (dat4 V qa qb c).Φ t.succ = (dat4 V qa qb c).Φ t.castSucc from rfl,
    show (dat4 V qa qb c).owesAt () t.succ = (dat4 V qa qb c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V qa qb c) (defs₀ (F := F)) Variants.none () Set.univ := fun t => by
  rw [bigSep_W4, bigSep_W4]
  exact sound_body4 V qa qb c t

end Cert.Kernel.Gen

end
-- ==== Proof.ChainK.lean ====
/-
  The contents of the core's buffers from one item of the host program to the next, with each region's result named:
  after a region the valuation is the one before it with the region's result array holding what the pipeline's
  write-backs leave (`Dat.arrAt … N`); after a stretch of host operations it is their fold. The generated conditional
  frame is stated over unknown results `outs`; here they are chosen, and its valuations are these.
-/
import proofs.«161926_j66597762892108_2_alg».proof.Proof.Reg0K
import proofs.«161926_j66597762892108_2_alg».proof.Proof.Reg1K
import proofs.«161926_j66597762892108_2_alg».proof.Proof.Reg2K
import proofs.«161926_j66597762892108_2_alg».proof.Proof.Reg3K
import proofs.«161926_j66597762892108_2_alg».proof.Proof.Reg4K
import proofs.«161926_j66597762892108_2_alg».proof.Proof.Gen.Kernel.Regions

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

variable (m : (ℓ : Loc nD τ sig) → Buf (Elt F) ℓ) (qa qb : PosShare TreeShare)

/-- A valuation read at the TensorCore's references: what a region's proof data take. -/
abbrev atTc (W : Dev nD → Valuation τ sig (Elt F)) : (c : Dev nD) → (b : Ref sig .tc) → Buf (Elt F) ((c : Thread nD τ).loc b) :=
  fun c b => W c b

/-- What the first projection leaves in its result. -/
def o4 (c : Dev nD) : Buf (Elt F) ((c : Thread nD τ).loc main_v10) := (dat0 (atTc (V3 m)) c).arrAt 3 cfg0.N
/-- After region 0. -/
abbrev U4 (c : Dev nD) : Valuation τ sig (Elt F) := Function.update (V3 m c) main_v10 (o4 m c)
/-- After the first aggregation (host). -/
abbrev U5 (c : Dev nD) : Valuation τ sig (Elt F) := StableHlo.after hostOps1 (U4 m c)
/-- What the first layer's closing kernel leaves in its result. -/
def o6 (c : Dev nD) : Buf (Elt F) ((c : Thread nD τ).loc main_v21) := (dat1 (atTc (U5 m)) c).arrAt 2 cfg1.N
/-- After region 1. -/
abbrev U6 (c : Dev nD) : Valuation τ sig (Elt F) := Function.update (U5 m c) main_v21 (o6 m c)
/-- What the second projection leaves in its result. -/
def o7 (c : Dev nD) : Buf (Elt F) ((c : Thread nD τ).loc main_v22) := (dat2 (atTc (U6 m)) c).arrAt 3 cfg2.N
/-- After region 2. -/
abbrev U7 (c : Dev nD) : Valuation τ sig (Elt F) := Function.update (U6 m c) main_v22 (o7 m c)
/-- After the second aggregation (host). -/
abbrev U8 (c : Dev nD) : Valuation τ sig (Elt F) := StableHlo.after hostOps3 (U7 m c)
/-- What the second layer's closing kernel leaves in its result. -/
def o9 (c : Dev nD) : Buf (Elt F) ((c : Thread nD τ).loc main_v33) := (dat3 (atTc (U8 m)) c).arrAt 2 cfg3.N
/-- After region 3. -/
abbrev U9 (c : Dev nD) : Valuation τ sig (Elt F) := Function.update (U8 m c) main_v33 (o9 m c)
/-- What the decoder leaves in its result. -/
def o10 (c : Dev nD) : Buf (Elt F) ((c : Thread nD τ).loc main_v34) := (dat4 (atTc (U9 m)) qa qb c).arrAt 2 cfg4.N
/-- After region 4: the end. -/
abbrev U10 (c : Dev nD) : Valuation τ sig (Elt F) := Function.update (U9 m c) main_v34 (o10 m qa qb c)

/-- The regions' results, as the unknowns of the generated conditional frame: the result array's contents at each
    result's reference (whatever the item number), the launch contents elsewhere. -/
def outs : Outs (F := F) := fun _ r c =>
  if h : r = main_v10 then h ▸ o4 m c
  else if h : r = main_v21 then h ▸ o6 m c
  else if h : r = main_v22 then h ▸ o7 m c
  else if h : r = main_v33 then h ▸ o9 m c
  else if h : r = main_v34 then h ▸ o10 m qa qb c
  else V0 m c r

theorem outs_v10 (J : ℕ) (c : Dev nD) : outs m qa qb J main_v10 c = o4 m c := by
  unfold outs; rw [dif_pos rfl]
theorem outs_v21 (J : ℕ) (c : Dev nD) : outs m qa qb J main_v21 c = o6 m c := by
  unfold outs; rw [dif_neg (by decide), dif_pos rfl]
theorem outs_v22 (J : ℕ) (c : Dev nD) : outs m qa qb J main_v22 c = o7 m c := by
  unfold outs; rw [dif_neg (by decide), dif_neg (by decide), dif_pos rfl]
theorem outs_v33 (J : ℕ) (c : Dev nD) : outs m qa qb J main_v33 c = o9 m c := by
  unfold outs; rw [dif_neg (by decide), dif_neg (by decide), dif_neg (by decide), dif_pos rfl]
theorem outs_v34 (J : ℕ) (c : Dev nD) : outs m qa qb J main_v34 c = o10 m qa qb c := by
  unfold outs; rw [dif_neg (by decide), dif_neg (by decide), dif_neg (by decide), dif_neg (by decide), dif_pos rfl]

/-- The generated valuations at these results are the chain above. -/
theorem V4_eq (c : Dev nD) : V4 m (outs m qa qb) c = U4 m c := by
  show Function.update (V3 m c) main_v10 (outs m qa qb 4 main_v10 c) = _; rw [outs_v10]
theorem V5_eq (c : Dev nD) : V5 m (outs m qa qb) c = U5 m c := by
  show StableHlo.after hostOps1 (V4 m (outs m qa qb) c) = _; rw [V4_eq]
theorem V6_eq (c : Dev nD) : V6 m (outs m qa qb) c = U6 m c := by
  show Function.update (V5 m (outs m qa qb) c) main_v21 (outs m qa qb 6 main_v21 c) = _; rw [outs_v21, V5_eq]
theorem V7_eq (c : Dev nD) : V7 m (outs m qa qb) c = U7 m c := by
  show Function.update (V6 m (outs m qa qb) c) main_v22 (outs m qa qb 7 main_v22 c) = _; rw [outs_v22, V6_eq]
theorem V8_eq (c : Dev nD) : V8 m (outs m qa qb) c = U8 m c := by
  show StableHlo.after hostOps3 (V7 m (outs m qa qb) c) = _; rw [V7_eq]
theorem V9_eq (c : Dev nD) : V9 m (outs m qa qb) c = U9 m c := by
  show Function.update (V8 m (outs m qa qb) c) main_v33 (outs m qa qb 9 main_v33 c) = _; rw [outs_v33, V8_eq]
theorem V10_eq (c : Dev nD) : V10 m (outs m qa qb) c = U10 m qa qb c := by
  show Function.update (V9 m (outs m qa qb) c) main_v34 (outs m qa qb 10 main_v34 c) = _; rw [outs_v34, V9_eq]

/-- Every pipeline's proof data, each at its region's entry contents (a literal match on the pipeline). -/
def pdats : (p : Fin 5) → (c : Dev nD) → Dat τ (Elt F) Unit ℕ (UR sig nD τ) ℕ (cfgs p) c
  | ⟨0, _⟩ => fun c => dat0 (atTc (V3 m)) c
  | ⟨1, _⟩ => fun c => dat1 (atTc (U5 m)) c
  | ⟨2, _⟩ => fun c => dat2 (atTc (U6 m)) c
  | ⟨3, _⟩ => fun c => dat3 (atTc (U8 m)) c
  | ⟨4, _⟩ => fun c => dat4 (atTc (U9 m)) qa qb c

/-! ## A region's result array updated, its other arrays and every other buffer as entered -/

/-- The valuation updated at a reference holds the new contents there. -/
theorem upd_self (W : Valuation τ sig (Elt F)) (r : Ref sig .tc) (x) :
    Function.update W (Proc.devRef .tc r) x (Proc.devRef .tc r) = x := Function.update_self ..
/-- and the old ones elsewhere. -/
theorem upd_ne (W : Valuation τ sig (Elt F)) {r b : Ref sig .tc} (h : b ≠ r) (x) :
    Function.update W (Proc.devRef .tc r) x (Proc.devRef .tc b) = W (Proc.devRef .tc b) :=
  Function.update_of_ne (StableHlo.devRef_ne_of_ne h) ..

end Cert.Kernel.Gen

end
-- ==== Proof.RestK.lean ====
/-
  What rides beside the buffers through every item of the host program: the core's generator register at some state and
  its dues, at nothing. (No core owes another anything: no level is assigned.)
-/
import proofs.«161926_j66597762892108_2_alg».proof.Proof.ChainK
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

abbrev 𝒱n : Variants := Variants.none
abbrev Lz : GSem nD τ sig → Finset Unit := fun _ => ∅
abbrev lvz : GSem nD τ sig → Unit → ℕ := fun _ _ => 0
/-- The generator register at some state, and nothing owed. -/
abbrev Rst (c : Dev nD) : sProp 𝕄 := iprop((∃ r, prngReg c r) ∗ ∃ W, owes (c : Thread nD τ) (0 : CellTallies nD τ sig Unit) W)

end Cert.Kernel.Gen

end
-- ==== Proof.Seg0K.lean ====
/-
  The first projection's region as a segment of the host program: its arrays taken out of the core's unscoped buffers at entry and
  put back at exit with the result array at what the pipeline's write-backs leave.
-/
import proofs.«161926_j66597762892108_2_alg».proof.Proof.RestK
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF0 (c : Dev nD) : ∀ w : Fin 4, (pdats m qa qb 0 c).arrAt w cfg0.N = atTc (U4 m) c (Pipeline.arrRef spec0 w)
  | ⟨0, _⟩ => (((pdats m qa qb 0 c).arrAt_in 0 rfl _).trans (A_eq0 _ c 0)).trans (upd_ne (V3 m c) (r := main_v10) (b := main_arg0) (by decide) _).symm
  | ⟨1, _⟩ => (((pdats m qa qb 0 c).arrAt_in 1 rfl _).trans (A_eq0 _ c 1)).trans (upd_ne (V3 m c) (r := main_v10) (b := main_arg3) (by decide) _).symm
  | ⟨2, _⟩ => (((pdats m qa qb 0 c).arrAt_in 2 rfl _).trans (A_eq0 _ c 2)).trans (upd_ne (V3 m c) (r := main_v10) (b := main_v9) (by decide) _).symm
  | ⟨3, _⟩ => (upd_self (V3 m c) main_v10 _).symm
/-- and every other buffer what it held at entry. -/
theorem hrest0 (c : Dev nD) : ∀ b, b ∉ Finset.univ.image (Pipeline.arrRef spec0) → atTc (U4 m) c b = atTc (V3 m) c b :=
  fun b hb => upd_ne (V3 m c) (r := main_v10) (b := b) (fun e => hb (Finset.mem_image.mpr ⟨3, Finset.mem_univ _, e.symm⟩)) _

set_option backward.isDefEq.respectTransparency.types false in
/-- The first projection's region: entered with every unscoped buffer at the contents before it, left with the result array
    updated. Its arrays are split out of the unscoped buffers and put back at the exit contents; the generator register
    goes into the pipeline's invariant and comes out; nothing is owed; the kernel has no semaphore of its own. -/
def reg0 : Pipeline.RegionSeg (pcfgs (F := F)) adm (pdats m qa qb) () defs₀ 𝒱n Lz lvz 0 where
  win := launch0.win.to₀
  block_pos := launch0.block_pos
  stage_whole := launch0.stage_whole
  K := PEmpty
  osem k := k.elim
  ho := Pipeline.OwnSemFacts.none _
  hbody c := (body_obligation0 (atTc (V3 m)) c).loose
  hwaits := Pipeline.hwaits_of_owed_zero _ _ _ _ Lz lvz 0 fun _ _ => rfl
  pre c := iprop(StableHlo.held (c : Thread nD τ) (Pipeline.ucRefs τ sig) (V3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (V3 m) c)
  hentry c := by
    rw [Pipeline.ownSems0_none]
    have hsplit := Pipeline.arrays_of_unscopedBufs (p := 0) (pcfgs (F := F)) adm (pdats m qa qb) launch0.win launch0.arr_whole c
      ((pdats m qa qb 0 c).share_full fun _ => rfl) (atTc (V3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m qa qb 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m qa qb) ((pdats m qa qb 0 c).share_full fun _ => rfl)
      (atTc (V3 m) c) (atTc (U4 m) c) ((pdats m qa qb 0 c).arrAt · cfg0.N) (hF0 m qa qb c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Seg1K.lean ====
/-
  The first layer's closing region as a segment of the host program: its arrays taken out of the core's unscoped buffers at entry and
  put back at exit with the result array at what the pipeline's write-backs leave.
-/
import proofs.«161926_j66597762892108_2_alg».proof.Proof.RestK
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF1 (c : Dev nD) : ∀ w : Fin 3, (pdats m qa qb 1 c).arrAt w cfg1.N = atTc (U6 m) c (Pipeline.arrRef spec1 w)
  | ⟨0, _⟩ => (((pdats m qa qb 1 c).arrAt_in 0 rfl _).trans (A_eq1 _ c 0)).trans (upd_ne (U5 m c) (r := main_v21) (b := main_v20) (by decide) _).symm
  | ⟨1, _⟩ => (((pdats m qa qb 1 c).arrAt_in 1 rfl _).trans (A_eq1 _ c 1)).trans (upd_ne (U5 m c) (r := main_v21) (b := main_v9) (by decide) _).symm
  | ⟨2, _⟩ => (upd_self (U5 m c) main_v21 _).symm
/-- and every other buffer what it held at entry. -/
theorem hrest1 (c : Dev nD) : ∀ b, b ∉ Finset.univ.image (Pipeline.arrRef spec1) → atTc (U6 m) c b = atTc (U5 m) c b :=
  fun b hb => upd_ne (U5 m c) (r := main_v21) (b := b) (fun e => hb (Finset.mem_image.mpr ⟨2, Finset.mem_univ _, e.symm⟩)) _

set_option backward.isDefEq.respectTransparency.types false in
/-- The first layer's closing region: entered with every unscoped buffer at the contents before it, left with the result array
    updated. Its arrays are split out of the unscoped buffers and put back at the exit contents; the generator register
    goes into the pipeline's invariant and comes out; nothing is owed; the kernel has no semaphore of its own. -/
def reg1 : Pipeline.RegionSeg (pcfgs (F := F)) adm (pdats m qa qb) () defs₀ 𝒱n Lz lvz 1 where
  win := launch1.win.to₀
  block_pos := launch1.block_pos
  stage_whole := launch1.stage_whole
  K := PEmpty
  osem k := k.elim
  ho := Pipeline.OwnSemFacts.none _
  hbody c := (body_obligation1 (atTc (U5 m)) c).loose
  hwaits := Pipeline.hwaits_of_owed_zero _ _ _ _ Lz lvz 1 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (U5 m) c)
  hentry c := by
    rw [Pipeline.ownSems0_none]
    have hsplit := Pipeline.arrays_of_unscopedBufs (p := 1) (pcfgs (F := F)) adm (pdats m qa qb) launch1.win launch1.arr_whole c
      ((pdats m qa qb 1 c).share_full fun _ => rfl) (atTc (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m qa qb 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m qa qb) ((pdats m qa qb 1 c).share_full fun _ => rfl)
      (atTc (U5 m) c) (atTc (U6 m) c) ((pdats m qa qb 1 c).arrAt · cfg1.N) (hF1 m qa qb c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Seg2K.lean ====
/-
  The second projection's region as a segment of the host program: its arrays taken out of the core's unscoped buffers at entry and
  put back at exit with the result array at what the pipeline's write-backs leave.
-/
import proofs.«161926_j66597762892108_2_alg».proof.Proof.RestK
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF2 (c : Dev nD) : ∀ w : Fin 4, (pdats m qa qb 2 c).arrAt w cfg2.N = atTc (U7 m) c (Pipeline.arrRef spec2 w)
  | ⟨0, _⟩ => (((pdats m qa qb 2 c).arrAt_in 0 rfl _).trans (A_eq2 _ c 0)).trans (upd_ne (U6 m c) (r := main_v22) (b := main_v21) (by decide) _).symm
  | ⟨1, _⟩ => (((pdats m qa qb 2 c).arrAt_in 1 rfl _).trans (A_eq2 _ c 1)).trans (upd_ne (U6 m c) (r := main_v22) (b := main_arg4) (by decide) _).symm
  | ⟨2, _⟩ => (((pdats m qa qb 2 c).arrAt_in 2 rfl _).trans (A_eq2 _ c 2)).trans (upd_ne (U6 m c) (r := main_v22) (b := main_v9) (by decide) _).symm
  | ⟨3, _⟩ => (upd_self (U6 m c) main_v22 _).symm
/-- and every other buffer what it held at entry. -/
theorem hrest2 (c : Dev nD) : ∀ b, b ∉ Finset.univ.image (Pipeline.arrRef spec2) → atTc (U7 m) c b = atTc (U6 m) c b :=
  fun b hb => upd_ne (U6 m c) (r := main_v22) (b := b) (fun e => hb (Finset.mem_image.mpr ⟨3, Finset.mem_univ _, e.symm⟩)) _

set_option backward.isDefEq.respectTransparency.types false in
/-- The second projection's region: entered with every unscoped buffer at the contents before it, left with the result array
    updated. Its arrays are split out of the unscoped buffers and put back at the exit contents; the generator register
    goes into the pipeline's invariant and comes out; nothing is owed; the kernel has no semaphore of its own. -/
def reg2 : Pipeline.RegionSeg (pcfgs (F := F)) adm (pdats m qa qb) () defs₀ 𝒱n Lz lvz 2 where
  win := launch2.win.to₀
  block_pos := launch2.block_pos
  stage_whole := launch2.stage_whole
  K := PEmpty
  osem k := k.elim
  ho := Pipeline.OwnSemFacts.none _
  hbody c := (body_obligation2 (atTc (U6 m)) c).loose
  hwaits := Pipeline.hwaits_of_owed_zero _ _ _ _ Lz lvz 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (U6 m) c)
  hentry c := by
    rw [Pipeline.ownSems0_none]
    have hsplit := Pipeline.arrays_of_unscopedBufs (p := 2) (pcfgs (F := F)) adm (pdats m qa qb) launch2.win launch2.arr_whole c
      ((pdats m qa qb 2 c).share_full fun _ => rfl) (atTc (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m qa qb 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m qa qb) ((pdats m qa qb 2 c).share_full fun _ => rfl)
      (atTc (U6 m) c) (atTc (U7 m) c) ((pdats m qa qb 2 c).arrAt · cfg2.N) (hF2 m qa qb c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.Seg3K.lean ====
/-
  The second layer's closing region as a segment of the host program: its arrays taken out of the core's unscoped buffers at entry and
  put back at exit with the result array at what the pipeline's write-backs leave.
-/
import proofs.«161926_j66597762892108_2_alg».proof.Proof.RestK
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (qa qb : PosShare TreeShare)

/-- At the region's exit each of its arrays holds what the pipeline leaves: an input what it held, the result the
    write-backs' fold. -/
theorem hF3 (c : Dev nD) : ∀ w : Fin 3, (pdats m qa qb 3 c).arrAt w cfg3.N = atTc (U9 m) c (Pipeline.arrRef spec3 w)
  | ⟨0, _⟩ => (((pdats m qa qb 3 c).arrAt_in 0 rfl _).trans (A_eq3 _ c 0)).trans (upd_ne (U8 m c) (r := main_v33) (b := main_v32) (by decide) _).symm
  | ⟨1, _⟩ => (((pdats m qa qb 3 c).arrAt_in 1 rfl _).trans (A_eq3 _ c 1)).trans (upd_ne (U8 m c) (r := main_v33) (b := main_v9) (by decide) _).symm
  | ⟨2, _⟩ => (upd_self (U8 m c) main_v33 _).symm
/-- and every other buffer what it held at entry. -/
theorem hrest3 (c : Dev nD) : ∀ b, b ∉ Finset.univ.image (Pipeline.arrRef spec3) → atTc (U9 m) c b = atTc (U8 m) c b :=
  fun b hb => upd_ne (U8 m c) (r := main_v33) (b := b) (fun e => hb (Finset.mem_image.mpr ⟨2, Finset.mem_univ _, e.symm⟩)) _

set_option backward.isDefEq.respectTransparency.types false in
/-- The second layer's closing region: entered with every unscoped buffer at the contents before it, left with the result array
    updated. Its arrays are split out of the unscoped buffers and put back at the exit contents; the generator register
    goes into the pipeline's invariant and comes out; nothing is owed; the kernel has no semaphore of its own. -/
def reg3 : Pipeline.RegionSeg (pcfgs (F := F)) adm (pdats m qa qb) () defs₀ 𝒱n Lz lvz 3 where
  win := launch3.win.to₀
  block_pos := launch3.block_pos
  stage_whole := launch3.stage_whole
  K := PEmpty
  osem k := k.elim
  ho := Pipeline.OwnSemFacts.none _
  hbody c := (body_obligation3 (atTc (U8 m)) c).loose
  hwaits := Pipeline.hwaits_of_owed_zero _ _ _ _ Lz lvz 3 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (U8 m) c)
  hentry c := by
    rw [Pipeline.ownSems0_none]
    have hsplit := Pipeline.arrays_of_unscopedBufs (p := 3) (pcfgs (F := F)) adm (pdats m qa qb) launch3.win launch3.arr_whole c
      ((pdats m qa qb 3 c).share_full fun _ => rfl) (atTc (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qa qb 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m qa qb 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m qa qb) ((pdats m qa qb 3 c).share_full fun _ => rfl)
      (atTc (U8 m) c) (atTc (U9 m) c) ((pdats m qa qb 3 c).arrAt · cfg3.N) (hF3 m qa qb c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.RunMainK.lean ====
/-
  The host program's run assembled: the conditional frame over the chosen results, the four regions whose arrays are distinct by
  their records, the decoder region's record a parameter (its two input windows share an array: its record is built
  apart), the launch's resources and the rest that rides along.
-/
import proofs.«161926_j66597762892108_2_alg».proof.Proof.Seg0K
import proofs.«161926_j66597762892108_2_alg».proof.Proof.Seg1K
import proofs.«161926_j66597762892108_2_alg».proof.Proof.Seg2K
import proofs.«161926_j66597762892108_2_alg».proof.Proof.Seg3K
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (qa qb : PosShare TreeShare)

set_option backward.isDefEq.respectTransparency.types false in
/-- The frame, given the decoder region's record entered from the contents after region 3 and left at the final ones. -/
theorem frame_with (R4 : Pipeline.RegionSeg (pcfgs (F := F)) adm (pdats m qa qb) () defs₀ 𝒱n Lz lvz 4)
    (hpre4 : ∀ c : Dev nD, iprop(StableHlo.held (c : Thread nD τ) (Pipeline.ucRefs τ sig) (U9 m c) ∗ Rst (F := F) c) ⊢ R4.pre c)
    (hpost4 : ∀ c : Dev nD, R4.post c ⊢ iprop(StableHlo.held (c : Thread nD τ) (Pipeline.ucRefs τ sig) (U10 m qa qb c) ∗ Rst (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have h := frame_cond (F := F) m (Ix := Unit) (U := UR sig nD τ) (Lvl := ℕ) emb₁ () 𝒱n Lz lvz (fun _ _ => rfl) ρ (outs m qa qb) (pdats m qa qb)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach Lz lvz fun c => ?_
      iintro ⟨⟨-, HO, -, Hp, -⟩, -⟩
      imodintro
      isplitl [Hp]; · iexists _; iexact Hp
      iexists ∅; iexact HO)
    (hE5 := fun c => by iintro ⟨-, HO⟩; iexact HO)
    (reg0 m qa qb) (fun c => .rfl) (fun c => by rw [V4_eq]; exact .rfl)
    (reg1 m qa qb) (fun c => by rw [V5_eq]; exact .rfl) (fun c => by rw [V6_eq]; exact .rfl)
    (reg2 m qa qb) (fun c => by rw [V6_eq]; exact .rfl) (fun c => by rw [V7_eq]; exact .rfl)
    (reg3 m qa qb) (fun c => by rw [V8_eq]; exact .rfl) (fun c => by rw [V9_eq]; exact .rfl)
    R4 (fun c => by rw [V9_eq]; exact hpre4 c) (fun c => by rw [V10_eq]; exact hpost4 c)
  exact h

end Cert.Kernel.Gen

end
-- ==== Proof.SharedArrK.lean ====
/-
  Resource accounting for the last kernel region, whose two input windows read ONE array.

  The region has three windows. Windows 0 and 1 (inputs) are both on the array `main_v33`; window 2 (the output)
  is on `main_v34`. Among a core's unscoped buffers each of the two arrays is held once, whole, at the full share.
  The pipeline's proof data wants one points-to per WINDOW: an input window's array at the share `dat.q w`, an
  output's at the full share. So the full share of `main_v33` is halved, the left half to window 0 and the right
  half to window 1 (both see the same contents, and neither may write), while `main_v34` goes whole to window 2.
  At the region's exit the two halves are joined back into the full share of `main_v33`.
-/
import proofs.«161926_j66597762892108_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open PCS

variable {F : FTy → Type} [FloatOps F]

local notation "𝕄" => MT nD τ sig Unit (Elt F) ℕ (UR sig nD τ) ℕ

/-- The share of the common input array that window 0 holds: the left half of the full share. -/
def qL : PosShare TreeShare := (fullShare : PosShare TreeShare).left
/-- The share of the common input array that window 1 holds: the right half of the full share. -/
def qR : PosShare TreeShare := (fullShare : PosShare TreeShare).right
/-- The two halves compose to the full share. -/
theorem full_mem_qL_qR : (fullShare : PosShare TreeShare) ∈ qL ·? qR := PosShare.mem_left_op_right fullShare

/-- Windows 0 and 1 read the same array; window 2 writes another. -/
theorem arrRef4_0 : Pipeline.arrRef spec4 0 = main_v33 := rfl
theorem arrRef4_1 : Pipeline.arrRef spec4 1 = main_v33 := rfl
theorem arrRef4_2 : Pipeline.arrRef spec4 2 = main_v34 := rfl

/-- The buffers behind the region's three windows are two, so a conjunction over them has two conjuncts. -/
theorem bigSep_arrRef4 {M : Type} [URA M] (Φ : Ref sig .tc → sProp M) :
    bigSep (Finset.univ.image (Pipeline.arrRef spec4)) Φ = iprop(Φ main_v33 ∗ Φ main_v34) :=
  bigSep_eq_bigSepL_of_eq [main_v33, main_v34] (by decide) (by decide) Φ

section

variable (c : Dev nD) (dat : Pipeline.Dat τ (Elt F) Unit ℕ (UR sig nD τ) ℕ cfg4 c)

/-- The share each window holds of its array: the two inputs a half each of the common array, the output all of its own. -/
theorem share4_0 (hq0 : dat.q 0 = qL) : dat.share 0 = qL := (if_neg (by decide)).trans hq0
theorem share4_1 (hq1 : dat.q 1 = qR) : dat.share 1 = qR := (if_neg (by decide)).trans hq1
theorem share4_2 : dat.share 2 = fullShare := if_pos (by decide)

/-- The pipeline's `arrays` written out window by window: each array is a whole buffer, so every window's view is
    all of its buffer; the input array appears twice, at the left and at the right half share, the output once at
    the full share. -/
theorem arrays4_eq (hq0 : dat.q 0 = qL) (hq1 : dat.q 1 = qR)
    (Vc : (b : Ref sig .tc) → Buf (Elt F) ((c.tc : Thread nD τ).loc b))
    (Fw : (w : Fin cfg4.W) → Buf (Elt F) ((cfg4.win w).arr.view.loc (c.tc : Thread nD τ))) (hF : ∀ w, Fw w = Vc (Pipeline.arrRef spec4 w)) :
    (dat.arrays Fw : sProp 𝕄)
      = iprop((((c.tc : Thread nD τ).loc main_v33) ↦{qL} Vc main_v33) ∗ (((c.tc : Thread nD τ).loc main_v33) ↦{qR} Vc main_v33)
          ∗ (((c.tc : Thread nD τ).loc main_v34) ↦{fullShare} Vc main_v34)) := by
  unfold Pipeline.Dat.arrays
  rw [bigSep_W4, share4_0 c dat hq0, share4_1 c dat hq1, share4_2 c dat,
    (arr_whole4 0).set_eq_univ, (arr_whole4 2).set_eq_univ, hF 0, hF 1, hF 2]

/-- ENTRY: the two buffers behind the windows, each whole at the full share, give the pipeline its `arrays`. The
    full share of the common input array is split into its halves, one per input window (a split keeps the
    contents, so both windows read what the buffer held); the output array passes to window 2 unchanged. -/
theorem arrays_of_arrBufs4 (hq0 : dat.q 0 = qL) (hq1 : dat.q 1 = qR)
    (Vc : (b : Ref sig .tc) → Buf (Elt F) ((c.tc : Thread nD τ).loc b))
    (Fw : (w : Fin cfg4.W) → Buf (Elt F) ((cfg4.win w).arr.view.loc (c.tc : Thread nD τ))) (hF : ∀ w, Fw w = Vc (Pipeline.arrRef spec4 w)) :
    (Pipeline.arrBufs spec4 c Vc : sProp 𝕄) ⊢ dat.arrays Fw := by
  rw [arrays4_eq c dat hq0 hq1 Vc Fw hF]
  unfold Pipeline.arrBufs
  rw [bigSep_arrRef4]
  iintro ⟨H33, H34⟩
  ihave H := (pointsTo_share full_mem_qL_qR).1 $$ H33
  icases H with ⟨HL, HR⟩
  isplitl [HL]; · iexact HL
  isplitl [HR]; · iexact HR
  iexact H34

/-- EXIT: the converse. The two half shares of the common input array, at one and the same contents, join to its
    full share; with the output array at the full share these are the two buffers behind the windows, whole. -/
theorem arrBufs_of_arrays4 (hq0 : dat.q 0 = qL) (hq1 : dat.q 1 = qR)
    (Vc : (b : Ref sig .tc) → Buf (Elt F) ((c.tc : Thread nD τ).loc b))
    (Fw : (w : Fin cfg4.W) → Buf (Elt F) ((cfg4.win w).arr.view.loc (c.tc : Thread nD τ))) (hF : ∀ w, Fw w = Vc (Pipeline.arrRef spec4 w)) :
    dat.arrays Fw ⊢ (Pipeline.arrBufs spec4 c Vc : sProp 𝕄) := by
  rw [arrays4_eq c dat hq0 hq1 Vc Fw hF]
  unfold Pipeline.arrBufs
  rw [bigSep_arrRef4]
  iintro ⟨HL, HR, H34⟩
  isplitl [HL HR]
  · iapply (pointsTo_share full_mem_qL_qR).2
    isplitl [HL]; · iexact HL
    iexact HR
  iexact H34

/-- ENTRY, among all of the core's unscoped buffers at contents `Vc`: they are the two buffers behind the windows
    and the rest; the former give the pipeline's arrays at the proof data's entry contents (read off `Vc`), the rest
    is left as it is. -/
theorem arrays_of_unscopedBufs4 (hq0 : dat.q 0 = qL) (hq1 : dat.q 1 = qR)
    (Vc : (b : Ref sig .tc) → Buf (Elt F) ((c.tc : Thread nD τ).loc b))
    (hA : ∀ w, dat.A w = Vc (Pipeline.arrRef spec4 w)) :
    (unscopedBufs c Vc : sProp 𝕄) ⊢ iprop(dat.arrays (dat.arrAt · 0) ∗ Pipeline.unscopedRest spec4 c Vc) := by
  refine (Entails.of_eq (Pipeline.unscopedBufs_split₀ (fun _ : Unit => cfg4) () winFacts₀4.arr_unscoped c Vc)).trans ?_
  exact sep_mono (arrays_of_arrBufs4 c dat hq0 hq1 Vc (dat.arrAt · 0) hA) .rfl

/-- EXIT, among all of the core's unscoped buffers: the pipeline's arrays at contents `Fw` and the unscoped rest at
    `Vc` are the core's unscoped buffers at any contents `Vc'` that has the two arrays at `Fw` and agrees with
    `Vc` off them. -/
theorem unscopedBufs_of_arrays4 (hq0 : dat.q 0 = qL) (hq1 : dat.q 1 = qR)
    (Vc Vc' : (b : Ref sig .tc) → Buf (Elt F) ((c.tc : Thread nD τ).loc b))
    (Fw : (w : Fin cfg4.W) → Buf (Elt F) ((cfg4.win w).arr.view.loc (c.tc : Thread nD τ))) (hF : ∀ w, Fw w = Vc' (Pipeline.arrRef spec4 w))
    (hrest : ∀ b, b ∉ Finset.univ.image (Pipeline.arrRef spec4) → Vc' b = Vc b) :
    iprop(dat.arrays Fw ∗ Pipeline.unscopedRest spec4 c Vc) ⊢ (unscopedBufs c Vc' : sProp 𝕄) := by
  refine (sep_mono (arrBufs_of_arrays4 c dat hq0 hq1 Vc' Fw hF) (Entails.of_eq ?_)).trans
    (Entails.of_eq (Pipeline.unscopedBufs_split₀ (fun _ : Unit => cfg4) () winFacts₀4.arr_unscoped c Vc').symm)
  unfold Pipeline.unscopedRest
  exact bigSep_congr fun b hb => by rw [hrest b (Finset.mem_sdiff.mp hb).2]

end

end Cert.Kernel.Gen

end
-- ==== Proof.Seg4K.lean ====
/-
  The decoder's region as a segment of the host program. Its two input windows read ONE array: at entry that array's
  buffer, held whole, is split into the two windows' shares (the left and the right half of the full share), the result's
  array is held whole; at exit the two halves, still at the entry contents, are joined again and the result array holds
  what the pipeline's write-backs leave.
-/
import proofs.«161926_j66597762892108_2_alg».proof.Proof.RestK
import proofs.«161926_j66597762892108_2_alg».proof.Proof.SharedArrK
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At the region's exit each window's array holds what the pipeline leaves: the shared input what it held, the result
    the write-backs' fold. -/
theorem hF4 (c : Dev nD) : ∀ w : Fin 3, (pdats m qL qR 4 c).arrAt w cfg4.N = atTc (U10 m qL qR) c (Pipeline.arrRef spec4 w)
  | ⟨0, _⟩ => (((pdats m qL qR 4 c).arrAt_in 0 rfl _).trans (A_eq4 _ qL qR c 0)).trans (upd_ne (U9 m c) (r := main_v34) (b := main_v33) (by decide) _).symm
  | ⟨1, _⟩ => (((pdats m qL qR 4 c).arrAt_in 1 rfl _).trans (A_eq4 _ qL qR c 1)).trans (upd_ne (U9 m c) (r := main_v34) (b := main_v33) (by decide) _).symm
  | ⟨2, _⟩ => (upd_self (U9 m c) main_v34 _).symm
/-- and every other buffer what it held at entry. -/
theorem hrest4 (c : Dev nD) : ∀ b, b ∉ Finset.univ.image (Pipeline.arrRef spec4) → atTc (U10 m qL qR) c b = atTc (U9 m) c b :=
  fun b hb => upd_ne (U9 m c) (r := main_v34) (b := b) (fun e => hb (Finset.mem_image.mpr ⟨2, Finset.mem_univ _, e.symm⟩)) _

set_option backward.isDefEq.respectTransparency.types false in
/-- The decoder's region: entered with every unscoped buffer at the contents after region 3, left with the result array
    updated. The generator register goes into the pipeline's invariant and comes out; nothing is owed; the kernel has no
    semaphore of its own. -/
def reg4 : Pipeline.RegionSeg (pcfgs (F := F)) adm (pdats m qL qR) () defs₀ 𝒱n Lz lvz 4 where
  win := winFacts₀4
  block_pos := block_pos4
  stage_whole := stage_whole4
  K := PEmpty
  osem k := k.elim
  ho := Pipeline.OwnSemFacts.none _
  hbody c := (body_obligation4 (atTc (U9 m)) qL qR c).loose
  hwaits := Pipeline.hwaits_of_owed_zero _ _ _ _ Lz lvz 4 fun _ _ => rfl
  pre c := iprop(StableHlo.held (c : Thread nD τ) (Pipeline.ucRefs τ sig) (U9 m c) ∗ Rst c)
  post c := iprop(StableHlo.held (c : Thread nD τ) (Pipeline.ucRefs τ sig) (U10 m qL qR c) ∗ Rst c)
  X c := iprop(∃ r, prngReg c r)
  Y c := iprop(∃ r, prngReg c r)
  Z c := Pipeline.unscopedRest (Ix := Unit) (Name := ℕ) (U := UR sig nD τ) (Lvl := ℕ) spec4 c (atTc (U9 m) c)
  hentry c := by
    rw [Pipeline.ownSems0_none]
    have hsplit := arrays_of_unscopedBufs4 (F := F) c (pdats m qL qR 4 c) (q4_0 _ qL qR c) (q4_1 _ qL qR c) (atTc (U9 m) c) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m qL qR 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m qL qR 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := unscopedBufs_of_arrays4 (F := F) c (pdats m qL qR 4 c) (q4_0 _ qL qR c) (q4_1 _ qL qR c)
      (atTc (U9 m) c) (atTc (U10 m qL qR) c) ((pdats m qL qR 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.TopK.lean ====
/-
  The host program's frame, closed: the decoder region's record put in, its two input windows at the two halves of the full
  share of the array they read.
-/
import proofs.«161926_j66597762892108_2_alg».proof.Proof.RunMainK
import proofs.«161926_j66597762892108_2_alg».proof.Proof.Seg4K

noncomputable section

namespace Cert.Kernel.Gen

open Idealize.ShloMosaic Idealize.ShloMosaic.TcCoe
open Idealize.SL Idealize.SL.Sem

variable {F : FTy → Type} [FloatOps F]

/-- From any memory with zero counters every weakly fair execution of the host program terminates, nothing faulting,
    and each argument's buffer is as launched. -/
theorem frame_all (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_with m ρ qL qR (reg4 m) (fun _ => .rfl) (fun _ => .rfl)

end Cert.Kernel.Gen

end
-- ==== Proof.Spec.lean ====
/-
  The function both programs compute, as ONE term of the argument arrays over the extended reals, built from
  the steps of a two-layer graph convolution followed by an inner-product decoder:

  * `deg src`      — for each node the number of edges that leave it (a sum of ones scattered along `src`),
  * `normCol src`  — the column `d⁻¹ᐟ²` (an isolated node's degree read as one),
  * `proj x W n`   — the rows of `x` scaled by `n`, times `W`:  `(x ⊙ n) · W`,
  * `agg y src dst`— for each node the sum, over its outgoing edges, of the rows `y[dst]` (a row gather followed by a
                     scatter-sum along `src`),
  * `post a n`     — the rows of `a` scaled by `n` (after the first layer followed by `max · 0`),
  * `gram z`       — all inner products of rows, `z · zᵀ`.

  Each step is spelt with the host operations of the reference program, so the reference's result is this term on the
  nose; the kernel program computes the projections, the scalings and the inner products block by block and the
  gather / scatter steps with the very same host operations.
-/
import proofs.«161926_j66597762892108_2_alg».proof.Proof.Gen.ReferenceIdeal
import Idealize.ShloMosaic.PureOps.Ideal

noncomputable section

namespace Cert.Spec

open Idealize.ShloMosaic Cert.ReferenceIdeal Cert.ReferenceIdeal.Gen

/-- A float array of shape `S` at the ideal instance: extended reals. -/
abbrev FArr (S : Shape) : Type := FVec Ideal S .f32
/-- An array of 32-bit integers of shape `S`. -/
abbrev IArr (S : Shape) : Type := Vec Ideal S .i32

/-- The number of edges leaving each node: ones summed along `src`. -/
def deg (src : IArr S524288) : FArr S16384 :=
  Host.scatterAdd (F := Ideal) scatter_S16384_S524288x1_S524288_n_0_0_1
    (broadcastInDim S16384 ![] bcast_S_S16384 (constant (F := Ideal) S_ .f32 0x00000000#32))
    (broadcastInDim S524288x1 ![0] bcast_S524288_S524288x1_0 src)
    (broadcastInDim S524288 ![] bcast_S_S524288 (constant (F := Ideal) S_ .f32 0x3F800000#32))

/-- The normalisation column `d⁻¹ᐟ²`, a node without outgoing edge counted as of degree one. -/
def normCol (src : IArr S524288) : FArr S16384x1 :=
  broadcastInDim S16384x1 ![0] bcast_S16384_S16384x1_0
    (Host.powf (F := Ideal)
      (select (cmpf (F := Ideal) .ogt (deg src) (broadcastInDim S16384 ![] bcast_S_S16384 (constant (F := Ideal) S_ .f32 0x00000000#32)))
        (deg src) (broadcastInDim S16384 ![] bcast_S_S16384 (id (constant (F := Ideal) S_ .f32 0x3F800000#32))))
      (broadcastInDim S16384 ![] bcast_S_S16384 (constant (F := Ideal) S_ .f32 0xBF000000#32)))

/-- The edge list's targets as gather indices (a negative index counted from the end). -/
def gatherIdx (dst : IArr S524288) : IArr S524288x1 :=
  broadcastInDim S524288x1 ![0] bcast_S524288_S524288x1_0
    (select (cmpi .slt dst (broadcastInDim S524288 ![] bcast_S_S524288 (constantI S_ 32 0#32)))
      (addi dst (broadcastInDim S524288 ![] bcast_S_S524288 (constantI S_ 32 16384#32))) dst)

/-- The edge list's sources as scatter indices. -/
def scatterIdx (src : IArr S524288) : IArr S524288x1 :=
  broadcastInDim S524288x1 ![0] bcast_S524288_S524288x1_0 src

/-- First layer's projection: `(x ⊙ n) · W`, 1024 features to 512. -/
def proj1 (x : FArr S16384x1024) (W : FArr S1024x512) (n : FArr S16384x1) : FArr S16384x512 :=
  Host.dotGeneral (F := Ideal) dot_S16384x1024_S1024x512_S16384x512_1_0_0_1_n_n none
    (mulf x (broadcastInDim S16384x1024 ![0, 1] bcast_S16384x1_S16384x1024_0_1 n)) W

/-- First layer's aggregation over the edges. -/
def agg1 (y : FArr S16384x512) (src dst : IArr S524288) : FArr S16384x512 :=
  Host.scatterAdd (F := Ideal) scatter_S16384x512_S524288x1_S524288x512_1_0_0_1
    (broadcastInDim S16384x512 ![] bcast_S_S16384x512 (constant (F := Ideal) S_ .f32 0x00000000#32))
    (scatterIdx src)
    (Host.gather gather_S16384x512_S524288x1_S524288x512_1_0_n_n_0_1_1512 y (gatherIdx dst))

/-- First layer's closing step: rows scaled by `n`, then `max · 0`. -/
def post1 (a : FArr S16384x512) (n : FArr S16384x1) : FArr S16384x512 :=
  maximumf (mulf a (broadcastInDim S16384x512 ![0, 1] bcast_S16384x1_S16384x512_0_1 n))
    (broadcastInDim S16384x512 ![] bcast_S_S16384x512 (constant (F := Ideal) S_ .f32 0x00000000#32))

/-- Second layer's projection: `(x ⊙ n) · W`, 512 features to 128. -/
def proj2 (x : FArr S16384x512) (W : FArr S512x128) (n : FArr S16384x1) : FArr S16384x128 :=
  Host.dotGeneral (F := Ideal) dot_S16384x512_S512x128_S16384x128_1_0_0_1_n_n none
    (mulf x (broadcastInDim S16384x512 ![0, 1] bcast_S16384x1_S16384x512_0_1 n)) W

/-- Second layer's aggregation over the edges. -/
def agg2 (y : FArr S16384x128) (src dst : IArr S524288) : FArr S16384x128 :=
  Host.scatterAdd (F := Ideal) scatter_S16384x128_S524288x1_S524288x128_1_0_0_1
    (broadcastInDim S16384x128 ![] bcast_S_S16384x128 (constant (F := Ideal) S_ .f32 0x00000000#32))
    (scatterIdx src)
    (Host.gather gather_S16384x128_S524288x1_S524288x128_1_0_n_n_0_1_1128 y (gatherIdx dst))

/-- Second layer's closing step: rows scaled by `n`. -/
def post2 (a : FArr S16384x128) (n : FArr S16384x1) : FArr S16384x128 :=
  mulf a (broadcastInDim S16384x128 ![0, 1] bcast_S16384x1_S16384x128_0_1 n)

/-- The decoder: all inner products of rows, `z · zᵀ`. -/
def gram (z : FArr S16384x128) : FArr S16384x16384 :=
  Host.dotGeneral (F := Ideal) dot_S16384x128_S128x16384_S16384x16384_1_0_0_1_n_n none z
    (transpose S128x16384 [1, 0] z transposes_S16384x128_S128x16384_1_0)

/-- The whole function of the five argument arrays. -/
def G (h : FArr S16384x1024) (src dst : IArr S524288) (W0 : FArr S1024x512) (W1 : FArr S512x128) :
    FArr S16384x16384 :=
  gram (post2 (agg2 (proj2 (post1 (agg1 (proj1 h W0 (normCol src)) src dst) (normCol src)) W1 (normCol src)) src dst) (normCol src))

end Cert.Spec

end
-- ==== Proof.BlockDense.lean ====
/-
  The two projection steps `(x ⊙ n) · W`, one block of rows at a time.

  The kernel program computes a projection for a block of consecutive rows: it spreads the block's piece of the
  normalisation column `n` along the feature axis, multiplies the block of `x` by it entrywise, and multiplies the
  result by the whole of `W`, adding into zero. Over the extended reals the change of float format in between is the
  identity, so at row `p` of the block that starts at row `r0`, and column `q`, the block's value is
      Σ_k (x[r0+p, k] · n[r0+p, 0]) · W[k, q],
  the sum running over the whole contraction axis. The specification's projection of the full arrays, read at row
  `r0 + p` and column `q`, is the same sum over the same axis, term by term: the rows are tiled, the contraction
  axis is not, so neither a regrouping of the sum nor any finiteness of the entries is needed.

  First come two readings of a column `[a, 1]` spread to `[a, b]`, then the contraction sum of an `[M, K]` by
  `[K, N]` product written over its one contracted coordinate, then the two block statements.
-/
import proofs.«161926_j66597762892108_2_alg».proof.Proof.Spec
import proofs.«161926_j66597762892108_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Block

open Idealize.ShloMosaic Idealize.ShloMosaic.ValueIdx

/-! ## A column spread along the rows' second axis -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the same spreading: `broadcast_in_dim` along the axes `[0, 1]`. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-! ## A rows-by-columns product read at an entry -/

section PlainDot

variable {M K N : ℕ} (d : DotDims ⟨2, ![M, K]⟩ ⟨2, ![K, N]⟩ ⟨2, ![M, N]⟩)

/-- With the left operand's rows kept, its index at result entry `j` has `j`'s row. -/
theorem lhsIdx_row (hlb : d.lhsBatch = []) (hln : d.lhsNonContracting = [0])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- With the right operand's columns kept, its index at result entry `j` has `j`'s column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The contraction sum of an `[M, K]` by `[K, N]` product at entry `(i, c)`, written over the
    one contracted coordinate: `Σ_k A[i, k] · B[k, c]`. -/
theorem sum_contr_eq (hlc : d.lhsContracting = [1]) (hrc : d.rhsContracting = [0])
    (hln : d.lhsNonContracting = [0]) (hrn : d.rhsNonContracting = [1]) (hlb : d.lhsBatch = []) (hrb : d.rhsBatch = [])
    (A : (⟨2, ![M, K]⟩ : Shape).Idx → EReal) (B : (⟨2, ![K, N]⟩ : Shape).Idx → EReal) (i : Fin M) (c : Fin N) :
    ∑ k : d.contr.Idx, A (d.lhsIdx (ix2 i c) k) * B (d.rhsIdx (ix2 i c) k) = ∑ k : Fin K, A (ix2 i k) * B (ix2 k c) := by
  have hr : d.contr.rank = 1 := by rw [d.rank_contr, hlc]; rfl
  have hs : d.contr.size ⟨0, by omega⟩ = K := by
    rw [d.size_contr 0 (by rw [hlc]; exact Nat.one_pos)]
    simp [hlc]
  rw [← Equiv.sum_comp (contrEquiv1 d K hr hs).symm]
  refine Finset.sum_congr rfl fun k _ => ?_
  have hk := contrEquiv1_symm_val d K hr hs k
  have el : d.lhsIdx (ix2 i c) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i c) ((contrEquiv1 d K hr hs).symm k) = ix2 k c := funext fun a => Fin.ext (by
    match a with
    | ⟨0, _⟩ => exact (d.rhsIdx_val_of_single hrc _ _).trans hk
    | ⟨1, _⟩ => exact rhsIdx_col d hlb hrb hln hrn _ _)
  rw [el, er]

end PlainDot

/-! ## The two projection kernels, one block of rows -/

/-- First layer: at row `p` of the block of rows that starts at row `r0`, and column `q`, the kernel's body and
    the specification's projection are the same sum `Σ_k (x[r0+p, k] · n[r0+p, 0]) · W[k, q]` over the whole
    contraction axis (the kernel tiles the rows only). -/
theorem dense0_block (x : Cert.Spec.FArr Cert.ReferenceIdeal.S16384x1024) (W : Cert.Spec.FArr Cert.ReferenceIdeal.S1024x512)
    (n : Cert.Spec.FArr Cert.ReferenceIdeal.S16384x1)
    (xb : Vec Ideal Cert.KernelIdeal.S1024x1024 .f32) (Wb : Vec Ideal Cert.KernelIdeal.S1024x512 .f32)
    (nb : Vec Ideal Cert.KernelIdeal.S1024x1 .f32)
    (r0 : ℕ) (hr0 : r0 + 1024 ≤ 16384)
    (hx : ∀ (p : Fin 1024) (k : Fin 1024), xb (ix2 p k) = x (ix2 (⟨r0 + p.val, by omega⟩ : Fin 16384) k))
    (hW : ∀ (k : Fin 1024) (q : Fin 512), Wb (ix2 k q) = W (ix2 k q))
    (hn : ∀ (p : Fin 1024), nb (ix2 p (0 : Fin 1)) = n (ix2 (⟨r0 + p.val, by omega⟩ : Fin 16384) (0 : Fin 1)))
    (p : Fin 1024) (q : Fin 512) :
    Cert.KernelIdeal.Gen.k0_pay1 (F := Ideal) xb nb Wb (ix2 p q)
      = Cert.Spec.proj1 x W n (ix2 (⟨r0 + p.val, by omega⟩ : Fin 16384) q) := by
  -- the kernel's side: the block's sum over the contraction axis
  have hK : Cert.KernelIdeal.Gen.k0_pay1 (F := Ideal) xb nb Wb (ix2 p q)
      = ∑ k : Fin 1024, (xb (ix2 p k) * nb (ix2 p (0 : Fin 1))) * Wb (ix2 k q) := by
    unfold Cert.KernelIdeal.Gen.k0_pay1
    simp only [matmul]
    rw [Ideal.matmul_constant_zero_apply]
    refine (sum_contr_eq Cert.KernelIdeal.dot_S1024x1024_S1024x512_S1024x512_1_0_0_1_n_n rfl rfl rfl rfl rfl rfl _ _ p q).trans ?_
    refine Finset.sum_congr rfl fun k _ => ?_
    rw [truncf_apply, truncf_apply, mulf_apply, shapeCast_self, broadcastTo_a1_ab_apply]
  -- the specification's side: the whole array's sum over the same axis
  have hS : Cert.Spec.proj1 x W n (ix2 (⟨r0 + p.val, by omega⟩ : Fin 16384) q)
      = ∑ k : Fin 1024, (x (ix2 (⟨r0 + p.val, by omega⟩ : Fin 16384) k) * n (ix2 (⟨r0 + p.val, by omega⟩ : Fin 16384) (0 : Fin 1))) * W (ix2 k q) := by
    unfold Cert.Spec.proj1
    simp only [Host.dotGeneral]
    rw [Ideal.dotGeneral_apply]
    refine (sum_contr_eq Cert.ReferenceIdeal.dot_S16384x1024_S1024x512_S16384x512_1_0_0_1_n_n rfl rfl rfl rfl rfl rfl _ _ _ q).trans ?_
    refine Finset.sum_congr rfl fun k _ => ?_
    rw [mulf_apply, broadcastInDim_a1_ab_apply]
  rw [hK, hS]
  exact Finset.sum_congr rfl fun k _ => by rw [hx, hn, hW]

/-- Second layer: the same statement for the `512`-to-`128` projection, in blocks of `2048` rows: at row `p` of
    the block that starts at row `r0`, and column `q`, both sides are `Σ_k (x[r0+p, k] · n[r0+p, 0]) · W[k, q]`. -/
theorem dense2_block (x : Cert.Spec.FArr Cert.ReferenceIdeal.S16384x512) (W : Cert.Spec.FArr Cert.ReferenceIdeal.S512x128)
    (n : Cert.Spec.FArr Cert.ReferenceIdeal.S16384x1)
    (xb : Vec Ideal Cert.KernelIdeal.S2048x512 .f32) (Wb : Vec Ideal Cert.KernelIdeal.S512x128 .f32)
    (nb : Vec Ideal Cert.KernelIdeal.S2048x1 .f32)
    (r0 : ℕ) (hr0 : r0 + 2048 ≤ 16384)
    (hx : ∀ (p : Fin 2048) (k : Fin 512), xb (ix2 p k) = x (ix2 (⟨r0 + p.val, by omega⟩ : Fin 16384) k))
    (hW : ∀ (k : Fin 512) (q : Fin 128), Wb (ix2 k q) = W (ix2 k q))
    (hn : ∀ (p : Fin 2048), nb (ix2 p (0 : Fin 1)) = n (ix2 (⟨r0 + p.val, by omega⟩ : Fin 16384) (0 : Fin 1)))
    (p : Fin 2048) (q : Fin 128) :
    Cert.KernelIdeal.Gen.k2_pay1 (F := Ideal) xb nb Wb (ix2 p q)
      = Cert.Spec.proj2 x W n (ix2 (⟨r0 + p.val, by omega⟩ : Fin 16384) q) := by
  -- the kernel's side: the block's sum over the contraction axis
  have hK : Cert.KernelIdeal.Gen.k2_pay1 (F := Ideal) xb nb Wb (ix2 p q)
      = ∑ k : Fin 512, (xb (ix2 p k) * nb (ix2 p (0 : Fin 1))) * Wb (ix2 k q) := by
    unfold Cert.KernelIdeal.Gen.k2_pay1
    simp only [matmul]
    rw [Ideal.matmul_constant_zero_apply]
    refine (sum_contr_eq Cert.KernelIdeal.dot_S2048x512_S512x128_S2048x128_1_0_0_1_n_n rfl rfl rfl rfl rfl rfl _ _ p q).trans ?_
    refine Finset.sum_congr rfl fun k _ => ?_
    rw [truncf_apply, truncf_apply, mulf_apply, shapeCast_self, shapeCast_self, broadcastTo_a1_ab_apply]
  -- the specification's side: the whole array's sum over the same axis
  have hS : Cert.Spec.proj2 x W n (ix2 (⟨r0 + p.val, by omega⟩ : Fin 16384) q)
      = ∑ k : Fin 512, (x (ix2 (⟨r0 + p.val, by omega⟩ : Fin 16384) k) * n (ix2 (⟨r0 + p.val, by omega⟩ : Fin 16384) (0 : Fin 1))) * W (ix2 k q) := by
    unfold Cert.Spec.proj2
    simp only [Host.dotGeneral]
    rw [Ideal.dotGeneral_apply]
    refine (sum_contr_eq Cert.ReferenceIdeal.dot_S16384x512_S512x128_S16384x128_1_0_0_1_n_n rfl rfl rfl rfl rfl rfl _ _ _ q).trans ?_
    refine Finset.sum_congr rfl fun k _ => ?_
    rw [mulf_apply, broadcastInDim_a1_ab_apply]
  rw [hK, hS]
  exact Finset.sum_congr rfl fun k _ => by rw [hx, hn, hW]

end Cert.Block

end
-- ==== Proof.FinalDense.lean ====
/-
  From blocks of rows to the whole array, for the two projection steps `(x ⊙ n) · W`.

  A projection region runs one grid point per block of consecutive rows. At point `t` it reads the `t`-th block of
  rows of `x` and of the normalisation column `n`, and the whole of `W`, and writes the `t`-th block of rows of the
  result back. An element `(p, k)` of a block of `R` rows sits in its array at row `R · t + p` and column `k`. By the
  block statements, what point `t` writes at `(p, q)` is the specification's projection of the full arrays at row
  `R · t + p` and column `q`; so the block written back IS block `t` of that projection. Every row `r` of the result
  lies in block `r / R`, so the blocks cover the array, and the array ends holding the projection.
-/
import proofs.«161926_j66597762892108_2_alg».proof.Proof.Reg0
import proofs.«161926_j66597762892108_2_alg».proof.Proof.Reg2
import proofs.«161926_j66597762892108_2_alg».proof.Proof.BlockDense
import Idealize.ShloMosaic.Lib.Pipeline.Value
import Idealize.ShloMosaic.Lib.ValueIdx

noncomputable section

namespace Cert.KernelIdeal.Gen

open Idealize.ShloMosaic Idealize.ShloMosaic.TcCoe Idealize.SL.Sem
open Idealize.ShloMosaic.Pipeline (Dat)
open Idealize.ShloMosaic.ValueIdx

-- the TensorCore's buffer contents when a region is entered
variable (V : (c : Dev nD) → (b : Ref sig .tc) → Buf (Elt Ideal) ((c : Thread nD τ).loc b))

/-- The two zero offsets of a whole-buffer rectangle, as the constant function. -/
theorem zero_offsets : (![0, 0] : Fin 2 → Nat) = fun _ => 0 := funext fun a => by fin_cases a <;> rfl

/-! ## The first projection: 16 blocks of 1024 rows -/

/-- The printed index maps, decided over the grid: at point `t` the blocks of `x`, of the normalisation column and of
    the result are the `t`-th blocks of rows, and the weights' block is the whole matrix. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of `x` at point `t` is rows `1024 t … 1024 t + 1023` of `x`. -/
theorem iblk0_x_apply (c : Dev nD) (t : Fin cfg0.N) (p k : Fin 1024) (i : S16384x1024.Idx)
    (hi0 : (i 0).val = 1024 * t.val + p.val) (hi1 : (i 1).val = k.val) :
    (iblk0 V c 0 t : Vec Ideal S1024x1024 .f32) (ix2 p k) = (V c main_arg0 : S16384x1024.Idx → Elt Ideal .f32) i := by
  obtain ⟨e0, e1, -⟩ := index_facts0 t
  unfold iblk0
  rw [View.read_apply]
  show V c main_arg0 _ = V c main_arg0 _
  congr 1
  funext a
  apply Fin.ext
  match a with
  | ⟨0, _⟩ => show win0_0.index t (0 : Fin 2) * 1024 + 1 * p.val = (i 0).val; rw [e0, hi0]; omega
  | ⟨1, _⟩ => show win0_0.index t (1 : Fin 2) * 1024 + 1 * k.val = (i 1).val; rw [e1, hi1]; omega

/-- The weights' block at every point is the whole matrix. -/
theorem iblk0_w_apply (c : Dev nD) (t : Fin cfg0.N) (k : Fin 1024) (q : Fin 512) :
    (iblk0 V c 1 t : Vec Ideal S1024x512 .f32) (ix2 k q) = (V c main_arg3 : S1024x512.Idx → Elt Ideal .f32) (ix2 k q) := by
  obtain ⟨-, -, e0, e1, -⟩ := index_facts0 t
  unfold iblk0
  rw [View.read_apply]
  show V c main_arg3 _ = V c main_arg3 _
  congr 1
  funext a
  apply Fin.ext
  match a with
  | ⟨0, _⟩ => show win0_1.index t (0 : Fin 2) * 1024 + 1 * k.val = k.val; rw [e0]; omega
  | ⟨1, _⟩ => show win0_1.index t (1 : Fin 2) * 512 + 1 * q.val = q.val; rw [e1]; omega

/-- The normalisation column's block at point `t` is rows `1024 t … 1024 t + 1023` of the column. -/
theorem iblk0_n_apply (c : Dev nD) (t : Fin cfg0.N) (p : Fin 1024) (i : S16384x1.Idx)
    (hi0 : (i 0).val = 1024 * t.val + p.val) (hi1 : (i 1).val = 0) :
    (iblk0 V c 2 t : Vec Ideal S1024x1 .f32) (ix2 p (0 : Fin 1)) = (V c main_v9 : S16384x1.Idx → Elt Ideal .f32) i := by
  obtain ⟨-, -, -, -, e0, e1, -⟩ := index_facts0 t
  unfold iblk0
  rw [View.read_apply]
  show V c main_v9 _ = V c main_v9 _
  congr 1
  funext a
  apply Fin.ext
  match a with
  | ⟨0, _⟩ => show win0_2.index t (0 : Fin 2) * 1024 + 1 * p.val = (i 0).val; rw [e0, hi0]; omega
  | ⟨1, _⟩ => show win0_2.index t (1 : Fin 2) * 1 + 1 * (0 : Fin 1).val = (i 1).val; rw [e1, hi1]; rfl

/-- What point `t` writes back is block `t` of the specification's projection of the arrays as the region finds them. -/
theorem flushed0_eq (c : Dev nD) (t : Fin cfg0.N) :
    (dat0 V c).flushed 3 t
      = ((cfg0.win 3).blk t).view.read (Elt Ideal) (Cert.Spec.proj1 (V c main_arg0) (V c main_arg3) (V c main_v9)) := by
  show (cfg0.win 3).cut (grid0.coords t) ((dat0 V c).after 3 t) = _
  rw [after0_3]
  unfold out0_3
  rw [View.canon_unit_zero zero_offsets]
  simp only [View.ld_unit_zero (S := S1024x1024) zero_offsets, View.ld_unit_zero (S := S1024x512) zero_offsets,
    View.ld_unit_zero (S := S1024x1) zero_offsets]
  have ht : t.val < 16 := by have h := t.isLt; have hN : cfg0.N = 16 := N_0; omega
  obtain ⟨-, -, -, -, -, -, e0, e1⟩ := index_facts0 t
  funext y
  obtain ⟨p, q, rfl⟩ : ∃ (p : Fin 1024) (q : Fin 512), y = ix2 p q := ⟨y 0, y 1, eq_ix2 y⟩
  have hemb : ((cfg0.win 3).blk t).view.emb (ix2 p q) = (ix2 (⟨1024 * t.val + p.val, by omega⟩ : Fin 16384) q : S16384x512.Idx) := by
    funext a
    apply Fin.ext
    match a with
    | ⟨0, _⟩ => show win0_3.index t (0 : Fin 2) * 1024 + 1 * p.val = 1024 * t.val + p.val; rw [e0]; omega
    | ⟨1, _⟩ => show win0_3.index t (1 : Fin 2) * 512 + 1 * q.val = q.val; rw [e1]; omega
  show k0_pay1 (F := Ideal) (iblk0 V c 0 t) (iblk0 V c 2 t) (iblk0 V c 1 t) (ix2 p q)
    = Cert.Spec.proj1 (V c main_arg0) (V c main_arg3) (V c main_v9) (((cfg0.win 3).blk t).view.emb (ix2 p q))
  rw [hemb]
  exact Cert.Block.dense0_block _ _ _ _ _ _ (1024 * t.val) (by omega)
    (fun p k => iblk0_x_apply V c t p k _ rfl rfl) (fun k q => iblk0_w_apply V c t k q)
    (fun p => iblk0_n_apply V c t p _ rfl rfl) p q

/-- An index of the result array is in point `t`'s block iff each coordinate is in the block's range on its axis. -/
theorem mem_blk0 (t : Fin cfg0.N) (i : S16384x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v10).slice (win0_3.rect t)).set ↔ _
  rw [View.set_slice_whole, Rect.mem_set_unit]
  exact Iff.rfl

/-- Every index of the result array is in some point's block: row `r` is in block `r / 1024`. -/
theorem covered0 (i : S16384x512.Idx) :
    ∃ t : Fin cfg0.N, (cfg0.win 3).flush t = true ∧ i ∈ ((cfg0.win 3).blk t).view.set := by
  have hi0 : (i 0).val < 16384 := (i 0).isLt
  have hi1 : (i 1).val < 512 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, -, -, e0, e1⟩ := index_facts0 t
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 512 ≤ (i 1).val ∧ (i 1).val < win0_3.index t (1 : Fin 2) * 512 + 512
    rw [e1]; omega

/-- After the region the result array holds the specification's first projection of the arrays the region found. -/
theorem final0 (c : Dev nD) :
    (dat0 V c).arrAt 3 cfg0.N = Cert.Spec.proj1 (V c main_arg0) (V c main_arg3) (V c main_v9) :=
  (dat0 V c).arrAt_eq_of_cover 3 _ (fun t _ => flushed0_eq V c t) covered0

/-! ## The second projection: 8 blocks of 2048 rows -/

/-- The printed index maps, decided over the grid: at point `t` the blocks of `x`, of the normalisation column and of
    the result are the `t`-th blocks of rows, and the weights' block is the whole matrix. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The block of `x` at point `t` is rows `2048 t … 2048 t + 2047` of `x`. -/
theorem iblk2_x_apply (c : Dev nD) (t : Fin cfg2.N) (p : Fin 2048) (k : Fin 512) (i : S16384x512.Idx)
    (hi0 : (i 0).val = 2048 * t.val + p.val) (hi1 : (i 1).val = k.val) :
    (iblk2 V c 0 t : Vec Ideal S2048x512 .f32) (ix2 p k) = (V c main_v21 : S16384x512.Idx → Elt Ideal .f32) i := by
  obtain ⟨e0, e1, -⟩ := index_facts2 t
  unfold iblk2
  rw [View.read_apply]
  show V c main_v21 _ = V c main_v21 _
  congr 1
  funext a
  apply Fin.ext
  match a with
  | ⟨0, _⟩ => show win2_0.index t (0 : Fin 2) * 2048 + 1 * p.val = (i 0).val; rw [e0, hi0]; omega
  | ⟨1, _⟩ => show win2_0.index t (1 : Fin 2) * 512 + 1 * k.val = (i 1).val; rw [e1, hi1]; omega

/-- The weights' block at every point is the whole matrix. -/
theorem iblk2_w_apply (c : Dev nD) (t : Fin cfg2.N) (k : Fin 512) (q : Fin 128) :
    (iblk2 V c 1 t : Vec Ideal S512x128 .f32) (ix2 k q) = (V c main_arg4 : S512x128.Idx → Elt Ideal .f32) (ix2 k q) := by
  obtain ⟨-, -, e0, e1, -⟩ := index_facts2 t
  unfold iblk2
  rw [View.read_apply]
  show V c main_arg4 _ = V c main_arg4 _
  congr 1
  funext a
  apply Fin.ext
  match a with
  | ⟨0, _⟩ => show win2_1.index t (0 : Fin 2) * 512 + 1 * k.val = k.val; rw [e0]; omega
  | ⟨1, _⟩ => show win2_1.index t (1 : Fin 2) * 128 + 1 * q.val = q.val; rw [e1]; omega

/-- The normalisation column's block at point `t` is rows `2048 t … 2048 t + 2047` of the column. -/
theorem iblk2_n_apply (c : Dev nD) (t : Fin cfg2.N) (p : Fin 2048) (i : S16384x1.Idx)
    (hi0 : (i 0).val = 2048 * t.val + p.val) (hi1 : (i 1).val = 0) :
    (iblk2 V c 2 t : Vec Ideal S2048x1 .f32) (ix2 p (0 : Fin 1)) = (V c main_v9 : S16384x1.Idx → Elt Ideal .f32) i := by
  obtain ⟨-, -, -, -, e0, e1, -⟩ := index_facts2 t
  unfold iblk2
  rw [View.read_apply]
  show V c main_v9 _ = V c main_v9 _
  congr 1
  funext a
  apply Fin.ext
  match a with
  | ⟨0, _⟩ => show win2_2.index t (0 : Fin 2) * 2048 + 1 * p.val = (i 0).val; rw [e0, hi0]; omega
  | ⟨1, _⟩ => show win2_2.index t (1 : Fin 2) * 1 + 1 * (0 : Fin 1).val = (i 1).val; rw [e1, hi1]; rfl

/-- What point `t` writes back is block `t` of the specification's projection of the arrays as the region finds them. -/
theorem flushed2_eq (c : Dev nD) (t : Fin cfg2.N) :
    (dat2 V c).flushed 3 t
      = ((cfg2.win 3).blk t).view.read (Elt Ideal) (Cert.Spec.proj2 (V c main_v21) (V c main_arg4) (V c main_v9)) := by
  show (cfg2.win 3).cut (grid2.coords t) ((dat2 V c).after 3 t) = _
  rw [after2_3]
  unfold out2_3
  rw [View.canon_unit_zero zero_offsets]
  simp only [View.ld_unit_zero (S := S2048x512) zero_offsets, View.ld_unit_zero (S := S512x128) zero_offsets,
    View.ld_unit_zero (S := S2048x1) zero_offsets]
  have ht : t.val < 8 := by have h := t.isLt; have hN : cfg2.N = 8 := N_2; omega
  obtain ⟨-, -, -, -, -, -, e0, e1⟩ := index_facts2 t
  funext y
  obtain ⟨p, q, rfl⟩ : ∃ (p : Fin 2048) (q : Fin 128), y = ix2 p q := ⟨y 0, y 1, eq_ix2 y⟩
  have hemb : ((cfg2.win 3).blk t).view.emb (ix2 p q) = (ix2 (⟨2048 * t.val + p.val, by omega⟩ : Fin 16384) q : S16384x128.Idx) := by
    funext a
    apply Fin.ext
    match a with
    | ⟨0, _⟩ => show win2_3.index t (0 : Fin 2) * 2048 + 1 * p.val = 2048 * t.val + p.val; rw [e0]; omega
    | ⟨1, _⟩ => show win2_3.index t (1 : Fin 2) * 128 + 1 * q.val = q.val; rw [e1]; omega
  show k2_pay1 (F := Ideal) (iblk2 V c 0 t) (iblk2 V c 2 t) (iblk2 V c 1 t) (ix2 p q)
    = Cert.Spec.proj2 (V c main_v21) (V c main_arg4) (V c main_v9) (((cfg2.win 3).blk t).view.emb (ix2 p q))
  rw [hemb]
  exact Cert.Block.dense2_block _ _ _ _ _ _ (2048 * t.val) (by omega)
    (fun p k => iblk2_x_apply V c t p k _ rfl rfl) (fun k q => iblk2_w_apply V c t k q)
    (fun p => iblk2_n_apply V c t p _ rfl rfl) p q

/-- An index of the result array is in point `t`'s block iff each coordinate is in the block's range on its axis. -/
theorem mem_blk2 (t : Fin cfg2.N) (i : S16384x128.Idx) :
    i ∈ ((cfg2.win 3).blk t).view.set ↔ ∀ a : Fin 2, win2_3.index t a * S2048x128.size a ≤ (i a).val
      ∧ (i a).val < win2_3.index t a * S2048x128.size a + S2048x128.size a := by
  show i ∈ ((View.whole main_v22).slice (win2_3.rect t)).set ↔ _
  rw [View.set_slice_whole, Rect.mem_set_unit]
  exact Iff.rfl

/-- Every index of the result array is in some point's block: row `r` is in block `r / 2048`. -/
theorem covered2 (i : S16384x128.Idx) :
    ∃ t : Fin cfg2.N, (cfg2.win 3).flush t = true ∧ i ∈ ((cfg2.win 3).blk t).view.set := by
  have hi0 : (i 0).val < 16384 := (i 0).isLt
  have hi1 : (i 1).val < 128 := (i 1).isLt
  have hN : cfg2.N = 8 := N_2
  obtain ⟨t, ht⟩ : ∃ t : Fin cfg2.N, t.val = (i 0).val / 2048 := ⟨⟨(i 0).val / 2048, by omega⟩, rfl⟩
  obtain ⟨-, -, -, -, -, -, e0, e1⟩ := index_facts2 t
  refine ⟨t, flush2_3 t, ?_⟩
  rw [mem_blk2]
  intro a
  match a with
  | ⟨0, _⟩ =>
    show win2_3.index t (0 : Fin 2) * 2048 ≤ (i 0).val ∧ (i 0).val < win2_3.index t (0 : Fin 2) * 2048 + 2048
    rw [e0]; omega
  | ⟨1, _⟩ =>
    show win2_3.index t (1 : Fin 2) * 128 ≤ (i 1).val ∧ (i 1).val < win2_3.index t (1 : Fin 2) * 128 + 128
    rw [e1]; omega

/-- After the region the result array holds the specification's second projection of the arrays the region found. -/
theorem final2 (c : Dev nD) :
    (dat2 V c).arrAt 3 cfg2.N = Cert.Spec.proj2 (V c main_v21) (V c main_arg4) (V c main_v9) :=
  (dat2 V c).arrAt_eq_of_cover 3 _ (fun t _ => flushed2_eq V c t) covered2

end Cert.KernelIdeal.Gen

end
-- ==== Proof.BlockPost.lean ====
import proofs.«161926_j66597762892108_2_alg».proof.Proof.Spec
import proofs.«161926_j66597762892108_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Block

open Idealize.ShloMosaic Idealize.ShloMosaic.ValueIdx

/-- A column `[a, 1]` broadcast along its unit axis to `[a, b]` reads, at `(p, q)`, the column's entry of row `p`. -/
theorem post_broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same column read through a `broadcast_in_dim` that keeps both axes in place. -/
theorem post_broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- First layer's closing step on one block of 2048 rows: at row `p` of the block that starts at row `r0` and
    column `q`, both sides are `max (a[r0+p, q] · n[r0+p, 0]) 0`, the zero being the same word on both sides. -/
theorem post1_block (a : Cert.Spec.FArr Cert.ReferenceIdeal.S16384x512) (n : Cert.Spec.FArr Cert.ReferenceIdeal.S16384x1)
    (ab : Vec Ideal Cert.KernelIdeal.S2048x512 .f32) (nb : Vec Ideal Cert.KernelIdeal.S2048x1 .f32) (r0 : ℕ) (hr0 : r0 + 2048 ≤ 16384)
    (ha : ∀ (p : Fin 2048) (q : Fin 512), ab (ix2 p q) = a (ix2 (⟨r0 + p.val, by omega⟩ : Fin 16384) q))
    (hn : ∀ (p : Fin 2048), nb (ix2 p (0 : Fin 1)) = n (ix2 (⟨r0 + p.val, by omega⟩ : Fin 16384) (0 : Fin 1)))
    (p : Fin 2048) (q : Fin 512) :
    Cert.KernelIdeal.Gen.k1_pay1 (F := Ideal) ab nb (ix2 p q)
      = Cert.Spec.post1 a n (ix2 (⟨r0 + p.val, by omega⟩ : Fin 16384) q) := by
  unfold Cert.KernelIdeal.Gen.k1_pay1 Cert.Spec.post1
  simp only [shapeCast_self]
  rw [maximumf_apply, maximumf_apply, mulf_apply, mulf_apply, post_broadcastTo_a1_ab_apply, post_broadcastInDim_a1_ab_apply, ha, hn]
  rfl

/-- Second layer's closing step on one block of 2048 rows: at row `p` of the block that starts at row `r0` and
    column `q`, both sides are `a[r0+p, q] · n[r0+p, 0]`. -/
theorem post3_block (a : Cert.Spec.FArr Cert.ReferenceIdeal.S16384x128) (n : Cert.Spec.FArr Cert.ReferenceIdeal.S16384x1)
    (ab : Vec Ideal Cert.KernelIdeal.S2048x128 .f32) (nb : Vec Ideal Cert.KernelIdeal.S2048x1 .f32) (r0 : ℕ) (hr0 : r0 + 2048 ≤ 16384)
    (ha : ∀ (p : Fin 2048) (q : Fin 128), ab (ix2 p q) = a (ix2 (⟨r0 + p.val, by omega⟩ : Fin 16384) q))
    (hn : ∀ (p : Fin 2048), nb (ix2 p (0 : Fin 1)) = n (ix2 (⟨r0 + p.val, by omega⟩ : Fin 16384) (0 : Fin 1)))
    (p : Fin 2048) (q : Fin 128) :
    Cert.KernelIdeal.Gen.k3_pay1 (F := Ideal) ab nb (ix2 p q)
      = Cert.Spec.post2 a n (ix2 (⟨r0 + p.val, by omega⟩ : Fin 16384) q) := by
  unfold Cert.KernelIdeal.Gen.k3_pay1 Cert.Spec.post2
  simp only [shapeCast_self]
  rw [mulf_apply, mulf_apply, post_broadcastTo_a1_ab_apply, post_broadcastInDim_a1_ab_apply, ha, hn]

end Cert.Block

end
-- ==== Proof.FinalPost.lean ====
import proofs.«161926_j66597762892108_2_alg».proof.Proof.Reg1
import proofs.«161926_j66597762892108_2_alg».proof.Proof.Reg3
import proofs.«161926_j66597762892108_2_alg».proof.Proof.BlockPost
import Idealize.ShloMosaic.Lib.Pipeline.Value
import Idealize.ShloMosaic.Lib.ValueIdx

noncomputable section

namespace Cert.KernelIdeal.Gen

open Idealize.ShloMosaic Idealize.ShloMosaic.TcCoe Idealize.ShloMosaic.ValueIdx
open Idealize.SL.Sem
open Idealize.ShloMosaic.Pipeline (Dat Cfg Window)

-- the contents of the core's buffers when a region is entered, as extended reals
variable (V : (c : Dev nD) → (b : Ref sig .tc) → Buf (Elt Ideal) ((c : Thread nD τ).loc b))

/-- Both offsets of a whole-buffer rectangle are zero. -/
theorem zeroOffsets_post : (![0, 0] : Fin 2 → Nat) = fun _ => 0 := funext fun a => by fin_cases a <;> rfl

/-! # The first row-scaling region: eight blocks of 2048 rows tile the array -/

/-- The printed index maps, decided over the eight points: point `t` works on block row `t` of every window. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The aggregate's block at point `t`: rows `2048 t … 2048 t + 2047` of the array. -/
theorem iblk1_0_apply (c : Dev nD) (t : Fin cfg1.N) (p : Fin 2048) (q : Fin 512) (h : 2048 * t.val + p.val < 16384) :
    (iblk1 V c 0 t : Vec Ideal S2048x512 .f32) (ix2 p q)
      = (V c main_v20 : S16384x512.Idx → Elt Ideal .f32) (ix2 (⟨2048 * t.val + p.val, h⟩ : Fin 16384) q) := by
  obtain ⟨e0, e1, -, -, -, -⟩ := index_facts1 t
  unfold iblk1
  show (V c main_v20 : S16384x512.Idx → Elt Ideal .f32) (((cfg1.win 0).blk t).view.emb (ix2 p q)) = _
  refine congrArg _ (funext fun a => Fin.ext ?_)
  match a with
  | ⟨0, _⟩ => show win1_0.index t (0 : Fin 2) * 2048 + 1 * p.val = 2048 * t.val + p.val; rw [e0]; omega
  | ⟨1, _⟩ => show win1_0.index t (1 : Fin 2) * 512 + 1 * q.val = q.val; rw [e1]; omega

/-- The normalisation column's block at point `t`: the same rows of the column. -/
theorem iblk1_1_apply (c : Dev nD) (t : Fin cfg1.N) (p : Fin 2048) (h : 2048 * t.val + p.val < 16384) :
    (iblk1 V c 1 t : Vec Ideal S2048x1 .f32) (ix2 p (0 : Fin 1))
      = (V c main_v9 : S16384x1.Idx → Elt Ideal .f32) (ix2 (⟨2048 * t.val + p.val, h⟩ : Fin 16384) (0 : Fin 1)) := by
  obtain ⟨-, -, e2, e3, -, -⟩ := index_facts1 t
  unfold iblk1
  show (V c main_v9 : S16384x1.Idx → Elt Ideal .f32) (((cfg1.win 1).blk t).view.emb (ix2 p (0 : Fin 1))) = _
  refine congrArg _ (funext fun a => Fin.ext ?_)
  match a with
  | ⟨0, _⟩ => show win1_1.index t (0 : Fin 2) * 2048 + 1 * p.val = 2048 * t.val + p.val; rw [e2]; omega
  | ⟨1, _⟩ => show win1_1.index t (1 : Fin 2) * 1 + 1 * 0 = 0; rw [e3]

/-- Any array of the result's shape read through the result's block at point `t`: the same rows. -/
theorem blk1_2_read (G : S16384x512.Idx → Elt Ideal .f32) (t : Fin cfg1.N) (p : Fin 2048) (q : Fin 512)
    (h : 2048 * t.val + p.val < 16384) :
    (((cfg1.win 2).blk t).view.read (Elt Ideal) G : Vec Ideal S2048x512 .f32) (ix2 p q)
      = G (ix2 (⟨2048 * t.val + p.val, h⟩ : Fin 16384) q) := by
  obtain ⟨-, -, -, -, e4, e5⟩ := index_facts1 t
  show G (((cfg1.win 2).blk t).view.emb (ix2 p q)) = _
  refine congrArg _ (funext fun a => Fin.ext ?_)
  match a with
  | ⟨0, _⟩ => show win1_2.index t (0 : Fin 2) * 2048 + 1 * p.val = 2048 * t.val + p.val; rw [e4]; omega
  | ⟨1, _⟩ => show win1_2.index t (1 : Fin 2) * 512 + 1 * q.val = q.val; rw [e5]; omega

/-- What point `t` writes back is block `t` of the closing step of the whole arrays. -/
theorem flushed1_eq (c : Dev nD) (t : Fin cfg1.N) :
    (dat1 V c).flushed 2 t
      = ((cfg1.win 2).blk t).view.read (Elt Ideal) (Cert.Spec.post1 (V c main_v20) (V c main_v9)) := by
  show (cfg1.win 2).cut (grid1.coords t) ((dat1 V c).after 2 t) = _
  rw [after1_2]
  unfold out1_2
  rw [View.canon_unit_zero zeroOffsets_post]
  simp only [View.ld_unit_zero (S := S2048x512) zeroOffsets_post, View.ld_unit_zero (S := S2048x1) zeroOffsets_post]
  have ht : t.val < 8 := Nat.lt_of_lt_of_eq t.isLt N_1
  funext y
  have hy := eq_ix2 (n0 := 2048) (n1 := 512) y
  have hp : ((y 0 : Fin 2048)).val < 2048 := (y 0 : Fin 2048).isLt
  rw [hy]
  refine Eq.trans ?_ (blk1_2_read _ t (y 0) (y 1) (by omega)).symm
  exact Cert.Block.post1_block (V c main_v20) (V c main_v9) (iblk1 V c 0 t) (iblk1 V c 1 t) (2048 * t.val) (by omega)
    (fun p q => iblk1_0_apply V c t p q _) (fun p => iblk1_1_apply V c t p _) (y 0) (y 1)

/-- An index of the result is in point `t`'s block iff each coordinate is in the block's range on its axis. -/
theorem mem_blk1_2 (t : Fin cfg1.N) (i : S16384x512.Idx) :
    i ∈ ((cfg1.win 2).blk t).view.set ↔ ∀ a : Fin 2, win1_2.index t a * S2048x512.size a ≤ (i a).val
      ∧ (i a).val < win1_2.index t a * S2048x512.size a + S2048x512.size a := by
  show i ∈ ((View.whole main_v21).slice (win1_2.rect t)).set ↔ _
  rw [View.set_slice_whole, Rect.mem_set_unit]
  exact Iff.rfl

/-- Row `r` of the result lies in the block of point `r / 2048`. -/
theorem covered1_2 (i : S16384x512.Idx) :
    ∃ t : Fin cfg1.N, (cfg1.win 2).flush t = true ∧ i ∈ ((cfg1.win 2).blk t).view.set := by
  have hi0 : (i 0).val < 16384 := (i 0).isLt
  have hi1 : (i 1).val < 512 := (i 1).isLt
  have hN : cfg1.N = 8 := N_1
  obtain ⟨t, ht⟩ : ∃ t : Fin cfg1.N, t.val = (i 0).val / 2048 := ⟨⟨(i 0).val / 2048, by rw [hN]; omega⟩, rfl⟩
  obtain ⟨-, -, -, -, e4, e5⟩ := index_facts1 t
  refine ⟨t, flush1_2 t, ?_⟩
  rw [mem_blk1_2]
  intro a
  match a with
  | ⟨0, _⟩ =>
    show win1_2.index t (0 : Fin 2) * 2048 ≤ (i 0).val ∧ (i 0).val < win1_2.index t (0 : Fin 2) * 2048 + 2048
    rw [e4, ht]; omega
  | ⟨1, _⟩ =>
    show win1_2.index t (1 : Fin 2) * 512 ≤ (i 1).val ∧ (i 1).val < win1_2.index t (1 : Fin 2) * 512 + 512
    rw [e5]; omega

/-- After the region the result array is the closing step of the arrays the region found. -/
theorem final1 (c : Dev nD) : (dat1 V c).arrAt 2 cfg1.N = Cert.Spec.post1 (V c main_v20) (V c main_v9) :=
  (dat1 V c).arrAt_eq_of_cover 2 (Cert.Spec.post1 (V c main_v20) (V c main_v9)) (fun t _ => flushed1_eq V c t) covered1_2

/-! # The second row-scaling region: eight blocks of 2048 rows tile the array -/

/-- The printed index maps, decided over the eight points: point `t` works on block row `t` of every window. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The second aggregate's block at point `t`: rows `2048 t … 2048 t + 2047` of the array. -/
theorem iblk3_0_apply (c : Dev nD) (t : Fin cfg3.N) (p : Fin 2048) (q : Fin 128) (h : 2048 * t.val + p.val < 16384) :
    (iblk3 V c 0 t : Vec Ideal S2048x128 .f32) (ix2 p q)
      = (V c main_v32 : S16384x128.Idx → Elt Ideal .f32) (ix2 (⟨2048 * t.val + p.val, h⟩ : Fin 16384) q) := by
  obtain ⟨e0, e1, -, -, -, -⟩ := index_facts3 t
  unfold iblk3
  show (V c main_v32 : S16384x128.Idx → Elt Ideal .f32) (((cfg3.win 0).blk t).view.emb (ix2 p q)) = _
  refine congrArg _ (funext fun a => Fin.ext ?_)
  match a with
  | ⟨0, _⟩ => show win3_0.index t (0 : Fin 2) * 2048 + 1 * p.val = 2048 * t.val + p.val; rw [e0]; omega
  | ⟨1, _⟩ => show win3_0.index t (1 : Fin 2) * 128 + 1 * q.val = q.val; rw [e1]; omega

/-- The normalisation column's block at point `t`: the same rows of the column. -/
theorem iblk3_1_apply (c : Dev nD) (t : Fin cfg3.N) (p : Fin 2048) (h : 2048 * t.val + p.val < 16384) :
    (iblk3 V c 1 t : Vec Ideal S2048x1 .f32) (ix2 p (0 : Fin 1))
      = (V c main_v9 : S16384x1.Idx → Elt Ideal .f32) (ix2 (⟨2048 * t.val + p.val, h⟩ : Fin 16384) (0 : Fin 1)) := by
  obtain ⟨-, -, e2, e3, -, -⟩ := index_facts3 t
  unfold iblk3
  show (V c main_v9 : S16384x1.Idx → Elt Ideal .f32) (((cfg3.win 1).blk t).view.emb (ix2 p (0 : Fin 1))) = _
  refine congrArg _ (funext fun a => Fin.ext ?_)
  match a with
  | ⟨0, _⟩ => show win3_1.index t (0 : Fin 2) * 2048 + 1 * p.val = 2048 * t.val + p.val; rw [e2]; omega
  | ⟨1, _⟩ => show win3_1.index t (1 : Fin 2) * 1 + 1 * 0 = 0; rw [e3]

/-- Any array of the result's shape read through the result's block at point `t`: the same rows. -/
theorem blk3_2_read (G : S16384x128.Idx → Elt Ideal .f32) (t : Fin cfg3.N) (p : Fin 2048) (q : Fin 128)
    (h : 2048 * t.val + p.val < 16384) :
    (((cfg3.win 2).blk t).view.read (Elt Ideal) G : Vec Ideal S2048x128 .f32) (ix2 p q)
      = G (ix2 (⟨2048 * t.val + p.val, h⟩ : Fin 16384) q) := by
  obtain ⟨-, -, -, -, e4, e5⟩ := index_facts3 t
  show G (((cfg3.win 2).blk t).view.emb (ix2 p q)) = _
  refine congrArg _ (funext fun a => Fin.ext ?_)
  match a with
  | ⟨0, _⟩ => show win3_2.index t (0 : Fin 2) * 2048 + 1 * p.val = 2048 * t.val + p.val; rw [e4]; omega
  | ⟨1, _⟩ => show win3_2.index t (1 : Fin 2) * 128 + 1 * q.val = q.val; rw [e5]; omega

/-- What point `t` writes back is block `t` of the closing step of the whole arrays. -/
theorem flushed3_eq (c : Dev nD) (t : Fin cfg3.N) :
    (dat3 V c).flushed 2 t
      = ((cfg3.win 2).blk t).view.read (Elt Ideal) (Cert.Spec.post2 (V c main_v32) (V c main_v9)) := by
  show (cfg3.win 2).cut (grid3.coords t) ((dat3 V c).after 2 t) = _
  rw [after3_2]
  unfold out3_2
  rw [View.canon_unit_zero zeroOffsets_post]
  simp only [View.ld_unit_zero (S := S2048x128) zeroOffsets_post, View.ld_unit_zero (S := S2048x1) zeroOffsets_post]
  have ht : t.val < 8 := Nat.lt_of_lt_of_eq t.isLt N_3
  funext y
  have hy := eq_ix2 (n0 := 2048) (n1 := 128) y
  have hp : ((y 0 : Fin 2048)).val < 2048 := (y 0 : Fin 2048).isLt
  rw [hy]
  refine Eq.trans ?_ (blk3_2_read _ t (y 0) (y 1) (by omega)).symm
  exact Cert.Block.post3_block (V c main_v32) (V c main_v9) (iblk3 V c 0 t) (iblk3 V c 1 t) (2048 * t.val) (by omega)
    (fun p q => iblk3_0_apply V c t p q _) (fun p => iblk3_1_apply V c t p _) (y 0) (y 1)

/-- An index of the result is in point `t`'s block iff each coordinate is in the block's range on its axis. -/
theorem mem_blk3_2 (t : Fin cfg3.N) (i : S16384x128.Idx) :
    i ∈ ((cfg3.win 2).blk t).view.set ↔ ∀ a : Fin 2, win3_2.index t a * S2048x128.size a ≤ (i a).val
      ∧ (i a).val < win3_2.index t a * S2048x128.size a + S2048x128.size a := by
  show i ∈ ((View.whole main_v33).slice (win3_2.rect t)).set ↔ _
  rw [View.set_slice_whole, Rect.mem_set_unit]
  exact Iff.rfl

/-- Row `r` of the result lies in the block of point `r / 2048`. -/
theorem covered3_2 (i : S16384x128.Idx) :
    ∃ t : Fin cfg3.N, (cfg3.win 2).flush t = true ∧ i ∈ ((cfg3.win 2).blk t).view.set := by
  have hi0 : (i 0).val < 16384 := (i 0).isLt
  have hi1 : (i 1).val < 128 := (i 1).isLt
  have hN : cfg3.N = 8 := N_3
  obtain ⟨t, ht⟩ : ∃ t : Fin cfg3.N, t.val = (i 0).val / 2048 := ⟨⟨(i 0).val / 2048, by rw [hN]; omega⟩, rfl⟩
  obtain ⟨-, -, -, -, e4, e5⟩ := index_facts3 t
  refine ⟨t, flush3_2 t, ?_⟩
  rw [mem_blk3_2]
  intro a
  match a with
  | ⟨0, _⟩ =>
    show win3_2.index t (0 : Fin 2) * 2048 ≤ (i 0).val ∧ (i 0).val < win3_2.index t (0 : Fin 2) * 2048 + 2048
    rw [e4, ht]; omega
  | ⟨1, _⟩ =>
    show win3_2.index t (1 : Fin 2) * 128 ≤ (i 1).val ∧ (i 1).val < win3_2.index t (1 : Fin 2) * 128 + 128
    rw [e5]; omega

/-- After the region the result array is the closing step of the arrays the region found. -/
theorem final3 (c : Dev nD) : (dat3 V c).arrAt 2 cfg3.N = Cert.Spec.post2 (V c main_v32) (V c main_v9) :=
  (dat3 V c).arrAt_eq_of_cover 2 (Cert.Spec.post2 (V c main_v32) (V c main_v9)) (fun t _ => flushed3_eq V c t) covered3_2

end Cert.KernelIdeal.Gen

end
-- ==== Proof.BlockGram.lean ====
import proofs.«161926_j66597762892108_2_alg».proof.Proof.Spec
import proofs.«161926_j66597762892108_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Block

open Idealize.ShloMosaic Idealize.ShloMosaic.ValueIdx

local notation "DK" => Cert.KernelIdeal.dot_S2048x128_S2048x128_S2048x2048_1_1_0_0_n_n
local notation "DR" => Cert.ReferenceIdeal.dot_S16384x128_S128x16384_S16384x16384_1_0_0_1_n_n

/-! ## The block product's operand indices: both operands are contracted along their axis 1 -/

/-- The left operand's row is the result's row. -/
theorem dK_lhs0 (j : Cert.KernelIdeal.S2048x2048.Idx) (k : (DK).contr.Idx) : ((DK).lhsIdx j k 0).val = (j 0).val := by
  unfold DotDims.lhsIdx
  rw [dif_neg (show ¬(0 : Fin Cert.KernelIdeal.S2048x128.rank) ∈ (DK).lhsBatch by decide),
    dif_pos (show (0 : Fin Cert.KernelIdeal.S2048x128.rank) ∈ (DK).lhsNonContracting by decide)]
  rfl
/-- The left operand's column is the contraction position. -/
theorem dK_lhs1 (j : Cert.KernelIdeal.S2048x2048.Idx) (k : (DK).contr.Idx) :
    ((DK).lhsIdx j k 1).val = (k ⟨0, by decide⟩).val :=
  (DK).lhsIdx_val_of_single rfl j k
/-- The right operand's row is the result's column. -/
theorem dK_rhs0 (j : Cert.KernelIdeal.S2048x2048.Idx) (k : (DK).contr.Idx) : ((DK).rhsIdx j k 0).val = (j 1).val := by
  unfold DotDims.rhsIdx
  rw [dif_neg (show ¬(0 : Fin Cert.KernelIdeal.S2048x128.rank) ∈ (DK).rhsBatch by decide),
    dif_pos (show (0 : Fin Cert.KernelIdeal.S2048x128.rank) ∈ (DK).rhsNonContracting by decide)]
  rfl
/-- The right operand's column is the contraction position. -/
theorem dK_rhs1 (j : Cert.KernelIdeal.S2048x2048.Idx) (k : (DK).contr.Idx) :
    ((DK).rhsIdx j k 1).val = (k ⟨0, by decide⟩).val :=
  (DK).rhsIdx_val_of_single rfl j k

/-- The block product into the zero splat, at `(p, q)`: `Σ_k x[p, k] · y[q, k]`. -/
theorem matmulK_apply (x y : FVec Ideal Cert.KernelIdeal.S2048x128 .bf16) (p q : Fin 2048) :
    FloatOps.matmul DK none x y (constant (F := Ideal) Cert.KernelIdeal.S2048x2048 .f32 0x00000000#32) (ix2 p q)
      = ∑ k : Fin 128, x (ix2 p k) * y (ix2 q k) := by
  rw [Ideal.matmul_constant_zero_apply, ← Equiv.sum_comp (contrEquiv1 DK 128 rfl rfl).symm]
  refine Finset.sum_congr rfl fun k _ => ?_
  have hk := contrEquiv1_symm_val DK 128 rfl rfl k
  have el : (DK).lhsIdx (ix2 p q) ((contrEquiv1 DK 128 rfl rfl).symm k) = ix2 p k := funext fun a => Fin.ext (by
    match a with
    | ⟨0, _⟩ => exact dK_lhs0 _ _
    | ⟨1, _⟩ => exact (dK_lhs1 _ _).trans hk)
  have er : (DK).rhsIdx (ix2 p q) ((contrEquiv1 DK 128 rfl rfl).symm k) = ix2 q k := funext fun a => Fin.ext (by
    match a with
    | ⟨0, _⟩ => exact dK_rhs0 _ _
    | ⟨1, _⟩ => exact (dK_rhs1 _ _).trans hk)
  rw [el, er]

/-! ## The host product's operand indices: rows times columns -/

/-- The left operand's row is the result's row. -/
theorem dR_lhs0 (j : Cert.ReferenceIdeal.S16384x16384.Idx) (k : (DR).contr.Idx) : ((DR).lhsIdx j k 0).val = (j 0).val := by
  unfold DotDims.lhsIdx
  rw [dif_neg (show ¬(0 : Fin Cert.ReferenceIdeal.S16384x128.rank) ∈ (DR).lhsBatch by decide),
    dif_pos (show (0 : Fin Cert.ReferenceIdeal.S16384x128.rank) ∈ (DR).lhsNonContracting by decide)]
  rfl
/-- The left operand's column is the contraction position. -/
theorem dR_lhs1 (j : Cert.ReferenceIdeal.S16384x16384.Idx) (k : (DR).contr.Idx) :
    ((DR).lhsIdx j k 1).val = (k ⟨0, by decide⟩).val :=
  (DR).lhsIdx_val_of_single rfl j k
/-- The right operand's row is the contraction position. -/
theorem dR_rhs0 (j : Cert.ReferenceIdeal.S16384x16384.Idx) (k : (DR).contr.Idx) :
    ((DR).rhsIdx j k 0).val = (k ⟨0, by decide⟩).val :=
  (DR).rhsIdx_val_of_single rfl j k
/-- The right operand's column is the result's column. -/
theorem dR_rhs1 (j : Cert.ReferenceIdeal.S16384x16384.Idx) (k : (DR).contr.Idx) : ((DR).rhsIdx j k 1).val = (j 1).val := by
  unfold DotDims.rhsIdx
  rw [dif_neg (show ¬(1 : Fin Cert.ReferenceIdeal.S128x16384.rank) ∈ (DR).rhsBatch by decide),
    dif_pos (show (1 : Fin Cert.ReferenceIdeal.S128x16384.rank) ∈ (DR).rhsNonContracting by decide)]
  rfl

/-- The host product at `(r, c)`: `Σ_k x[r, k] · y[k, c]`. -/
theorem dotR_apply (x : FVec Ideal Cert.ReferenceIdeal.S16384x128 .f32) (y : FVec Ideal Cert.ReferenceIdeal.S128x16384 .f32)
    (r c : Fin 16384) :
    FloatOps.dotGeneral DR none .single x y (ix2 r c) = ∑ k : Fin 128, x (ix2 r k) * y (ix2 k c) := by
  rw [Ideal.dotGeneral_apply, ← Equiv.sum_comp (contrEquiv1 DR 128 rfl rfl).symm]
  refine Finset.sum_congr rfl fun k _ => ?_
  have hk := contrEquiv1_symm_val DR 128 rfl rfl k
  have el : (DR).lhsIdx (ix2 r c) ((contrEquiv1 DR 128 rfl rfl).symm k) = ix2 r k := funext fun a => Fin.ext (by
    match a with
    | ⟨0, _⟩ => exact dR_lhs0 _ _
    | ⟨1, _⟩ => exact (dR_lhs1 _ _).trans hk)
  have er : (DR).rhsIdx (ix2 r c) ((contrEquiv1 DR 128 rfl rfl).symm k) = ix2 k c := funext fun a => Fin.ext (by
    match a with
    | ⟨0, _⟩ => exact (dR_rhs0 _ _).trans hk
    | ⟨1, _⟩ => exact dR_rhs1 _ _)
  rw [el, er]

/-- The decoder on one block of 2048 rows by 2048 columns: at `(p, q)` of the block whose rows start at `r0` and whose
    columns start at `c0`, both sides are `Σ_k z[r0+p, k] · z[c0+q, k]`, the same 128 products in the same sum. -/
theorem gram4_block (z : Cert.Spec.FArr Cert.ReferenceIdeal.S16384x128) (zr zc : Vec Ideal Cert.KernelIdeal.S2048x128 .f32)
    (r0 c0 : ℕ) (hr0 : r0 + 2048 ≤ 16384) (hc0 : c0 + 2048 ≤ 16384)
    (hzr : ∀ (p : Fin 2048) (k : Fin 128), zr (ix2 p k) = z (ix2 (⟨r0 + p.val, by omega⟩ : Fin 16384) k))
    (hzc : ∀ (q : Fin 2048) (k : Fin 128), zc (ix2 q k) = z (ix2 (⟨c0 + q.val, by omega⟩ : Fin 16384) k))
    (p q : Fin 2048) :
    Cert.KernelIdeal.Gen.k4_pay1 (F := Ideal) zr zc (ix2 p q)
      = Cert.Spec.gram z (ix2 (⟨r0 + p.val, by omega⟩ : Fin 16384) (⟨c0 + q.val, by omega⟩ : Fin 16384)) := by
  unfold Cert.KernelIdeal.Gen.k4_pay1 Cert.Spec.gram
  simp only [shapeCast_self]
  refine (matmulK_apply _ _ p q).trans ?_
  refine Eq.trans ?_ (dotR_apply z _ _ _).symm
  refine Finset.sum_congr rfl fun k _ => ?_
  rw [truncf_apply, truncf_apply, hzr, hzc, transpose_ix2_apply]

end Cert.Block

end
-- ==== Proof.FinalGram.lean ====
import proofs.«161926_j66597762892108_2_alg».proof.Proof.Reg4
import proofs.«161926_j66597762892108_2_alg».proof.Proof.BlockGram
import Idealize.ShloMosaic.Lib.Pipeline.Value
import Idealize.ShloMosaic.Lib.ValueIdx

noncomputable section

namespace Cert.KernelIdeal.Gen

open Idealize.ShloMosaic Idealize.ShloMosaic.TcCoe Idealize.ShloMosaic.ValueIdx
open Idealize.SL.Sem
open Idealize.ShloMosaic.Pipeline (Dat Cfg Window)
open Idealize.SL.RA (PosShare TreeShare)

-- the contents of the core's buffers when a region is entered, as extended reals
variable (V : (c : Dev nD) → (b : Ref sig .tc) → Buf (Elt Ideal) ((c : Thread nD τ).loc b))

/-- Both offsets of a whole-buffer rectangle are zero. -/
theorem zeroOffsets_gram : (![0, 0] : Fin 2 → Nat) = fun _ => 0 := funext fun a => by fin_cases a <;> rfl

/-! # The decoder region: sixty-four blocks of 2048 rows by 2048 columns tile the result -/

/-- The printed index maps, decided over the sixty-four points: point `t` takes its rows from block row `t / 8`, its
    columns from block row `t % 8`, and works on block `(t / 8, t % 8)` of the result. -/
theorem index_facts4 : ∀ t : Fin cfg4.N,
    win4_0.index t (0 : Fin 2) = t.val / 8 ∧ win4_0.index t (1 : Fin 2) = 0
    ∧ win4_1.index t (0 : Fin 2) = t.val % 8 ∧ win4_1.index t (1 : Fin 2) = 0
    ∧ win4_2.index t (0 : Fin 2) = t.val / 8 ∧ win4_2.index t (1 : Fin 2) = t.val % 8 :=
  (by decide +kernel : ∀ t : Fin grid4.N, _)

/-- The row block at point `t`: rows `2048 (t / 8) … 2048 (t / 8) + 2047` of the array. -/
theorem iblk4_0_apply (c : Dev nD) (t : Fin cfg4.N) (p : Fin 2048) (k : Fin 128) (h : 2048 * (t.val / 8) + p.val < 16384) :
    (iblk4 V c 0 t : Vec Ideal S2048x128 .f32) (ix2 p k)
      = (V c main_v33 : S16384x128.Idx → Elt Ideal .f32) (ix2 (⟨2048 * (t.val / 8) + p.val, h⟩ : Fin 16384) k) := by
  obtain ⟨e0, e1, -, -, -, -⟩ := index_facts4 t
  unfold iblk4
  show (V c main_v33 : S16384x128.Idx → Elt Ideal .f32) (((cfg4.win 0).blk t).view.emb (ix2 p k)) = _
  refine congrArg _ (funext fun a => Fin.ext ?_)
  match a with
  | ⟨0, _⟩ => show win4_0.index t (0 : Fin 2) * 2048 + 1 * p.val = 2048 * (t.val / 8) + p.val; rw [e0]; omega
  | ⟨1, _⟩ => show win4_0.index t (1 : Fin 2) * 128 + 1 * k.val = k.val; rw [e1]; omega

/-- The column block at point `t`: rows `2048 (t % 8) … 2048 (t % 8) + 2047` of the same array. -/
theorem iblk4_1_apply (c : Dev nD) (t : Fin cfg4.N) (q : Fin 2048) (k : Fin 128) (h : 2048 * (t.val % 8) + q.val < 16384) :
    (iblk4 V c 1 t : Vec Ideal S2048x128 .f32) (ix2 q k)
      = (V c main_v33 : S16384x128.Idx → Elt Ideal .f32) (ix2 (⟨2048 * (t.val % 8) + q.val, h⟩ : Fin 16384) k) := by
  obtain ⟨-, -, e2, e3, -, -⟩ := index_facts4 t
  unfold iblk4
  show (V c main_v33 : S16384x128.Idx → Elt Ideal .f32) (((cfg4.win 1).blk t).view.emb (ix2 q k)) = _
  refine congrArg _ (funext fun a => Fin.ext ?_)
  match a with
  | ⟨0, _⟩ => show win4_1.index t (0 : Fin 2) * 2048 + 1 * q.val = 2048 * (t.val % 8) + q.val; rw [e2]; omega
  | ⟨1, _⟩ => show win4_1.index t (1 : Fin 2) * 128 + 1 * k.val = k.val; rw [e3]; omega

/-- Any array of the result's shape read through the result's block at point `t`: those rows and those columns. -/
theorem blk4_2_read (G : S16384x16384.Idx → Elt Ideal .f32) (t : Fin cfg4.N) (p q : Fin 2048)
    (hp : 2048 * (t.val / 8) + p.val < 16384) (hq : 2048 * (t.val % 8) + q.val < 16384) :
    (((cfg4.win 2).blk t).view.read (Elt Ideal) G : Vec Ideal S2048x2048 .f32) (ix2 p q)
      = G (ix2 (⟨2048 * (t.val / 8) + p.val, hp⟩ : Fin 16384) (⟨2048 * (t.val % 8) + q.val, hq⟩ : Fin 16384)) := by
  obtain ⟨-, -, -, -, e4, e5⟩ := index_facts4 t
  show G (((cfg4.win 2).blk t).view.emb (ix2 p q)) = _
  refine congrArg _ (funext fun a => Fin.ext ?_)
  match a with
  | ⟨0, _⟩ => show win4_2.index t (0 : Fin 2) * 2048 + 1 * p.val = 2048 * (t.val / 8) + p.val; rw [e4]; omega
  | ⟨1, _⟩ => show win4_2.index t (1 : Fin 2) * 2048 + 1 * q.val = 2048 * (t.val % 8) + q.val; rw [e5]; omega

/-- What point `t` writes back is block `t` of all the inner products of the whole array's rows. -/
theorem flushed4_eq (qa qb : PosShare TreeShare) (c : Dev nD) (t : Fin cfg4.N) :
    (dat4 V qa qb c).flushed 2 t
      = ((cfg4.win 2).blk t).view.read (Elt Ideal) (Cert.Spec.gram (V c main_v33)) := by
  show (cfg4.win 2).cut (grid4.coords t) ((dat4 V qa qb c).after 2 t) = _
  rw [after4_2]
  unfold out4_2
  rw [View.canon_unit_zero zeroOffsets_gram]
  simp only [View.ld_unit_zero (S := S2048x128) zeroOffsets_gram]
  have ht : t.val < 64 := Nat.lt_of_lt_of_eq t.isLt N_4
  funext y
  have hy := eq_ix2 (n0 := 2048) (n1 := 2048) y
  have hp : ((y 0 : Fin 2048)).val < 2048 := (y 0 : Fin 2048).isLt
  have hq : ((y 1 : Fin 2048)).val < 2048 := (y 1 : Fin 2048).isLt
  rw [hy]
  refine Eq.trans ?_ (blk4_2_read _ t (y 0) (y 1) (by omega) (by omega)).symm
  exact Cert.Block.gram4_block (V c main_v33) (iblk4 V c 0 t) (iblk4 V c 1 t) (2048 * (t.val / 8)) (2048 * (t.val % 8))
    (by omega) (by omega) (fun p k => iblk4_0_apply V c t p k _) (fun q k => iblk4_1_apply V c t q k _) (y 0) (y 1)

/-- An index of the result is in point `t`'s block iff each coordinate is in the block's range on its axis. -/
theorem mem_blk4_2 (t : Fin cfg4.N) (i : S16384x16384.Idx) :
    i ∈ ((cfg4.win 2).blk t).view.set ↔ ∀ a : Fin 2, win4_2.index t a * S2048x2048.size a ≤ (i a).val
      ∧ (i a).val < win4_2.index t a * S2048x2048.size a + S2048x2048.size a := by
  show i ∈ ((View.whole main_v34).slice (win4_2.rect t)).set ↔ _
  rw [View.set_slice_whole, Rect.mem_set_unit]
  exact Iff.rfl

/-- Entry `(r, s)` of the result lies in the block of point `8 (r / 2048) + s / 2048`. -/
theorem covered4_2 (i : S16384x16384.Idx) :
    ∃ t : Fin cfg4.N, (cfg4.win 2).flush t = true ∧ i ∈ ((cfg4.win 2).blk t).view.set := by
  have hi0 : (i 0).val < 16384 := (i 0).isLt
  have hi1 : (i 1).val < 16384 := (i 1).isLt
  have hN : cfg4.N = 64 := N_4
  obtain ⟨t, ht⟩ : ∃ t : Fin cfg4.N, t.val = 8 * ((i 0).val / 2048) + (i 1).val / 2048 :=
    ⟨⟨8 * ((i 0).val / 2048) + (i 1).val / 2048, by rw [hN]; omega⟩, rfl⟩
  obtain ⟨-, -, -, -, e4, e5⟩ := index_facts4 t
  refine ⟨t, flush4_2 t, ?_⟩
  rw [mem_blk4_2]
  intro a
  match a with
  | ⟨0, _⟩ =>
    show win4_2.index t (0 : Fin 2) * 2048 ≤ (i 0).val ∧ (i 0).val < win4_2.index t (0 : Fin 2) * 2048 + 2048
    rw [e4, ht]; omega
  | ⟨1, _⟩ =>
    show win4_2.index t (1 : Fin 2) * 2048 ≤ (i 1).val ∧ (i 1).val < win4_2.index t (1 : Fin 2) * 2048 + 2048
    rw [e5, ht]; omega

/-- After the region the result array is all the inner products of the rows of the array the region found. -/
theorem final4 (qa qb : PosShare TreeShare) (c : Dev nD) :
    (dat4 V qa qb c).arrAt 2 cfg4.N = Cert.Spec.gram (V c main_v33) :=
  (dat4 V qa qb c).arrAt_eq_of_cover 2 (Cert.Spec.gram (V c main_v33)) (fun t _ => flushed4_eq V qa qb c t) covered4_2

end Cert.KernelIdeal.Gen

end
-- ==== Proof.KVal.lean ====
/-
  The kernel program's result as the specification's term of the five argument arrays.

  The program is a chain of ten items. Three stretches of host operations compute the normalisation column
  `n = d⁻¹ᐟ²` from the edges' sources: the out-degrees `d` (ones summed along the sources), the selection of `d` where it
  is positive and of one elsewhere, the power `-1/2` and the cast to a column. Then, per layer, a region computes the
  projection `(x ⊙ n) · W` block by block, a host stretch aggregates its rows over the edges (a gather by the targets
  followed by a sum by the sources), and a region closes the layer by scaling the rows by `n` (followed, in the first
  layer, by `max · 0`). A last region computes all inner products of the rows.

  Each item changes only the buffers it writes; every other buffer — the arguments and the column `n` among them —
  keeps its contents. So each result array along the chain is the corresponding step of the specification applied to
  the earlier results, and the last one is the specification's function `G` of the arguments as launched.

  The host stretches are read one at a time over an arbitrary valuation, which keeps every comparison of terms small.
-/
import proofs.«161926_j66597762892108_2_alg».proof.Proof.Chain
import proofs.«161926_j66597762892108_2_alg».proof.Proof.SharedArr
import proofs.«161926_j66597762892108_2_alg».proof.Proof.FinalDense
import proofs.«161926_j66597762892108_2_alg».proof.Proof.FinalPost
import proofs.«161926_j66597762892108_2_alg».proof.Proof.FinalGram
import proofs.«161926_j66597762892108_2_alg».proof.Proof.Spec
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo

/-! ## The host stretches before the first region: the normalisation column -/

/-- The first stretch leaves the out-degrees: ones summed along the edges' sources. -/
theorem deg_of (W : Valuation τ sig (Elt Ideal)) :
    StableHlo.after hostOps0 W main_v3 = Cert.Spec.deg (W main_arg1) := by
  after_results
  rfl

/-- … the comparison of the degrees with zero, -/
theorem pos_of (W : Valuation τ sig (Elt Ideal)) :
    StableHlo.after hostOps0 W main_v5
      = cmpf (F := Ideal) .ogt (Cert.Spec.deg (W main_arg1))
          (broadcastInDim S16384 ![] bcast_S_S16384 (constant (F := Ideal) S_ .f32 0x00000000#32)) := by
  after_results
  rfl

/-- … and the constant one. -/
theorem one_of (W : Valuation τ sig (Elt Ideal)) :
    StableHlo.after hostOps0 W main_cst_2 = constant (F := Ideal) S_ .f32 0x3F800000#32 := by
  after_results

/-- The second stretch selects the degree where it is positive and one elsewhere. -/
theorem where_of (W : Valuation τ sig (Elt Ideal)) :
    StableHlo.after hostOps0_1 W main_v6
      = select (W main_v5 : IVec S16384 1) (W main_v3 : FVec Ideal S16384 .f32)
          (broadcastInDim S16384 ![] bcast_S_S16384 (id (W main_cst_2 : FVec Ideal S_ .f32))) := by
  after_results
  rfl

/-- The third stretch raises to the power `-1/2` and makes a column of the result. -/
theorem pow_of (W : Valuation τ sig (Elt Ideal)) :
    StableHlo.after hostOps0_2 W main_v9
      = broadcastInDim S16384x1 ![0] bcast_S16384_S16384x1_0
          (Host.powf (F := Ideal) (W main_v6 : FVec Ideal S16384 .f32)
            (broadcastInDim S16384 ![] bcast_S_S16384 (constant (F := Ideal) S_ .f32 0xBF000000#32))) := by
  after_results

/-- Together: the normalisation column of the specification, of the edges' sources as launched. -/
theorem norm_of (W : Valuation τ sig (Elt Ideal)) :
    StableHlo.after hostOps0_2 (StableHlo.after hostOps0_1 (StableHlo.after hostOps0 W)) main_v9
      = Cert.Spec.normCol (W main_arg1) := by
  rw [pow_of, where_of, deg_of, pos_of, one_of]
  rfl

/-! ## The host stretches between the regions: the two aggregations over the edges -/

/-- The stretch after the first projection gathers its rows by the edges' targets and sums them by the sources. -/
theorem agg1_of (W : Valuation τ sig (Elt Ideal)) :
    StableHlo.after hostOps1 W main_v20 = Cert.Spec.agg1 (W main_v10) (W main_arg1) (W main_arg2) := by
  after_results
  rfl

/-- The stretch after the second projection does the same with its rows. -/
theorem agg2_of (W : Valuation τ sig (Elt Ideal)) :
    StableHlo.after hostOps3 W main_v32 = Cert.Spec.agg2 (W main_v22) (W main_arg1) (W main_arg2) := by
  after_results
  rfl

/-! ## What every item leaves alone -/

variable (m : (ℓ : Loc nD τ sig) → Buf (Elt Ideal) ℓ)

/-- A buffer no host stretch before the first region writes holds its launch contents when that region is entered. -/
theorem V3_read (c : Dev nD) (r : Ref sig .tc) (h0 : r ∉ hostOps0_W) (h1 : r ∉ hostOps0_1_W) (h2 : r ∉ hostOps0_2_W) :
    V3 m c r = m ((c : Thread nD τ).loc r) :=
  (V3_of m c r h2).trans <| (V2_of m c r h1).trans <| (V1_of m c r h0).trans rfl

/-- The normalisation column when the first region is entered. -/
theorem V3_norm (c : Dev nD) : V3 m c main_v9 = Cert.Spec.normCol (m ((c : Thread nD τ).loc main_arg1)) := by
  show StableHlo.after hostOps0_2 (StableHlo.after hostOps0_1 (StableHlo.after hostOps0 (V0 m c))) main_v9 = _
  rw [norm_of]

/-- The items after the first region's entry, one by one: a region changes its result array only, a host stretch the
    buffers it writes only. -/
theorem U4_read (c : Dev nD) {r : Ref sig .tc} (h : r ≠ main_v10) : U4 m c r = V3 m c r := upd_ne _ h _
theorem U5_read (c : Dev nD) {r : Ref sig .tc} (h : r ∉ hostOps1_W) : U5 m c r = U4 m c r :=
  StableHlo.after_of_writes_sub hostOps1 _ hostOps1_writes h
theorem U6_read (c : Dev nD) {r : Ref sig .tc} (h : r ≠ main_v21) : U6 m c r = U5 m c r := upd_ne _ h _
theorem U7_read (c : Dev nD) {r : Ref sig .tc} (h : r ≠ main_v22) : U7 m c r = U6 m c r := upd_ne _ h _
theorem U8_read (c : Dev nD) {r : Ref sig .tc} (h : r ∉ hostOps3_W) : U8 m c r = U7 m c r :=
  StableHlo.after_of_writes_sub hostOps3 _ hostOps3_writes h
theorem U9_read (c : Dev nD) {r : Ref sig .tc} (h : r ≠ main_v33) : U9 m c r = U8 m c r := upd_ne _ h _

/-- Buffer `r` holds, after each item up to the last region's entry, what it held when the first region was entered. -/
abbrev Kept (c : Dev nD) (r : Ref sig .tc) : Prop :=
  U4 m c r = V3 m c r ∧ U5 m c r = V3 m c r ∧ U6 m c r = V3 m c r ∧ U7 m c r = V3 m c r
    ∧ U8 m c r = V3 m c r ∧ U9 m c r = V3 m c r

/-- So does every buffer that no item from the first region on writes. -/
theorem kept (c : Dev nD) {r : Ref sig .tc} (h10 : r ≠ main_v10) (h1 : r ∉ hostOps1_W) (h21 : r ≠ main_v21)
    (h22 : r ≠ main_v22) (h3 : r ∉ hostOps3_W) (h33 : r ≠ main_v33) : Kept m c r := by
  have e4 := U4_read m c h10
  have e5 := (U5_read m c h1).trans e4
  have e6 := (U6_read m c h21).trans e5
  have e7 := (U7_read m c h22).trans e6
  have e8 := (U8_read m c h3).trans e7
  have e9 := (U9_read m c h33).trans e8
  exact ⟨e4, e5, e6, e7, e8, e9⟩

/-! ## The arguments and the normalisation column along the chain -/

theorem V3_arg0 (c : Dev nD) : V3 m c main_arg0 = m ((c : Thread nD τ).loc main_arg0) :=
  V3_read m c main_arg0 (by decide) (by decide) (by decide)
theorem V3_arg1 (c : Dev nD) : V3 m c main_arg1 = m ((c : Thread nD τ).loc main_arg1) :=
  V3_read m c main_arg1 (by decide) (by decide) (by decide)
theorem V3_arg2 (c : Dev nD) : V3 m c main_arg2 = m ((c : Thread nD τ).loc main_arg2) :=
  V3_read m c main_arg2 (by decide) (by decide) (by decide)
theorem V3_arg3 (c : Dev nD) : V3 m c main_arg3 = m ((c : Thread nD τ).loc main_arg3) :=
  V3_read m c main_arg3 (by decide) (by decide) (by decide)
theorem V3_arg4 (c : Dev nD) : V3 m c main_arg4 = m ((c : Thread nD τ).loc main_arg4) :=
  V3_read m c main_arg4 (by decide) (by decide) (by decide)

theorem kept_arg1 (c : Dev nD) : Kept m c main_arg1 := kept m c (r := main_arg1) (by decide) (by decide) (by decide) (by decide) (by decide) (by decide)
theorem kept_arg2 (c : Dev nD) : Kept m c main_arg2 := kept m c (r := main_arg2) (by decide) (by decide) (by decide) (by decide) (by decide) (by decide)
theorem kept_arg4 (c : Dev nD) : Kept m c main_arg4 := kept m c (r := main_arg4) (by decide) (by decide) (by decide) (by decide) (by decide) (by decide)
theorem kept_norm (c : Dev nD) : Kept m c main_v9 := kept m c (r := main_v9) (by decide) (by decide) (by decide) (by decide) (by decide) (by decide)

/-! ## Each result array along the chain, as the specification's term of the launch contents -/

/-- The specification's intermediate arrays, of the five argument arrays as launched on core `c`: the normalisation
    column, then per layer the projection, the aggregation over the edges and the closing step. -/
abbrev spN (c : Dev nD) := Cert.Spec.normCol (m ((c : Thread nD τ).loc main_arg1))
abbrev spY1 (c : Dev nD) :=
  Cert.Spec.proj1 (m ((c : Thread nD τ).loc main_arg0)) (m ((c : Thread nD τ).loc main_arg3)) (spN m c)
abbrev spA1 (c : Dev nD) :=
  Cert.Spec.agg1 (spY1 m c) (m ((c : Thread nD τ).loc main_arg1)) (m ((c : Thread nD τ).loc main_arg2))
abbrev spH1 (c : Dev nD) := Cert.Spec.post1 (spA1 m c) (spN m c)
abbrev spY2 (c : Dev nD) := Cert.Spec.proj2 (spH1 m c) (m ((c : Thread nD τ).loc main_arg4)) (spN m c)
abbrev spA2 (c : Dev nD) :=
  Cert.Spec.agg2 (spY2 m c) (m ((c : Thread nD τ).loc main_arg1)) (m ((c : Thread nD τ).loc main_arg2))
abbrev spZ (c : Dev nD) := Cert.Spec.post2 (spA2 m c) (spN m c)

/-- After the first region: the first projection. -/
theorem U4_v10 (c : Dev nD) : U4 m c main_v10 = spY1 m c := by
  refine (upd_self _ _ _).trans ?_
  unfold o4
  rw [final0]
  dsimp only [atTc]
  rw [V3_arg0, V3_arg3, V3_norm]

/-- After the host's first aggregation. -/
theorem U5_v20 (c : Dev nD) : U5 m c main_v20 = spA1 m c := by
  show StableHlo.after hostOps1 (U4 m c) main_v20 = _
  rw [agg1_of, U4_v10, (kept_arg1 m c).1, (kept_arg2 m c).1, V3_arg1, V3_arg2]

/-- After the second region: the first layer's closing step. -/
theorem U6_v21 (c : Dev nD) : U6 m c main_v21 = spH1 m c := by
  refine (upd_self _ _ _).trans ?_
  unfold o6
  rw [final1]
  dsimp only [atTc]
  rw [U5_v20, (kept_norm m c).2.1, V3_norm]

/-- After the third region: the second projection. -/
theorem U7_v22 (c : Dev nD) : U7 m c main_v22 = spY2 m c := by
  refine (upd_self _ _ _).trans ?_
  unfold o7
  rw [final2]
  dsimp only [atTc]
  rw [U6_v21, (kept_arg4 m c).2.2.1, (kept_norm m c).2.2.1, V3_arg4, V3_norm]

/-- After the host's second aggregation. -/
theorem U8_v32 (c : Dev nD) : U8 m c main_v32 = spA2 m c := by
  show StableHlo.after hostOps3 (U7 m c) main_v32 = _
  rw [agg2_of, U7_v22, (kept_arg1 m c).2.2.2.1, (kept_arg2 m c).2.2.2.1, V3_arg1, V3_arg2]

/-- After the fourth region: the second layer's closing step. -/
theorem U9_v33 (c : Dev nD) : U9 m c main_v33 = spZ m c := by
  refine (upd_self _ _ _).trans ?_
  unfold o9
  rw [final3]
  dsimp only [atTc]
  rw [U8_v32, (kept_norm m c).2.2.2.2.1, V3_norm]

/-- After the last region the result array holds the specification's function of the five argument arrays as launched. -/
theorem kernel_value (c : Dev nD) :
    U10 m qL qR c main_v34
      = Cert.Spec.G (m ((c : Thread nD τ).loc main_arg0)) (m ((c : Thread nD τ).loc main_arg1))
          (m ((c : Thread nD τ).loc main_arg2)) (m ((c : Thread nD τ).loc main_arg3)) (m ((c : Thread nD τ).loc main_arg4)) := by
  refine (upd_self _ _ _).trans ?_
  unfold o10
  rw [final4]
  dsimp only [atTc]
  rw [U9_v33]
  rfl

end Cert.KernelIdeal.Gen

end
-- ==== Proof.RefIsSpec.lean ====
/-
  The reference program's result is the specification's term of its argument arrays: the reference's run names its
  result as one composed term of host operations, and the specification is that term cut into its steps.
-/
import proofs.«161926_j66597762892108_2_alg».proof.Proof.Spec
import proofs.«161926_j66597762892108_2_alg».proof.Proof.RefRun

noncomputable section

namespace Cert.RefValue

open Idealize.ShloMosaic Idealize.ShloMosaic.TcCoe Idealize.SL.Sem Cert.ReferenceIdeal Cert.ReferenceIdeal.Gen

set_option maxRecDepth 16384 in
/-- What the reference leaves in its result buffer is `G` of what it was launched with. -/
theorem result_eq (m : (ℓ : Loc nD τ sig) → Buf (Elt Ideal) ℓ) (c : Dev nD) :
    Cert.ReferenceIdeal.ValueP.res_main_v42 (F := Ideal) m c
      = Cert.Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.ValueP.res_main_v42 Cert.Spec.G Cert.Spec.gram Cert.Spec.post2 Cert.Spec.agg2 Cert.Spec.proj2
    Cert.Spec.post1 Cert.Spec.agg1 Cert.Spec.proj1 Cert.Spec.normCol Cert.Spec.deg Cert.Spec.gatherIdx Cert.Spec.scatterIdx
  rfl

end Cert.RefValue

end
-- ==== Proof.lean ====
/-
  Two programs for a two-layer graph convolution followed by an inner-product decoder,

      z = D · A · ((D · max(A · ((D · h) W₀), 0) · D … ) W₁)   in steps:   y ↦ (n ⊙ y) W,  gather / scatter-sum over the edges,
      rows scaled by n (then max · 0 after the first layer),   and finally   z zᵀ,        n = deg⁻¹ᐟ²,

  are the same function of their arguments over the extended reals. The kernel program computes the two projections, the
  two row scalings and the inner products in five pipelined kernels, block of rows by block of rows (the decoder block of
  rows by block of columns), and the degree count, the gathers and the scatter-sums on the host; the reference computes
  everything on the host. No kernel splits a contracted axis, so each kernel's result array is — index by index — the
  reference's operation on the kernel's whole input arrays: the same sum over the same index set, no rearrangement and
  no finiteness needed. Composing the five regions with the host operations between them (which are the reference's
  own) gives the reference's term.

  The frames: each program runs to the end, faults nowhere and leaves its arguments as launched. For the kernel program
  (at the word level and idealized) this is the composition of the host stretches and the five regions, each region by
  its pipeline's proof data and body obligation; the decoder's two input windows read one array and hold its two half
  shares. The idealization rewrote nothing, so it preserves the kernel trivially.
-/
import proofs.«161926_j66597762892108_2_alg».proof.Defs
import proofs.«161926_j66597762892108_2_alg».proof.Proof.Gen.Kernel
import proofs.«161926_j66597762892108_2_alg».proof.Proof.Gen.KernelIdeal
import proofs.«161926_j66597762892108_2_alg».proof.Proof.Gen.ReferenceIdeal
import proofs.«161926_j66597762892108_2_alg».proof.Proof.Gen.Pre_finite_inputs
import proofs.«161926_j66597762892108_2_alg».proof.Proof.Top
import proofs.«161926_j66597762892108_2_alg».proof.Proof.TopK
import proofs.«161926_j66597762892108_2_alg».proof.Proof.KVal
import proofs.«161926_j66597762892108_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Gen.frame_all (F := Bits) m ρ

/-- So does the idealized one: its run, the result forgotten. -/
theorem frame_ki : Cert.frame_KernelIdeal := fun m ρ _ =>
  (θ_run Cert.KernelIdeal.defs _ _).mono (fun _ h c => (h c).2) (Cert.KernelIdeal.Gen.run_all (F := Ideal) m ρ)

/-- And the reference: its run, the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with `G` of their arguments in the result buffer, and the arguments agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Gen.kernel_value m c), (h c).2⟩)
      (Cert.KernelIdeal.Gen.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.RefValue.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
